-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x8x1024 : Shape := ⟨4, ![4, 1024, 8, 1024]⟩
abbrev S4x1024x64 : Shape := ⟨3, ![4, 1024, 64]⟩
abbrev S8x9 : Shape := ⟨2, ![8, 9]⟩
abbrev S8 : Shape := ⟨1, ![8]⟩
abbrev S_ : Shape := ⟨0, ![]⟩

class Facts : Prop where
  bcast_S_S4x1024x8x1024 : S_.BroadcastsInDim S4x1024x8x1024 (![] : Fin 0 → Fin S4x1024x8x1024.rank)
  reducesTo_S4x1024x8x1024_S_d0_1_2_3 : S4x1024x8x1024.ReducesTo [0, 1, 2, 3] S_
  h_S_ : 0 < S_.numel
  bcast_S_S4x1024x64 : S_.BroadcastsInDim S4x1024x64 (![] : Fin 0 → Fin S4x1024x64.rank)
  reducesTo_S4x1024x64_S_d0_1_2 : S4x1024x64.ReducesTo [0, 1, 2] S_
  bcast_S_S8x9 : S_.BroadcastsInDim S8x9 (![] : Fin 0 → Fin S8x9.rank)
  reducesTo_S8x9_S_d0_1 : S8x9.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_arg5 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S4x1024x8x1024 .f32) (main_arg1 : FVec F S4x1024x64 .f32) (main_arg2 : FVec F S8x9 .f32) (main_arg3 : FVec F S8 .f32) (main_arg4 : FVec F S8 .f32) (main_arg5 : FVec F S8 .f32) : IVec S_ 1 :=
  let main_v0 : FVec F S4x1024x8x1024 .f32 := Host.absf main_arg0
  let main_cst : FVec F S_ .f32 := constant S_ .f32 0x7F800000#32
  let main_v1 : FVec F S4x1024x8x1024 .f32 := broadcastInDim S4x1024x8x1024 ![] bcast_S_S4x1024x8x1024 main_cst
  let main_v2 : IVec S4x1024x8x1024 1 := cmpf .olt main_v0 main_v1
  let main_c : IVec S_ 1 := constantI S_ 1 1#1
  let main_v3 : IVec S_ 1 := (fun x v => Host.reduce IntOp.andi x v reducesTo_S4x1024x8x1024_S_d0_1_2_3 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  let main_v9 : FVec F S8x9 .f32 := Host.absf main_arg2
  let main_cst_2 : FVec F S_ .f32 := constant S_ .f32 0x7F800000#32
  let main_v10 : FVec F S8x9 .f32 := broadcastInDim S8x9 ![] bcast_S_S8x9 main_cst_2
  let main_v11 : IVec S8x9 1 := cmpf .olt main_v9 main_v10
  let main_c_3 : IVec S_ 1 := constantI S_ 1 1#1
  let main_v12 : IVec S_ 1 := (fun x v => Host.reduce IntOp.andi x v reducesTo_S8x9_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_v13 main_v16
-- ==== Kernel.lean ====
abbrev S4x1024x8x1024 : Shape := ⟨4, ![4, 1024, 8, 1024]⟩
abbrev S4x1024x64 : Shape := ⟨3, ![4, 1024, 64]⟩
abbrev S8x9 : Shape := ⟨2, ![8, 9]⟩
abbrev S8 : Shape := ⟨1, ![8]⟩
abbrev S4x1x8 : Shape := ⟨3, ![4, 1, 8]⟩
abbrev S1x128x8x1024 : Shape := ⟨4, ![1, 128, 8, 1024]⟩
abbrev S1x128x64 : Shape := ⟨3, ![1, 128, 64]⟩
abbrev S1x1024x64 : Shape := ⟨3, ![1, 1024, 64]⟩
abbrev S1x1x8 : Shape := ⟨3, ![1, 1, 8]⟩
abbrev S1x8 : Shape := ⟨2, ![1, 8]⟩
abbrev S128x8x1024 : Shape := ⟨3, ![128, 8, 1024]⟩
abbrev S128x64 : Shape := ⟨2, ![128, 64]⟩
abbrev S1024x64 : Shape := ⟨2, ![1024, 64]⟩
abbrev S128 : Shape := ⟨1, ![128]⟩
abbrev S128x1 : Shape := ⟨2, ![128, 1]⟩
abbrev S1024 : Shape := ⟨1, ![1024]⟩
abbrev S128x1024 : Shape := ⟨2, ![128, 1024]⟩
abbrev S1x1024 : Shape := ⟨2, ![1, 1024]⟩
abbrev S128x1x1024 : Shape := ⟨3, ![128, 1, 1024]⟩
abbrev S1x8x1 : Shape := ⟨3, ![1, 8, 1]⟩
abbrev S8x1 : Shape := ⟨2, ![8, 1]⟩
abbrev S_ : Shape := ⟨0, ![]⟩

abbrev nBuf : Space → Nat
  | .hbm => 26
  | .vmem => 26
  | .smem => 0
  | _ => 0

abbrev bufTy : (tb : Table) → Fin (tcTables nBuf tb) → BufTy
  | .hbm, ⟨0, _⟩ => ⟨S4x1024x8x1024, .f32⟩
  | .hbm, ⟨1, _⟩ => ⟨S4x1024x64, .f32⟩
  | .hbm, ⟨2, _⟩ => ⟨S8x9, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S4x1x8, .f32⟩
  | .hbm, ⟨7, _⟩ => ⟨S4x1x8, .f32⟩
  | .hbm, ⟨8, _⟩ => ⟨S_, .f32⟩
  | .hbm, ⟨9, _⟩ => ⟨S1x8, .f32⟩
  | .hbm, ⟨10, _⟩ => ⟨S8, .f32⟩
  | .hbm, ⟨11, _⟩ => ⟨S_, .f32⟩
  | .hbm, ⟨12, _⟩ => ⟨S1x8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S4x1024x8x1024, .f32⟩
  | .local _ .vmem, ⟨0, _⟩ => ⟨S1x128x8x1024, .f32⟩
  | .local _ .vmem, ⟨1, _⟩ => ⟨S1x128x8x1024, .f32⟩
  | .local _ .vmem, ⟨2, _⟩ => ⟨S1x128x64, .f32⟩
  | .local _ .vmem, ⟨3, _⟩ => ⟨S1x128x64, .f32⟩
  | .local _ .vmem, ⟨4, _⟩ => ⟨S1x1024x64, .f32⟩
  | .local _ .vmem, ⟨5, _⟩ => ⟨S1x1024x64, .f32⟩
  | .local _ .vmem, ⟨6, _⟩ => ⟨S8x9, .f32⟩
  | .local _ .vmem, ⟨7, _⟩ => ⟨S8, .f32⟩
  | .local _ .vmem, ⟨8, _⟩ => ⟨S1x1x8, .f32⟩
  | .local _ .vmem, ⟨9, _⟩ => ⟨S1x1x8, .f32⟩
  | .local _ .vmem, ⟨10, _⟩ => ⟨S1x1x8, .f32⟩
  | .local _ .vmem, ⟨11, _⟩ => ⟨S1x1x8, .f32⟩
  | .local _ .vmem, ⟨12, _⟩ => ⟨S1x128x8x1024, .f32⟩
  | .local _ .vmem, ⟨13, _⟩ => ⟨S1x128x8x1024, .f32⟩
  | .local _ .vmem, ⟨14, _⟩ => ⟨S1x128x64, .f32⟩
  | .local _ .vmem, ⟨15, _⟩ => ⟨S1x128x64, .f32⟩
  | .local _ .vmem, ⟨16, _⟩ => ⟨S1x1024x64, .f32⟩
  | .local _ .vmem, ⟨17, _⟩ => ⟨S1x1024x64, .f32⟩
  | .local _ .vmem, ⟨18, _⟩ => ⟨S8x9, .f32⟩
  | .local _ .vmem, ⟨19, _⟩ => ⟨S8, .f32⟩
  | .local _ .vmem, ⟨20, _⟩ => ⟨S8, .f32⟩
  | .local _ .vmem, ⟨21, _⟩ => ⟨S8, .f32⟩
  | .local _ .vmem, ⟨22, _⟩ => ⟨S8, .f32⟩
  | .local _ .vmem, ⟨23, _⟩ => ⟨S8, .f32⟩
  | .local _ .vmem, ⟨24, _⟩ => ⟨S1x128x8x1024, .f32⟩
  | .local _ .vmem, ⟨25, _⟩ => ⟨S1x128x8x1024, .f32⟩
  | _, _ => ⟨S4x1024x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S8x9 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x128x8x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

class Facts₀ : Prop where
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  shapeCasts_S1x8_S1x1x8 : S1x8.ShapeCasts S1x1x8
  inb_S1x128x8x1024_S1x128x8x1024_0_0_0_0 : ∀ a, (![0, 0, 0, 0] : Fin 4 → Nat) a + S1x128x8x1024.size a ≤ S1x128x8x1024.size a
  h_S1x128x8x1024 : 0 < S1x128x8x1024.numel
  shapeCasts_S1x128x8x1024_S128x8x1024 : S1x128x8x1024.ShapeCasts S128x8x1024
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S128x64_S128 : S128x64.Reduces [1] S128
  shapeCasts_S128_S128x1 : S128.ShapeCasts S128x1
  reduces_S1024x64_S1024 : S1024x64.Reduces [1] S1024
  shapeCasts_S1024_S1x1024 : S1024.ShapeCasts S1x1024
  broadcasts_S128x1_S128x1024 : S128x1.Broadcasts S128x1024
  broadcasts_S1x1024_S128x1024 : S1x1024.Broadcasts S128x1024
  inb_S8x9_S8x9_0_0 : ∀ a, (![0, 0] : Fin 2 → Nat) a + S8x9.size a ≤ S8x9.size a
  h_S8x9 : 0 < S8x9.numel
  inb_S8_S8_0 : ∀ a, (![0] : Fin 1 → Nat) a + S8.size a ≤ S8.size a
  h_S8 : 0 < S8.numel
  slices_S128x8x1024_o0_0_0_S128x1x1024 : S128x8x1024.Slices ![0, 0, 0] S128x1x1024
  shapeCasts_S128x1x1024_S128x1024 : S128x1x1024.ShapeCasts S128x1024
  slices_S128x8x1024_o0_1_0_S128x1x1024 : S128x8x1024.Slices ![0, 1, 0] S128x1x1024
  slices_S128x8x1024_o0_2_0_S128x1x1024 : S128x8x1024.Slices ![0, 2, 0] S128x1x1024
  slices_S128x8x1024_o0_3_0_S128x1x1024 : S128x8x1024.Slices ![0, 3, 0] S128x1x1024
  slices_S128x8x1024_o0_4_0_S128x1x1024 : S128x8x1024.Slices ![0, 4, 0] S128x1x1024
  slices_S128x8x1024_o0_5_0_S128x1x1024 : S128x8x1024.Slices ![0, 5, 0] S128x1x1024
  slices_S128x8x1024_o0_6_0_S128x1x1024 : S128x8x1024.Slices ![0, 6, 0] S128x1x1024
  slices_S128x8x1024_o0_7_0_S128x1x1024 : S128x8x1024.Slices ![0, 7, 0] S128x1x1024
  shapeCasts_S8_S1x8x1 : S8.ShapeCasts S1x8x1
  shapeCasts_S1x8x1_S1x8x1 : S1x8x1.ShapeCasts S1x8x1
  broadcasts_S1x8x1_S128x8x1024 : S1x8x1.Broadcasts S128x8x1024
  slices_S8x9_o0_0_S8x1 : S8x9.Slices ![0, 0] S8x1
  shapeCasts_S8x1_S8 : S8x1.ShapeCasts S8
  shapeCasts_S128x1024_S128x1x1024 : S128x1024.ShapeCasts S128x1x1024
  broadcasts_S128x1x1024_S128x8x1024 : S128x1x1024.Broadcasts S128x8x1024
  slices_S8x9_o0_1_S8x1 : S8x9.Slices ![0, 1] S8x1
  slices_S8x9_o0_2_S8x1 : S8x9.Slices ![0, 2] S8x1
  slices_S8x9_o0_3_S8x1 : S8x9.Slices ![0, 3] S8x1
  slices_S8x9_o0_4_S8x1 : S8x9.Slices ![0, 4] S8x1
  slices_S8x9_o0_5_S8x1 : S8x9.Slices ![0, 5] S8x1
  slices_S8x9_o0_6_S8x1 : S8x9.Slices ![0, 6] S8x1
  slices_S8x9_o0_7_S8x1 : S8x9.Slices ![0, 7] S8x1
  slices_S8x9_o0_8_S8x1 : S8x9.Slices ![0, 8] S8x1
  reduces_S128x8x1024_S8 : S128x8x1024.Reduces [0, 2] S8
  shapeCasts_S8_S1x8 : S8.ShapeCasts S1x8
  reducesTo_S4x1x8_S1x8_d0 : S4x1x8.ReducesTo [0] S1x8
  h_S_ : 0 < S_.numel
  shapeCasts_S1x8_S8 : S1x8.ShapeCasts S8
  bcast_S_S8 : S_.BroadcastsInDim S8 (![] : Fin 0 → Fin S8.rank)
  shapeCasts_S8_S8 : S8.ShapeCasts S8
  shapeCasts_S128x8x1024_S1x128x8x1024 : S128x8x1024.ShapeCasts S1x128x8x1024
  dot_S128x64_S1024x64_S128x1024_1_1_0_0_n_n_wf : DotDims.WF S128x64 S1024x64 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8x1024.size a ≤ S4x1024x8x1024.size a
  hwx0_0 : ∀ i : grid0.Coords, EltTy.bits .f32 = 32 ∨ (Rect.block (s := S4x1024x8x1024) S1x128x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S4x1024x64.size a
  hwx0_1 : ∀ i : grid0.Coords, EltTy.bits .f32 = 32 ∨ (Rect.block (s := S4x1024x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x1024x64.size a
  hwx0_2 : ∀ i : grid0.Coords, EltTy.bits .f32 = 32 ∨ (Rect.block (s := S4x1024x64) S1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x9.size a ≤ S8x9.size a
  hwx0_3 : ∀ i : grid0.Coords, EltTy.bits .f32 = 32 ∨ (Rect.block (s := S8x9) S8x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8.size a ≤ S4x1x8.size a
  hwx0_5 : ∀ i : grid0.Coords, EltTy.bits .f32 = 32 ∨ (Rect.block (s := S4x1x8) S1x1x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x8.size a ≤ S4x1x8.size a
  hwx0_6 : ∀ i : grid0.Coords, EltTy.bits .f32 = 32 ∨ (Rect.block (s := S4x1x8) S1x1x8.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x8x1024.size a ≤ S4x1024x8x1024.size a
  hwx1_0 : ∀ i : grid1.Coords, EltTy.bits .f32 = 32 ∨ (Rect.block (s := S4x1024x8x1024) S1x128x8x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S4x1024x64.size a
  hwx1_1 : ∀ i : grid1.Coords, EltTy.bits .f32 = 32 ∨ (Rect.block (s := S4x1024x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x1024x64.size a
  hwx1_2 : ∀ i : grid1.Coords, EltTy.bits .f32 = 32 ∨ (Rect.block (s := S4x1024x64) S1x1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x9.size a ≤ S8x9.size a
  hwx1_3 : ∀ i : grid1.Coords, EltTy.bits .f32 = 32 ∨ (Rect.block (s := S8x9) S8x9.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8.size a ≤ S8.size a
  hwx1_4 : ∀ i : grid1.Coords, EltTy.bits .f32 = 32 ∨ (Rect.block (s := S8) S8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8.size a ≤ S8.size a
  hwx1_5 : ∀ i : grid1.Coords, EltTy.bits .f32 = 32 ∨ (Rect.block (s := S8) S8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8.size a ≤ S8.size a
  hwx1_6 : ∀ i : grid1.Coords, EltTy.bits .f32 = 32 ∨ (Rect.block (s := S8) S8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8.size a ≤ S8.size a
  hwx1_7 : ∀ i : grid1.Coords, EltTy.bits .f32 = 32 ∨ (Rect.block (s := S8) S8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8.size a ≤ S8.size a
  hwx1_8 : ∀ i : grid1.Coords, EltTy.bits .f32 = 32 ∨ (Rect.block (s := S8) S8.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x128x8x1024.size a ≤ S4x1024x8x1024.size a
  hwx1_9 : ∀ i : grid1.Coords, EltTy.bits .f32 = 32 ∨ (Rect.block (s := S4x1024x8x1024) S1x128x8x1024.size (cc1_transform_9 i) (hinb1_9 i)).WholeWords (EltTy.packing .f32)

variable [Facts₀]

def dot_S128x64_S1024x64_S128x1024_1_1_0_0_n_n : DotDims S128x64 S1024x64 S128x1024 where
  lhsContracting := [1]
  rhsContracting := [1]
  lhsNonContracting := [0]
  rhsNonContracting := [0]
  lhsBatch := []
  rhsBatch := []
  wf := dot_S128x64_S1024x64_S128x1024_1_1_0_0_n_n_wf

abbrev win0_0 : Pipeline.Window sig grid0 :=
  Pipeline.Window.ofSpec (Memref.whole main_arg0) S1x128x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S8x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x8.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x128x8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S8x9.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg4) S8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg5) S8.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13) S1x128x8x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4x1024x8x1024 : Shape := ⟨4, ![4, 1024, 8, 1024]⟩
abbrev S4x1024x64 : Shape := ⟨3, ![4, 1024, 64]⟩
abbrev S8x9 : Shape := ⟨2, ![8, 9]⟩
abbrev S8 : Shape := ⟨1, ![8]⟩
abbrev S_ : Shape := ⟨0, ![]⟩
abbrev S4x1024 : Shape := ⟨2, ![4, 1024]⟩
abbrev S4x1024x1024 : Shape := ⟨3, ![4, 1024, 1024]⟩
abbrev S4x1024x1 : Shape := ⟨3, ![4, 1024, 1]⟩
abbrev S4x1x1024 : Shape := ⟨3, ![4, 1, 1024]⟩
abbrev S4x1024x1024x8 : Shape := ⟨4, ![4, 1024, 1024, 8]⟩
abbrev S4x1024x1024x1 : Shape := ⟨4, ![4, 1024, 1024, 1]⟩
abbrev S4x1024x1024x9 : Shape := ⟨4, ![4, 1024, 1024, 9]⟩
abbrev S1x1x1x8 : Shape := ⟨4, ![1, 1, 1, 8]⟩
abbrev S4x8x1024x1024 : Shape := ⟨4, ![4, 8, 1024, 1024]⟩
abbrev S1x8x1x1 : Shape := ⟨4, ![1, 8, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x8x1024, .f32⟩
  | .hbm, ⟨1, _⟩ => ⟨S4x1024x64, .f32⟩
  | .hbm, ⟨2, _⟩ => ⟨S8x9, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S4x1024x64, .f32⟩
  | .hbm, ⟨7, _⟩ => ⟨S_, .f32⟩
  | .hbm, ⟨8, _⟩ => ⟨S4x1024, .f32⟩
  | .hbm, ⟨9, _⟩ => ⟨S4x1024x1024, .f32⟩
  | .hbm, ⟨10, _⟩ => ⟨S4x1024x1, .f32⟩
  | .hbm, ⟨11, _⟩ => ⟨S4x1x1024, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S4x1024x1024x8, .f32⟩
  | .hbm, ⟨22, _⟩ => ⟨S4x1024x1024x1, .f32⟩
  | .hbm, ⟨23, _⟩ => ⟨S4x1024x1024x9, .f32⟩
  | .hbm, ⟨24, _⟩ => ⟨S4x1024x1024x8, .f32⟩
  | .hbm, ⟨25, _⟩ => ⟨S1x1x1x8, .f32⟩
  | .hbm, ⟨26, _⟩ => ⟨S4x1024x1024x8, .f32⟩
  | .hbm, ⟨27, _⟩ => ⟨S4x1024x1024x8, .f32⟩
  | .hbm, ⟨28, _⟩ => ⟨S4x1024x8x1024, .f32⟩
  | .hbm, ⟨29, _⟩ => ⟨S_, .f32⟩
  | .hbm, ⟨30, _⟩ => ⟨S4x1024x8x1024, .f32⟩
  | .hbm, ⟨31, _⟩ => ⟨S4x1024x8x1024, .f32⟩
  | .hbm, ⟨32, _⟩ => ⟨S4x8x1024x1024, .f32⟩
  | .hbm, ⟨33, _⟩ => ⟨S_, .f32⟩
  | .hbm, ⟨34, _⟩ => ⟨S8, .f32⟩
  | .hbm, ⟨35, _⟩ => ⟨S1x8x1x1, .f32⟩
  | .hbm, ⟨36, _⟩ => ⟨S_, .f32⟩
  | .hbm, ⟨37, _⟩ => ⟨S1x8x1x1, .f32⟩
  | .hbm, ⟨38, _⟩ => ⟨S1x8x1x1, .f32⟩
  | .hbm, ⟨39, _⟩ => ⟨S4x8x1024x1024, .f32⟩
  | .hbm, ⟨40, _⟩ => ⟨S4x8x1024x1024, .f32⟩
  | .hbm, ⟨41, _⟩ => ⟨S4x8x1024x1024, .f32⟩
  | .hbm, ⟨42, _⟩ => ⟨S_, .f32⟩
  | .hbm, ⟨43, _⟩ => ⟨S8, .f32⟩
  | .hbm, ⟨44, _⟩ => ⟨S1x8x1x1, .f32⟩
  | .hbm, ⟨45, _⟩ => ⟨S_, .f32⟩
  | .hbm, ⟨46, _⟩ => ⟨S1x8x1x1, .f32⟩
  | .hbm, ⟨47, _⟩ => ⟨S1x8x1x1, .f32⟩
  | .hbm, ⟨48, _⟩ => ⟨S4x8x1024x1024, .f32⟩
  | .hbm, ⟨49, _⟩ => ⟨S4x8x1024x1024, .f32⟩
  | .hbm, ⟨50, _⟩ => ⟨S_, .f32⟩
  | .hbm, ⟨51, _⟩ => ⟨S1x8x1x1, .f32⟩
  | .hbm, ⟨52, _⟩ => ⟨S1x8x1x1, .f32⟩
  | .hbm, ⟨53, _⟩ => ⟨S1x8x1x1, .f32⟩
  | .hbm, ⟨54, _⟩ => ⟨S4x8x1024x1024, .f32⟩
  | .hbm, ⟨55, _⟩ => ⟨S4x8x1024x1024, .f32⟩
  | .hbm, ⟨56, _⟩ => ⟨S1x8x1x1, .f32⟩
  | .hbm, ⟨57, _⟩ => ⟨S4x8x1024x1024, .f32⟩
  | .hbm, ⟨58, _⟩ => ⟨S4x8x1024x1024, .f32⟩
  | .hbm, ⟨59, _⟩ => ⟨S1x8x1x1, .f32⟩
  | .hbm, ⟨60, _⟩ => ⟨S4x8x1024x1024, .f32⟩
  | .hbm, ⟨61, _⟩ => ⟨S4x8x1024x1024, .f32⟩
  | .hbm, ⟨62, _⟩ => ⟨S4x1024x8x1024, .f32⟩
  | _, _ => ⟨S4x1024x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  reducesTo_S4x1024x64_S4x1024_d2 : S4x1024x64.ReducesTo [2] S4x1024
  h_S_ : 0 < S_.numel
  bcast_S4x1024_S4x1024x1_0_1 : S4x1024.BroadcastsInDim S4x1024x1 (![0, 1] : Fin 2 → Fin S4x1024x1.rank)
  bcast_S4x1024_S4x1x1024_0_2 : S4x1024.BroadcastsInDim S4x1x1024 (![0, 2] : Fin 2 → Fin S4x1x1024.rank)
  bcast_S4x1024x1_S4x1024x1024_0_1_2 : S4x1024x1.BroadcastsInDim S4x1024x1024 (![0, 1, 2] : Fin 3 → Fin S4x1024x1024.rank)
  bcast_S4x1x1024_S4x1024x1024_0_1_2 : S4x1x1024.BroadcastsInDim S4x1024x1024 (![0, 1, 2] : Fin 3 → Fin S4x1024x1024.rank)
  bcast_S_S4x1024x1024 : S_.BroadcastsInDim S4x1024x1024 (![] : Fin 0 → Fin S4x1024x1024.rank)
  transposes_S4x1024x8x1024_S4x1024x1024x8_0_1_3_2 : S4x1024x8x1024.Transposes [0, 1, 3, 2] S4x1024x1024x8
  bcast_S4x1024x1024_S4x1024x1024x1_0_1_2 : S4x1024x1024.BroadcastsInDim S4x1024x1024x1 (![0, 1, 2] : Fin 3 → Fin S4x1024x1024x1.rank)
  concatenates_S4x1024x1024x8_S4x1024x1024x1_S4x1024x1024x9_d3 : Shape.Concatenates [S4x1024x1024x8, S4x1024x1024x1] S4x1024x1024x9 3
  bcast_S8_S1x1x1x8_3 : S8.BroadcastsInDim S1x1x1x8 (![3] : Fin 1 → Fin S1x1x1x8.rank)
  bcast_S1x1x1x8_S4x1024x1024x8_0_1_2_3 : S1x1x1x8.BroadcastsInDim S4x1024x1024x8 (![0, 1, 2, 3] : Fin 4 → Fin S4x1024x1024x8.rank)
  transposes_S4x1024x1024x8_S4x1024x8x1024_0_1_3_2 : S4x1024x1024x8.Transposes [0, 1, 3, 2] S4x1024x8x1024
  bcast_S_S4x1024x8x1024 : S_.BroadcastsInDim S4x1024x8x1024 (![] : Fin 0 → Fin S4x1024x8x1024.rank)
  transposes_S4x1024x8x1024_S4x8x1024x1024_0_2_1_3 : S4x1024x8x1024.Transposes [0, 2, 1, 3] S4x8x1024x1024
  reducesTo_S4x8x1024x1024_S8_d0_2_3 : S4x8x1024x1024.ReducesTo [0, 2, 3] S8
  bcast_S8_S1x8x1x1_1 : S8.BroadcastsInDim S1x8x1x1 (![1] : Fin 1 → Fin S1x8x1x1.rank)
  bcast_S_S1x8x1x1 : S_.BroadcastsInDim S1x8x1x1 (![] : Fin 0 → Fin S1x8x1x1.rank)
  bcast_S1x8x1x1_S4x8x1024x1024_0_1_2_3 : S1x8x1x1.BroadcastsInDim S4x8x1024x1024 (![0, 1, 2, 3] : Fin 4 → Fin S4x8x1024x1024.rank)
  transposes_S4x8x1024x1024_S4x1024x8x1024_0_2_1_3 : S4x8x1024x1024.Transposes [0, 2, 1, 3] S4x1024x8x1024
  dot_S4x1024x64_S4x1024x64_S4x1024x1024_2_2_1_1_0_0_wf : DotDims.WF S4x1024x64 S4x1024x64 S4x1024x1024 [2] [2] [1] [1] [0] [0]
  dot_S4x1024x1024x9_S8x9_S4x1024x1024x8_3_1_012_0_n_n_wf : DotDims.WF S4x1024x1024x9 S8x9 S4x1024x1024x8 [3] [1] [0, 1, 2] [0] [] []

variable [Facts₀]

def dot_S4x1024x64_S4x1024x64_S4x1024x1024_2_2_1_1_0_0 : DotDims S4x1024x64 S4x1024x64 S4x1024x1024 where
  lhsContracting := [2]
  rhsContracting := [2]
  lhsNonContracting := [1]
  rhsNonContracting := [1]
  lhsBatch := [0]
  rhsBatch := [0]
  wf := dot_S4x1024x64_S4x1024x64_S4x1024x1024_2_2_1_1_0_0_wf
def dot_S4x1024x1024x9_S8x9_S4x1024x1024x8_3_1_012_0_n_n : DotDims S4x1024x1024x9 S8x9 S4x1024x1024x8 where
  lhsContracting := [3]
  rhsContracting := [1]
  lhsNonContracting := [0, 1, 2]
  rhsNonContracting := [0]
  lhsBatch := []
  rhsBatch := []
  wf := dot_S4x1024x1024x9_S8x9_S4x1024x1024x8_3_1_012_0_n_n_wf

class Facts : Prop extends Facts₀ where

variable [Facts]
-- ==== Proof.KIBase0.lean ====
/-
  What the statistics kernel's two cases are stated over: whether a grid point is the first tile of its batch.

  The grid is (batch, tile) with 8 tiles per batch. The body's one conditional asks whether the tile coordinate is
  zero; it is decided here over the whole grid: the points whose position is a multiple of 8.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen

variable {F : FTy → Type} [FloatOps F]

/-- The body's conditional: the tile coordinate is zero (the printed scalar chain over the grid coordinates). -/
abbrev cond0 (i : grid0.Coords) : Prop :=
  (Scalar.cmpi .ne (Scalar.extui (Scalar.cmpi .eq (BitVec.ofNat 32 (i 1).val) 0#32)) 0#32) = 1#1

/-- It holds exactly at the first tile of each batch. -/
theorem hcond0 : ∀ t : Fin cfg0.N, cond0 (grid0.coords t) ↔ t.val % 8 = 0 :=
  (by decide +kernel : ∀ t : Fin grid0.N, cond0 (grid0.coords t) ↔ t.val % 8 = 0)

end Cert.KernelIdeal.Hand

end
-- ==== Proof.KIRun0A.lean ====
/-
  The statistics kernel's body, run once on any whole staging buffers, at the first tile of a batch: the two accumulators are reset to zero and the tile's sums added.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KIBase0
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the two accumulators' buffers (the running sum, the running sum of
    squares), last store first, with the proof that the body runs to a continuation that is handed the inputs
    unchanged and the accumulators' buffers with those pieces written. -/
noncomputable def kernelRun0_A (c : Dev nD) (i : grid0.Coords)
    (a2 : Memref sig .tc .vmem S1x128x8x1024 .f32) (h2 : a2.IsWhole) (a3 : Memref sig .tc .vmem S1x128x64 .f32) (h3 : a3.IsWhole)
    (a4 : Memref sig .tc .vmem S1x1024x64 .f32) (h4 : a4.IsWhole) (a5 : Memref sig .tc .vmem S8x9 .f32) (h5 : a5.IsWhole)
    (a6 : Memref sig .tc .vmem S8 .f32) (h6 : a6.IsWhole) (a7 : Memref sig .tc .vmem S1x1x8 .f32) (h7 : a7.IsWhole)
    (a8 : Memref sig .tc .vmem S1x1x8 .f32) (h8 : a8.IsWhole) (hc : cond0 i)
    (x0 : Vec F S1x128x8x1024 .f32) (x1 : Vec F S1x128x64 .f32) (x2 : Vec F S1x1024x64 .f32) (x3 : Vec F S8x9 .f32) (x4 : Vec F S8 .f32) :
    { L : List (View.Piece (Elt F) S1x1x8 .f32) × List (View.Piece (Elt F) S1x1x8 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E (cc0__lambda_ i a2 h2 a3 h3 a4 h4 a5 h5 a6 h6 a7 h7 a8 h8) K } := by
  refine ⟨⟨?_, ?_⟩, fun E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h2.eq_unread hf0
    obtain rfl := h3.eq_unread hf1
    obtain rfl := h4.eq_unread hf2
    obtain rfl := h5.eq_unread hf3
    obtain rfl := h6.eq_unread hf4

    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.KernelIdeal.Hand

end
-- ==== Proof.KIRun0B.lean ====
/-
  The statistics kernel's body, run once on any whole staging buffers, at a later tile of a batch: the tile's sums are added to what the accumulators hold.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KIBase0
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the two accumulators' buffers (the running sum, the running sum of
    squares), last store first, with the proof that the body runs to a continuation that is handed the inputs
    unchanged and the accumulators' buffers with those pieces written. -/
noncomputable def kernelRun0_B (c : Dev nD) (i : grid0.Coords)
    (a2 : Memref sig .tc .vmem S1x128x8x1024 .f32) (h2 : a2.IsWhole) (a3 : Memref sig .tc .vmem S1x128x64 .f32) (h3 : a3.IsWhole)
    (a4 : Memref sig .tc .vmem S1x1024x64 .f32) (h4 : a4.IsWhole) (a5 : Memref sig .tc .vmem S8x9 .f32) (h5 : a5.IsWhole)
    (a6 : Memref sig .tc .vmem S8 .f32) (h6 : a6.IsWhole) (a7 : Memref sig .tc .vmem S1x1x8 .f32) (h7 : a7.IsWhole)
    (a8 : Memref sig .tc .vmem S1x1x8 .f32) (h8 : a8.IsWhole) (hc : ¬cond0 i)
    (x0 : Vec F S1x128x8x1024 .f32) (x1 : Vec F S1x128x64 .f32) (x2 : Vec F S1x1024x64 .f32) (x3 : Vec F S8x9 .f32) (x4 : Vec F S8 .f32)
    (xo5 xo6 : Vec F S1x1x8 .f32) :
    { L : List (View.Piece (Elt F) S1x1x8 .f32) × List (View.Piece (Elt F) S1x1x8 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E (cc0__lambda_ i a2 h2 a3 h3 a4 h4 a5 h5 a6 h6 a7 h7 a8 h8) K } := by
  refine ⟨⟨?_, ?_⟩, fun E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0
    obtain rfl := h3.eq_unread hf1
    obtain rfl := h4.eq_unread hf2
    obtain rfl := h5.eq_unread hf3
    obtain rfl := h6.eq_unread hf4
    obtain rfl := h7.eq_unread hf5
    obtain rfl := h8.eq_unread hf6
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.KernelIdeal.Hand

end
-- ==== Proof.KIDat0.lean ====
/-
  The statistics region's proof data and its body obligation.

  At every grid point each input window's staging buffer holds that window's block of its array (fetched at this
  point or kept from an earlier one). The two output windows are accumulators with one block per batch: at the
  first tile of a batch the body resets them and adds the tile's sums; at a later tile it adds the tile's sums to
  what the point before left, the buffer not having been written back in between (it is written back after the
  batch's last tile only). What they hold after each point is therefore defined by recursion on the point.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KIRun0A
import proofs.«100599_j24919400252237_2_alg».proof.Proof.KIRun0B
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of an accumulator window, through which contents are stated (which one does not matter). -/
abbrev VO0 : View sig .tc .vmem S1x1x8 .f32 := (Memref.whole cc0_stg5_0 : Memref sig .tc .vmem S1x1x8 .f32).view
abbrev ms0_0 (t : Fin cfg0.N) : Memref sig .tc .vmem S1x128x8x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x9 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8 .f32 := win0_6.stage (cfg0.slots t 6)
abbrev hs0_6 (t : Fin cfg0.N) : (ms0_6 t).IsWhole := hstage0_6 ((cfg0.slots t 6).cast nbuf0_6)

/-- Pieces read back over anything: what a buffer holds once they are written. -/
abbrev readBack (L : List (View.Piece (Elt F) S1x1x8 .f32)) : Vec F S1x1x8 .f32 :=
  VO0.read (Elt F) (VO0.writes (Elt F) VO0.junk L)

/-- The pieces the body writes into the two accumulators at a first tile, -/
abbrev piecesA (c : Dev nD) (t : Fin cfg0.N) (h0 : t.val % 8 = 0) :
    List (View.Piece (Elt F) S1x1x8 .f32) × List (View.Piece (Elt F) S1x1x8 .f32) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0 t).mpr h0) (iblk0 V c 0 t) (iblk0 V c 1 t) (iblk0 V c 2 t) (iblk0 V c 3 t) (iblk0 V c 4 t)).1

/-- and at a later tile, over what the accumulators held. -/
abbrev piecesB (c : Dev nD) (t : Fin cfg0.N) (h0 : ¬t.val % 8 = 0) (xo5 xo6 : Vec F S1x1x8 .f32) :
    List (View.Piece (Elt F) S1x1x8 .f32) × List (View.Piece (Elt F) S1x1x8 .f32) :=
  (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0 t).mp h)) (iblk0 V c 0 t) (iblk0 V c 1 t) (iblk0 V c 2 t) (iblk0 V c 3 t) (iblk0 V c 4 t) xo5 xo6).1

theorem coverA_5 (c : Dev nD) (t : Fin cfg0.N) (h0 : t.val % 8 = 0) (y : S1x1x8.Idx) : ∃ pc ∈ (piecesA V c t h0).1, y ∈ pc.1.set :=
  View.cover_of_tiledL (piecesA V c t h0).1 S1x1x8.size (by sl_kernel_rfl) y
theorem coverA_6 (c : Dev nD) (t : Fin cfg0.N) (h0 : t.val % 8 = 0) (y : S1x1x8.Idx) : ∃ pc ∈ (piecesA V c t h0).2, y ∈ pc.1.set :=
  View.cover_of_tiledL (piecesA V c t h0).2 S1x1x8.size (by sl_kernel_rfl) y
theorem coverB_5 (c : Dev nD) (t : Fin cfg0.N) (h0 : ¬t.val % 8 = 0) (xo5 xo6 : Vec F S1x1x8 .f32) (y : S1x1x8.Idx) :
    ∃ pc ∈ (piecesB V c t h0 xo5 xo6).1, y ∈ pc.1.set :=
  View.cover_of_tiledL (piecesB V c t h0 xo5 xo6).1 S1x1x8.size (by sl_kernel_rfl) y
theorem coverB_6 (c : Dev nD) (t : Fin cfg0.N) (h0 : ¬t.val % 8 = 0) (xo5 xo6 : Vec F S1x1x8 .f32) (y : S1x1x8.Idx) :
    ∃ pc ∈ (piecesB V c t h0 xo5 xo6).2, y ∈ pc.1.set :=
  View.cover_of_tiledL (piecesB V c t h0 xo5 xo6).2 S1x1x8.size (by sl_kernel_rfl) y

/-- THE ACCUMULATION: what the running sum and the running sum of squares hold after the body at position `n`. -/
def outsAt0 (c : Dev nD) : (n : ℕ) → n < cfg0.N → Vec F S1x1x8 .f32 × Vec F S1x1x8 .f32
  | 0, hn => (readBack (piecesA V c ⟨0, hn⟩ (Nat.zero_mod _)).1, readBack (piecesA V c ⟨0, hn⟩ (Nat.zero_mod _)).2)
  | n + 1, hn =>
    if h0 : (n + 1) % 8 = 0 then
      (readBack (piecesA V c ⟨n + 1, hn⟩ h0).1, readBack (piecesA V c ⟨n + 1, hn⟩ h0).2)
    else
      (readBack (piecesB V c ⟨n + 1, hn⟩ h0 (outsAt0 c n (Nat.lt_of_succ_lt hn)).1 (outsAt0 c n (Nat.lt_of_succ_lt hn)).2).1,
       readBack (piecesB V c ⟨n + 1, hn⟩ h0 (outsAt0 c n (Nat.lt_of_succ_lt hn)).1 (outsAt0 c n (Nat.lt_of_succ_lt hn)).2).2)

/-- At a first tile: the reset-and-add contents. -/
theorem outsAt0_A (c : Dev nD) (t : Fin cfg0.N) (h0 : t.val % 8 = 0) :
    outsAt0 V c t.val t.isLt = (readBack (piecesA V c t h0).1, readBack (piecesA V c t h0).2) := by
  obtain ⟨n, hn⟩ := t
  cases n with
  | zero => exact rfl
  | succ n => exact (dif_pos h0).trans rfl

/-- At a later tile: the add contents, over what the point before left. -/
theorem outsAt0_B (c : Dev nD) (t : Fin cfg0.N) (h0 : ¬t.val % 8 = 0) :
    outsAt0 V c t.val t.isLt =
      (readBack (piecesB V c t h0 (outsAt0 V c (t.val - 1) (Nat.lt_of_le_of_lt (Nat.sub_le _ _) t.isLt)).1 (outsAt0 V c (t.val - 1) (Nat.lt_of_le_of_lt (Nat.sub_le _ _) t.isLt)).2).1,
       readBack (piecesB V c t h0 (outsAt0 V c (t.val - 1) (Nat.lt_of_le_of_lt (Nat.sub_le _ _) t.isLt)).1 (outsAt0 V c (t.val - 1) (Nat.lt_of_le_of_lt (Nat.sub_le _ _) t.isLt)).2).2) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body each input's buffer at
    its block and the accumulators' at `outsAt0`; the invariant the scoped buffers no window stages and the generator
    register; nothing owed. The feature array is handed to two windows, each holding half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a later tile accumulator window 5's current buffer holds what the body left at the point before: the point is
    not the first, and the buffer was not written back in between. -/
theorem before0_5_B (c : Dev nD) (t : Fin cfg0.N) (h0 : ¬t.val % 8 = 0) (d) :
    (dat0 V c).before 5 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dat0]
/-- At a later tile accumulator window 6's current buffer holds what the body left at the point before: the point is
    not the first, and the buffer was not written back in between. -/
theorem before0_6_B (c : Dev nD) (t : Fin cfg0.N) (h0 : ¬t.val % 8 = 0) (d) :
    (dat0 V c).before 6 t d = (outsAt0 V c (t.val - 1) (Nat.lt_of_le_of_lt (Nat.sub_le _ _) t.isLt)).2 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point: the inputs' buffers hold their blocks; the closed form says whether the point is a first
    tile; at a later tile the accumulators hold what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 32 := lt_of_lt_of_eq t.isLt (show cfg0.N = 32 from N_0)
  by_cases h0 : t.val % 8 = 0
  · rw [outsAt0_A V c t h0]
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0 t).mpr h0) (iblk0 V c 0 t) (iblk0 V c 1 t) (iblk0 V c 2 t) (iblk0 V c 3 t) (iblk0 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA_5 V c t h0)
    · unfold owns; iexists _; isplitr
      swap; · iexact H6
      ipureintro; exact View.read_writes_of_cover _ _ _ _ _ (coverA_6 V c t h0)
  · rw [outsAt0_B V c t h0]
    simp only [before0_5_B V c t h0, before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0 t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)).1 (outsAt0 V c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB_5 V c t h0 _ _)
    · unfold owns; iexists _; isplitr
      swap; · iexact H6
      ipureintro; exact View.read_writes_of_cover _ _ _ _ _ (coverB_6 V c t h0 _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRun1.lean ====
/-
  The normalising kernel's body, run once on any whole staging buffers.

  The body loads the adjacency block, the tile of feature rows, all feature rows of the batch, the weights, the
  bias, the mean, the variance, the scale and the shift, computes the normalised activations of the tile and
  stores them over the whole output block in one store. Run from the nine inputs at given contents and the output
  buffer at anything, it ends with the inputs as they were and the output buffer written with that one piece.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen

variable {F : FTy → Type} [FloatOps F]

local notation "𝕄" => MT nD τ sig Unit (Elt F) ℕ (UR sig nD τ) ℕ

set_option maxHeartbeats 2000000 in
/-- The pieces the body's store leaves in the output block's buffer, with the proof that the body runs to a
    continuation that is handed the inputs unchanged and the output buffer with those pieces written. -/
noncomputable def kernelRun1 (c : Dev nD) (i : grid1.Coords)
    (a2 : Memref sig .tc .vmem S1x128x8x1024 .f32) (h2 : a2.IsWhole) (a3 : Memref sig .tc .vmem S1x128x64 .f32) (h3 : a3.IsWhole)
    (a4 : Memref sig .tc .vmem S1x1024x64 .f32) (h4 : a4.IsWhole) (a5 : Memref sig .tc .vmem S8x9 .f32) (h5 : a5.IsWhole)
    (a6 : Memref sig .tc .vmem S8 .f32) (h6 : a6.IsWhole) (a7 : Memref sig .tc .vmem S8 .f32) (h7 : a7.IsWhole)
    (a8 : Memref sig .tc .vmem S8 .f32) (h8 : a8.IsWhole) (a9 : Memref sig .tc .vmem S8 .f32) (h9 : a9.IsWhole)
    (a10 : Memref sig .tc .vmem S8 .f32) (h10 : a10.IsWhole) (a11 : Memref sig .tc .vmem S1x128x8x1024 .f32) (h11 : a11.IsWhole)
    (x0 : Vec F S1x128x8x1024 .f32) (x1 : Vec F S1x128x64 .f32) (x2 : Vec F S1x1024x64 .f32) (x3 : Vec F S8x9 .f32)
    (x4 x5 x6 x7 x8 : Vec F S8 .f32) :
    { L : List (View.Piece (Elt F) S1x128x8x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6 ∗ owns (c : Thread nD τ) a9 fullShare x7 ∗ owns (c : Thread nD τ) a10 fullShare x8
            ∗ (∃ d, owns (c : Thread nD τ) a11 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4 ∗ owns (c : Thread nD τ) a7 fullShare x5
                ∗ owns (c : Thread nD τ) a8 fullShare x6 ∗ owns (c : Thread nD τ) a9 fullShare x7 ∗ owns (c : Thread nD τ) a10 fullShare x8
                ∗ (∃ f, a11.view.loc (c : Thread nD τ) ↦[a11.view.set]{fullShare} a11.view.writes (Elt F) f L)) -∗ K ⟨⟩))
          ⊢ wp frame (wpE (defs₀ (F := F)) Variants.none c none) E (cc1__lambda_ i a2 h2 a3 h3 a4 h4 a5 h5 a6 h6 a7 h7 a8 h8 a9 h9 a10 h10 a11 h11) K } := by
  refine ⟨?_, fun E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := h2.eq_unread hf0
    obtain rfl := h3.eq_unread hf1
    obtain rfl := h4.eq_unread hf2
    obtain rfl := h5.eq_unread hf3
    obtain rfl := h6.eq_unread hf4
    obtain rfl := h7.eq_unread hf5
    obtain rfl := h8.eq_unread hf6
    obtain rfl := h9.eq_unread hf7
    obtain rfl := h10.eq_unread hf8
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    iexists _; iexact H9

end Cert.KernelIdeal.Hand

end
-- ==== Proof.KIDat1.lean ====
/-
  The normalising region's proof data and its body obligation.

  At every grid point each input window's staging buffer holds that window's block of its array — whether the
  pipeline fetched it at this point or kept it from an earlier one, because an unfetched window's block index has not
  moved — and the body leaves the output window's buffer holding what its one store wrote. The arrays are read off
  the contents `V` the region is entered with, a parameter here.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KIRun1
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated (which one does not matter). -/
abbrev VO1_9 : View sig .tc .vmem S1x128x8x1024 .f32 := (Memref.whole cc1_stg9_0 : Memref sig .tc .vmem S1x128x8x1024 .f32).view
abbrev ms1_0 (t : Fin cfg1.N) : Memref sig .tc .vmem S1x128x8x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x9 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128x8x1024 .f32 := win1_9.stage (cfg1.slots t 9)
abbrev hs1_9 (t : Fin cfg1.N) : (ms1_9 t).IsWhole := hstage1_9 ((cfg1.slots t 9).cast nbuf1_9)

/-- The pieces the body writes into the output buffer at point `t`. -/
abbrev pieces1 (c : Dev nD) (t : Fin cfg1.N) : List (View.Piece (Elt F) S1x128x8x1024 .f32) :=
  (kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t)).1

/-- They tile the output block (one store of the whole block), so they cover it. -/
theorem cover1_9 (c : Dev nD) (t : Fin cfg1.N) (y : S1x128x8x1024.Idx) : ∃ pc ∈ pieces1 V c t, y ∈ pc.1.set :=
  View.cover_of_tiledL (pieces1 V c t) S1x128x8x1024.size (by sl_kernel_rfl) y

/-- What the body leaves in the output window's staging buffer at point `t`: its pieces read back. -/
def out1_9 (c : Dev nD) (t : Fin cfg1.N) : Vec F S1x128x8x1024 .f32 :=
  VO1_9.read (Elt F) (VO1_9.writes (Elt F) VO1_9.junk (pieces1 V c t))

/-- The region's proof data on core `c`: the arrays as the region finds them; after the body each input's buffer at
    its block and the output's at what the body wrote; the invariant the scoped buffers no window stages and the
    generator register; nothing owed. The feature array is handed to two windows (the tile's rows and all rows), each
    holding half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 V c t
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1600000 in
/-- The body at any point: the inputs' buffers hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold out1_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover1_9 V c t)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIArr.lean ====
/-
  A region's arrays among the core's unscoped buffers, when two windows read one array.

  Both regions hand the feature array to two input windows (the tile's rows, and all rows of the batch). The
  pipeline holds each window's array at that window's share, so at a region's entry the array's one whole
  points-to is split into its two halves, one per window, and at the exit the halves are joined again; every other
  array belongs to one window and is held whole.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KIDat0
import proofs.«100599_j24919400252237_2_alg».proof.Proof.KIDat1
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

/-- The distinct buffers behind region 0's arrays, one by one. -/
theorem arrBufs0_eq (c : Dev nD) (U0 : (b : Ref sig .tc) → Buf (Elt F) ((c : Thread nD τ).loc b)) :
    (Pipeline.arrBufs (Ix := Unit) (Name := ℕ) (U := UR sig nD τ) (Lvl := ℕ) spec0 c U0 : sProp 𝕄)
      = iprop((((c : Thread nD τ).loc main_arg0) ↦{fullShare} U0 main_arg0) ∗ (((c : Thread nD τ).loc main_arg1) ↦{fullShare} U0 main_arg1) ∗ (((c : Thread nD τ).loc main_arg2) ↦{fullShare} U0 main_arg2) ∗ (((c : Thread nD τ).loc main_arg3) ↦{fullShare} U0 main_arg3) ∗ (((c : Thread nD τ).loc main_v0_0) ↦{fullShare} U0 main_v0_0) ∗ (((c : Thread nD τ).loc main_v0_1) ↦{fullShare} U0 main_v0_1)) :=
  bigSep_eq_bigSepL_of_eq [main_arg0, main_arg1, main_arg2, main_arg3, main_v0_0, main_v0_1] (by decide) (by decide) _

set_option maxHeartbeats 1600000 in
/-- ENTRY: the distinct buffers behind region 0's arrays, each whole at `U0`, are the pipeline's arrays at
    contents read off `U0`, the feature array split between its two windows. -/
theorem arrays_entry0 (c : Dev nD) (U0 : (b : Ref sig .tc) → Buf (Elt F) ((c : Thread nD τ).loc b))
    (G : (w : Fin cfg0.W) → Buf (Elt F) ((cfg0.win w).arr.view.loc (c : Thread nD τ))) (hG : ∀ w, G w = U0 (Pipeline.arrRef spec0 w)) :
    (Pipeline.arrBufs (Ix := Unit) (Name := ℕ) (U := UR sig nD τ) (Lvl := ℕ) spec0 c U0 : sProp 𝕄) ⊢ (dat0 V c).arrays G := by
  rw [arrBufs0_eq]
  unfold Pipeline.Dat.arrays
  rw [bigSep_W0]
  rw [share0_0 V c, share0_1 V c, share0_2 V c, share0_3 V c, share0_4 V c, share0_5 V c, share0_6 V c]
  rw [hG 0, hG 1, hG 2, hG 3, hG 4, hG 5, hG 6]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ]
  iintro ⟨H0, H1, H2, H3, H4, H5⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  isplitl [H4]; · iexact H4
  iexact H5

set_option maxHeartbeats 1600000 in
/-- EXIT: the pipeline's arrays at contents `G` are the distinct buffers behind them, each whole at any valuation
    `U1` that has the arrays at `G`; the feature array's two halves joined. -/
theorem arrays_exit0 (c : Dev nD) (U1 : (b : Ref sig .tc) → Buf (Elt F) ((c : Thread nD τ).loc b))
    (G : (w : Fin cfg0.W) → Buf (Elt F) ((cfg0.win w).arr.view.loc (c : Thread nD τ))) (hG : ∀ w, G w = U1 (Pipeline.arrRef spec0 w)) :
    (dat0 V c).arrays G ⊢ (Pipeline.arrBufs (Ix := Unit) (Name := ℕ) (U := UR sig nD τ) (Lvl := ℕ) spec0 c U1 : sProp 𝕄) := by
  rw [arrBufs0_eq]
  unfold Pipeline.Dat.arrays
  rw [bigSep_W0]
  rw [share0_0 V c, share0_1 V c, share0_2 V c, share0_3 V c, share0_4 V c, share0_5 V c, share0_6 V c]
  rw [hG 0, hG 1, hG 2, hG 3, hG 4, hG 5, hG 6]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ]
  iintro ⟨K0, K1, K2, K3, K4, K5, K6⟩
  ihave K12 := (pointsTo_share (PosShare.mem_left_op_right fullShare)).2 $$ [K1 K2]
  · isplitl [K1] <;> iassumption
  isplitl [K0]; · iexact K0
  isplitl [K12]; · iexact K12
  isplitl [K3]; · iexact K3
  isplitl [K4]; · iexact K4
  isplitl [K5]; · iexact K5
  iexact K6

/-! ## Region 1 -/

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl

/-- The distinct buffers behind region 1's arrays, one by one. -/
theorem arrBufs1_eq (c : Dev nD) (U0 : (b : Ref sig .tc) → Buf (Elt F) ((c : Thread nD τ).loc b)) :
    (Pipeline.arrBufs (Ix := Unit) (Name := ℕ) (U := UR sig nD τ) (Lvl := ℕ) spec1 c U0 : sProp 𝕄)
      = iprop((((c : Thread nD τ).loc main_arg0) ↦{fullShare} U0 main_arg0) ∗ (((c : Thread nD τ).loc main_arg1) ↦{fullShare} U0 main_arg1) ∗ (((c : Thread nD τ).loc main_arg2) ↦{fullShare} U0 main_arg2) ∗ (((c : Thread nD τ).loc main_arg3) ↦{fullShare} U0 main_arg3) ∗ (((c : Thread nD τ).loc main_v6) ↦{fullShare} U0 main_v6) ∗ (((c : Thread nD τ).loc main_v12) ↦{fullShare} U0 main_v12) ∗ (((c : Thread nD τ).loc main_arg4) ↦{fullShare} U0 main_arg4) ∗ (((c : Thread nD τ).loc main_arg5) ↦{fullShare} U0 main_arg5) ∗ (((c : Thread nD τ).loc main_v13) ↦{fullShare} U0 main_v13)) :=
  bigSep_eq_bigSepL_of_eq [main_arg0, main_arg1, main_arg2, main_arg3, main_v6, main_v12, main_arg4, main_arg5, main_v13] (by decide) (by decide) _

set_option maxHeartbeats 1600000 in
/-- ENTRY: the distinct buffers behind region 1's arrays, each whole at `U0`, are the pipeline's arrays at
    contents read off `U0`, the feature array split between its two windows. -/
theorem arrays_entry1 (c : Dev nD) (U0 : (b : Ref sig .tc) → Buf (Elt F) ((c : Thread nD τ).loc b))
    (G : (w : Fin cfg1.W) → Buf (Elt F) ((cfg1.win w).arr.view.loc (c : Thread nD τ))) (hG : ∀ w, G w = U0 (Pipeline.arrRef spec1 w)) :
    (Pipeline.arrBufs (Ix := Unit) (Name := ℕ) (U := UR sig nD τ) (Lvl := ℕ) spec1 c U0 : sProp 𝕄) ⊢ (dat1 V c).arrays G := by
  rw [arrBufs1_eq]
  unfold Pipeline.Dat.arrays
  rw [bigSep_W1]
  rw [share1_0 V c, share1_1 V c, share1_2 V c, share1_3 V c, share1_4 V c, share1_5 V c, share1_6 V c, share1_7 V c, share1_8 V c, share1_9 V c]
  rw [hG 0, hG 1, hG 2, hG 3, hG 4, hG 5, hG 6, hG 7, hG 8, hG 9]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ]
  iintro ⟨H0, H1, H2, H3, H4, H5, H6, H7, H8⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- EXIT: the pipeline's arrays at contents `G` are the distinct buffers behind them, each whole at any valuation
    `U1` that has the arrays at `G`; the feature array's two halves joined. -/
theorem arrays_exit1 (c : Dev nD) (U1 : (b : Ref sig .tc) → Buf (Elt F) ((c : Thread nD τ).loc b))
    (G : (w : Fin cfg1.W) → Buf (Elt F) ((cfg1.win w).arr.view.loc (c : Thread nD τ))) (hG : ∀ w, G w = U1 (Pipeline.arrRef spec1 w)) :
    (dat1 V c).arrays G ⊢ (Pipeline.arrBufs (Ix := Unit) (Name := ℕ) (U := UR sig nD τ) (Lvl := ℕ) spec1 c U1 : sProp 𝕄) := by
  rw [arrBufs1_eq]
  unfold Pipeline.Dat.arrays
  rw [bigSep_W1]
  rw [share1_0 V c, share1_1 V c, share1_2 V c, share1_3 V c, share1_4 V c, share1_5 V c, share1_6 V c, share1_7 V c, share1_8 V c, share1_9 V c]
  rw [hG 0, hG 1, hG 2, hG 3, hG 4, hG 5, hG 6, hG 7, hG 8, hG 9]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ]
  iintro ⟨K0, K1, K2, K3, K4, K5, K6, K7, K8, K9⟩
  ihave K12 := (pointsTo_share (PosShare.mem_left_op_right fullShare)).2 $$ [K1 K2]
  · isplitl [K1] <;> iassumption
  isplitl [K0]; · iexact K0
  isplitl [K12]; · iexact K12
  isplitl [K3]; · iexact K3
  isplitl [K4]; · iexact K4
  isplitl [K5]; · iexact K5
  isplitl [K6]; · iexact K6
  isplitl [K7]; · iexact K7
  isplitl [K8]; · iexact K8
  iexact K9

end Cert.KernelIdeal.Hand

end
-- ==== Proof.KIRunCond.lean ====
/-
  The kernel program's run: both regions' records, and the run with every unscoped buffer named at the end.

  @main is the statistics region, seventeen host operations (the mean and the variance from the two sum arrays),
  and the normalising region. Between items a core holds every unscoped buffer whole: the launch contents, then what
  the statistics region leaves in the two sum arrays, then the host operations' results, then what the normalising
  region leaves in the result array. Each region's arrays are taken out of that state at its entry and put back at
  its exit; the run ends with every unscoped buffer read against the last valuation, from which both the frame (the
  six arguments are as launched) and the result array's contents follow.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KIArr
import proofs.«100599_j24919400252237_2_alg».proof.Proof.Gen.KernelIdeal.Regions
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

/-! ## The conditional run, every unscoped buffer read at the end -/

-- the launch theorem's implicit arguments are found by unifying its conclusion with this one, which takes unfolding
-- plain definitions in a metavariable's type
set_option backward.isDefEq.respectTransparency.types false in
/-- Given one segment record per region, entered from and left at the thread states of the generated conditional
    frame, every weakly fair execution of @main terminates and every final memory holds each unscoped buffer at the
    last valuation. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    {Q : PUnit × MemSt nD τ sig (Elt F) → Prop}
    (hQ : ∀ s : MemSt nD τ sig (Elt F),
      (∀ c : Dev nD, ∀ b ∈ Pipeline.ucRefs τ sig, s.mem (((c : Thread nD τ)).1, b) = V3 m outs c b) → Q (⟨⟩, s)) :
    θ_run defs (onTc (τ := τ) (main (F := F))) ⟨m, fun _ => 0, ρ⟩ Q := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, hpost0 c, hpre1 c, (hpost1 c).trans (sep_mono .rfl (hE2 c))⟩)
    (hinit := ?_) (QY := fun c s => ∀ b ∈ Pipeline.ucRefs τ sig, s.mem (((c : Thread nD τ)).1, b) = V3 m outs c b)
    (hfin := fun c s' => ?_) (hQ := hQ)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => ((c : Thread nD τ).1, b)) (V3 m outs c) s')
    isplitl [Hh] <;> iassumption

end Cert.KernelIdeal.Hand

end
-- ==== Proof.KIVals.lean ====
/-
  The kernel program's run, instantiated: what the regions leave, the two region records, the run.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KIRunCond
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The contents the statistics region is entered with: the launch memory. -/
abbrev Vr0 : (c : Dev nD) → (b : Ref sig .tc) → Buf (Elt F) ((c : Thread nD τ).loc b) := fun c b => V0 m c b

/-- The two sum arrays as the statistics region leaves them: its write-backs folded over the launch contents. -/
def sumArr (c : Dev nD) : Buf (Elt F) ((c : Thread nD τ).loc main_v0_0) := (dat0 (Vr0 m) c).arrAt 5 cfg0.N
def sqArr (c : Dev nD) : Buf (Elt F) ((c : Thread nD τ).loc main_v0_1) := (dat0 (Vr0 m) c).arrAt 6 cfg0.N

/-- What the statistics region leaves in the buffers it may change. -/
def left0 (r : Ref sig .tc) (c : Dev nD) : Buf (Elt F) ((c : Thread nD τ).loc r) :=
  if h0 : r = main_v0_0 then h0 ▸ sumArr m c else if h1 : r = main_v0_1 then h1 ▸ sqArr m c else m ((c : Thread nD τ).loc r)

/-- The contents the normalising region is entered with: the sum arrays in place, the host operations run. -/
abbrev Vr1 : (c : Dev nD) → (b : Ref sig .tc) → Buf (Elt F) ((c : Thread nD τ).loc b) := fun c b => V2 m (fun _ r c => left0 m r c) c b

/-- The result array as the normalising region leaves it. -/
def resArr (c : Dev nD) : Buf (Elt F) ((c : Thread nD τ).loc main_v13) := (dat1 (Vr1 m) c).arrAt 9 cfg1.N

/-- What the normalising region leaves in the buffer it may change. -/
def left1 (r : Ref sig .tc) (c : Dev nD) : Buf (Elt F) ((c : Thread nD τ).loc r) :=
  if h : r = main_v13 then h ▸ resArr m c else m ((c : Thread nD τ).loc r)

/-- The regions' effects on the unscoped buffers, by item. -/
def outs : Outs (F := F) := fun J r c => match J with
  | 1 => left0 m r c
  | _ => left1 m r c

theorem outs_1 (r : Ref sig .tc) (c : Dev nD) : outs m 1 r c = left0 m r c := rfl
theorem outs_3 (r : Ref sig .tc) (c : Dev nD) : outs m 3 r c = left1 m r c := rfl
theorem left0_sum (c : Dev nD) : left0 m main_v0_0 c = sumArr m c := by unfold left0; rw [dif_pos rfl]
theorem left0_sq (c : Dev nD) : left0 m main_v0_1 c = sqArr m c := by
  unfold left0; rw [dif_neg (by decide), dif_pos rfl]
theorem left1_res (c : Dev nD) : left1 m main_v13 c = resArr m c := by unfold left1; rw [dif_pos rfl]

/-- The valuation after the statistics region at the two sum arrays, -/
theorem V1_sum (c : Dev nD) : V1 m (outs m) c main_v0_0 = sumArr m c := by
  unfold V1
  rw [Function.update_of_ne (StableHlo.devRef_ne_of_ne (by decide) : (Proc.devRef .tc main_v0_0 : DevRef τ sig) ≠ Proc.devRef .tc main_v0_1),
    Function.update_self, outs_1, left0_sum]
theorem V1_sq (c : Dev nD) : V1 m (outs m) c main_v0_1 = sqArr m c := by
  unfold V1
  rw [Function.update_self, outs_1, left0_sq]
/-- the entry contents of the normalising region are the second boundary's, -/
theorem V2_eq (c : Dev nD) (b : Ref sig .tc) : V2 m (outs m) c b = Vr1 m c b := rfl
/-- and the last valuation at the result array. -/
theorem V3_res (c : Dev nD) : V3 m (outs m) c main_v13 = resArr m c := by
  unfold V3
  rw [Function.update_self, outs_3, left1_res]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr1 m) c

abbrev 𝒱₀ : Variants := Variants.none
abbrev Lz : GSem nD τ sig → Finset Unit := fun _ => ∅
abbrev lvz : GSem nD τ sig → Unit → ℕ := fun _ _ => 0

/-- What rides beside the buffers through every item: the generator register at some state and the core owing
    nothing. -/
abbrev Rr (c : Dev nD) : sProp 𝕄 := iprop((∃ r, prngReg c r) ∗ ∃ W, owes (c : Thread nD τ) (0 : CellTallies nD τ sig Unit) W)

/-! ## The arrays at each region's ends -/

/-- After its last point each array of the statistics region holds what the next valuation has there. -/
theorem exitArr0 (c : Dev nD) : ∀ w : Fin cfg0.W, (dat0 (Vr0 m) c).arrAt w cfg0.N = V1 m (outs m) c (Pipeline.arrRef spec0 w)
  | ⟨0, _⟩ => ((dat0 (Vr0 m) c).arrAt_in 0 rfl _).trans ((A_eq0 (Vr0 m) c 0).trans (V1_of m (outs m) c main_arg0 (by decide)).symm)
  | ⟨1, _⟩ => ((dat0 (Vr0 m) c).arrAt_in 1 rfl _).trans ((A_eq0 (Vr0 m) c 1).trans (V1_of m (outs m) c main_arg1 (by decide)).symm)
  | ⟨2, _⟩ => ((dat0 (Vr0 m) c).arrAt_in 2 rfl _).trans ((A_eq0 (Vr0 m) c 2).trans (V1_of m (outs m) c main_arg1 (by decide)).symm)
  | ⟨3, _⟩ => ((dat0 (Vr0 m) c).arrAt_in 3 rfl _).trans ((A_eq0 (Vr0 m) c 3).trans (V1_of m (outs m) c main_arg2 (by decide)).symm)
  | ⟨4, _⟩ => ((dat0 (Vr0 m) c).arrAt_in 4 rfl _).trans ((A_eq0 (Vr0 m) c 4).trans (V1_of m (outs m) c main_arg3 (by decide)).symm)
  | ⟨5, _⟩ => (V1_sum m c).symm
  | ⟨6, _⟩ => (V1_sq m c).symm

/-- After its last point each array of the normalising region holds what the last valuation has there. -/
theorem exitArr1 (c : Dev nD) : ∀ w : Fin cfg1.W, (dat1 (Vr1 m) c).arrAt w cfg1.N = V3 m (outs m) c (Pipeline.arrRef spec1 w)
  | ⟨0, _⟩ => ((dat1 (Vr1 m) c).arrAt_in 0 rfl _).trans ((A_eq1 (Vr1 m) c 0).trans (V3_of m (outs m) c main_arg0 (by decide)).symm)
  | ⟨1, _⟩ => ((dat1 (Vr1 m) c).arrAt_in 1 rfl _).trans ((A_eq1 (Vr1 m) c 1).trans (V3_of m (outs m) c main_arg1 (by decide)).symm)
  | ⟨2, _⟩ => ((dat1 (Vr1 m) c).arrAt_in 2 rfl _).trans ((A_eq1 (Vr1 m) c 2).trans (V3_of m (outs m) c main_arg1 (by decide)).symm)
  | ⟨3, _⟩ => ((dat1 (Vr1 m) c).arrAt_in 3 rfl _).trans ((A_eq1 (Vr1 m) c 3).trans (V3_of m (outs m) c main_arg2 (by decide)).symm)
  | ⟨4, _⟩ => ((dat1 (Vr1 m) c).arrAt_in 4 rfl _).trans ((A_eq1 (Vr1 m) c 4).trans (V3_of m (outs m) c main_arg3 (by decide)).symm)
  | ⟨5, _⟩ => ((dat1 (Vr1 m) c).arrAt_in 5 rfl _).trans ((A_eq1 (Vr1 m) c 5).trans (V3_of m (outs m) c main_v6 (by decide)).symm)
  | ⟨6, _⟩ => ((dat1 (Vr1 m) c).arrAt_in 6 rfl _).trans ((A_eq1 (Vr1 m) c 6).trans (V3_of m (outs m) c main_v12 (by decide)).symm)
  | ⟨7, _⟩ => ((dat1 (Vr1 m) c).arrAt_in 7 rfl _).trans ((A_eq1 (Vr1 m) c 7).trans (V3_of m (outs m) c main_arg4 (by decide)).symm)
  | ⟨8, _⟩ => ((dat1 (Vr1 m) c).arrAt_in 8 rfl _).trans ((A_eq1 (Vr1 m) c 8).trans (V3_of m (outs m) c main_arg5 (by decide)).symm)
  | ⟨9, _⟩ => (V3_res m c).symm

/-- Off the statistics region's arrays the valuation after it is the one before. -/
theorem rest0 (c : Dev nD) (b : Ref sig .tc) (hb : b ∉ Finset.univ.image (Pipeline.arrRef spec0)) : V1 m (outs m) c b = V0 m c b :=
  V1_of m (outs m) c b (fun h => hb (by
    rcases List.mem_cons.mp h with rfl | h
    · exact Finset.mem_image.mpr ⟨5, Finset.mem_univ _, rfl⟩
    · rcases List.mem_cons.mp h with rfl | h
      · exact Finset.mem_image.mpr ⟨6, Finset.mem_univ _, rfl⟩
      · exact absurd h (List.not_mem_nil)))

/-- Off the normalising region's arrays the valuation after it is the one before. -/
theorem rest1 (c : Dev nD) (b : Ref sig .tc) (hb : b ∉ Finset.univ.image (Pipeline.arrRef spec1)) : V3 m (outs m) c b = V2 m (outs m) c b :=
  V3_of m (outs m) c b (fun h => hb (by
    rcases List.mem_cons.mp h with rfl | h
    · exact Finset.mem_image.mpr ⟨9, Finset.mem_univ _, rfl⟩
    · exact absurd h (List.not_mem_nil)))

end Cert.KernelIdeal.Hand

end
-- ==== Proof.KIRegs.lean ====
/-
  The two regions as segments of @main, and the run.
-/
import proofs.«100599_j24919400252237_2_alg».proof.Proof.Gen.KernelIdeal.Launch
import proofs.«100599_j24919400252237_2_alg».proof.Proof.Gen.KernelIdeal.Skeleton
import proofs.«100599_j24919400252237_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KIVals
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand
open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- ENTRY of region 0, the arrays' part: every unscoped buffer at the entry valuation is the region's arrays at their
    entry contents beside the unscoped rest. -/
theorem entry0 (c : Dev nD) :
    (StableHlo.held (c : Thread nD τ) (Pipeline.ucRefs τ sig) (V0 m c) : sProp 𝕄)
      ⊢ iprop((dat0 (Vr0 m) c).arrays ((dat0 (Vr0 m) c).arrAt · 0)
          ∗ Pipeline.unscopedRest (Ix := Unit) (Name := ℕ) (U := UR sig nD τ) (Lvl := ℕ) spec0 c (Vr0 m c)) := by
  rw [← Pipeline.unscopedBufs_held (Ix := Unit) (Name := ℕ) (U := UR sig nD τ) (Lvl := ℕ) c (V0 m c),
    Pipeline.unscopedBufs_split₀ cfgs (0 : Fin 2) winFacts₀0.arr_unscoped c (fun b => V0 m c b)]
  exact sep_mono (arrays_entry0 (Vr0 m) c (fun b => V0 m c b) _ (fun w => A_eq0 (Vr0 m) c w)) .rfl

/-- EXIT of region 0, the arrays' part: the region's arrays at their final contents beside the unscoped rest are every
    unscoped buffer at the next valuation. -/
theorem exit0 (c : Dev nD) :
    iprop((dat0 (Vr0 m) c).arrays ((dat0 (Vr0 m) c).arrAt · cfg0.N)
        ∗ Pipeline.unscopedRest (Ix := Unit) (Name := ℕ) (U := UR sig nD τ) (Lvl := ℕ) spec0 c (Vr0 m c))
      ⊢ (StableHlo.held (c : Thread nD τ) (Pipeline.ucRefs τ sig) (V1 m (outs m) c) : sProp 𝕄) := by
  rw [← Pipeline.unscopedBufs_held (Ix := Unit) (Name := ℕ) (U := UR sig nD τ) (Lvl := ℕ) c (V1 m (outs m) c),
    Pipeline.unscopedBufs_split₀ cfgs (0 : Fin 2) winFacts₀0.arr_unscoped c (fun b => V1 m (outs m) c b)]
  refine sep_mono (arrays_exit0 (Vr0 m) c (fun b => V1 m (outs m) c b) _ (exitArr0 m c)) (Entails.of_eq ?_)
  unfold Pipeline.unscopedRest
  exact bigSep_congr fun b hb => by dsimp only; rw [rest0 m c b (Finset.mem_sdiff.mp hb).2]

set_option backward.isDefEq.respectTransparency.types false in
/-- REGION 0 as a segment: entered from every unscoped buffer at its entry valuation beside the generator register
    and the core owing nothing, left at the next valuation beside the same. -/
def reg0 : RegionSeg (pcfgs (F := F)) adm (pdats m) () defs₀ 𝒱₀ Lz lvz 0 where
  win := winFacts₀0
  block_pos := block_pos0
  stage_whole := stage_whole0
  K := PEmpty
  osem k := k.elim
  ho := Pipeline.OwnSemFacts.none _
  hbody c := (body_obligation0 (Vr0 m) c).loose
  hwaits := Pipeline.hwaits_of_owed_zero _ _ _ _ Lz lvz 0 fun _ _ => rfl
  pre c := iprop(StableHlo.held (c : Thread nD τ) (Pipeline.ucRefs τ sig) (V0 m c) ∗ Rr c)
  post c := iprop(StableHlo.held (c : Thread nD τ) (Pipeline.ucRefs τ sig) (V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

/-- ENTRY of region 1, the arrays' part: every unscoped buffer at the entry valuation is the region's arrays at their
    entry contents beside the unscoped rest. -/
theorem entry1 (c : Dev nD) :
    (StableHlo.held (c : Thread nD τ) (Pipeline.ucRefs τ sig) (V2 m (outs m) c) : sProp 𝕄)
      ⊢ iprop((dat1 (Vr1 m) c).arrays ((dat1 (Vr1 m) c).arrAt · 0)
          ∗ Pipeline.unscopedRest (Ix := Unit) (Name := ℕ) (U := UR sig nD τ) (Lvl := ℕ) spec1 c (Vr1 m c)) := by
  rw [← Pipeline.unscopedBufs_held (Ix := Unit) (Name := ℕ) (U := UR sig nD τ) (Lvl := ℕ) c (V2 m (outs m) c),
    Pipeline.unscopedBufs_split₀ cfgs (1 : Fin 2) winFacts₀1.arr_unscoped c (fun b => V2 m (outs m) c b)]
  exact sep_mono (arrays_entry1 (Vr1 m) c (fun b => V2 m (outs m) c b) _ (fun w => A_eq1 (Vr1 m) c w)) .rfl

/-- EXIT of region 1, the arrays' part: the region's arrays at their final contents beside the unscoped rest are every
    unscoped buffer at the next valuation. -/
theorem exit1 (c : Dev nD) :
    iprop((dat1 (Vr1 m) c).arrays ((dat1 (Vr1 m) c).arrAt · cfg1.N)
        ∗ Pipeline.unscopedRest (Ix := Unit) (Name := ℕ) (U := UR sig nD τ) (Lvl := ℕ) spec1 c (Vr1 m c))
      ⊢ (StableHlo.held (c : Thread nD τ) (Pipeline.ucRefs τ sig) (V3 m (outs m) c) : sProp 𝕄) := by
  rw [← Pipeline.unscopedBufs_held (Ix := Unit) (Name := ℕ) (U := UR sig nD τ) (Lvl := ℕ) c (V3 m (outs m) c),
    Pipeline.unscopedBufs_split₀ cfgs (1 : Fin 2) winFacts₀1.arr_unscoped c (fun b => V3 m (outs m) c b)]
  refine sep_mono (arrays_exit1 (Vr1 m) c (fun b => V3 m (outs m) c b) _ (exitArr1 m c)) (Entails.of_eq ?_)
  unfold Pipeline.unscopedRest
  exact bigSep_congr fun b hb => by dsimp only; rw [rest1 m c b (Finset.mem_sdiff.mp hb).2]; rfl

set_option backward.isDefEq.respectTransparency.types false in
/-- REGION 1 as a segment: entered from every unscoped buffer at its entry valuation beside the generator register
    and the core owing nothing, left at the next valuation beside the same. -/
def reg1 : RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ Lz lvz 1 fun _ _ => rfl
  pre c := iprop(StableHlo.held (c : Thread nD τ) (Pipeline.ucRefs τ sig) (V2 m (outs m) c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- From any memory with zero counters every weakly fair execution of @main terminates, nothing faulting, and every
    final memory holds each unscoped buffer at the last valuation. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = V3 m (outs m) c b) → Q (⟨⟩, s)) :
    θ_run defs (onTc (τ := τ) (main (F := F))) ⟨m, fun _ => 0, ρ⟩ Q :=
  run_cond (Ix := Unit) (U := UR sig nD τ) (Lvl := ℕ) m emb₁ () 𝒱₀ Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      refine Pipeline.initEach Lz lvz fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl) hQ

/-- THE FRAME: every weakly fair execution of @main terminates, nothing faulting, and the six argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_all m ρ fun s h c =>
    ⟨(h c _ (mem_uc main_arg0 (by decide))).trans (V3_main_arg0 m (outs m) c),
     (h c _ (mem_uc main_arg1 (by decide))).trans (V3_main_arg1 m (outs m) c),
     (h c _ (mem_uc main_arg2 (by decide))).trans (V3_main_arg2 m (outs m) c),
     (h c _ (mem_uc main_arg3 (by decide))).trans (V3_main_arg3 m (outs m) c),
     (h c _ (mem_uc main_arg4 (by decide))).trans (V3_main_arg4 m (outs m) c),
     (h c _ (mem_uc main_arg5 (by decide))).trans (V3_main_arg5 m (outs m) c)⟩

/-- THE RUN WITH THE RESULT NAMED: besides, the result array ends at what the normalising region's write-backs leave. -/
theorem run_named : θ_run defs (onTc (τ := τ) (main (F := F))) ⟨m, fun _ => 0, ρ⟩ (fun r => ∀ c : Dev nD,
      r.2.mem ((c.tc : Thread nD τ).loc main_v13) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_all m ρ fun s h c =>
    ⟨(h c _ (mem_uc main_v13 (by decide))).trans (V3_res m c),
     (h c _ (mem_uc main_arg0 (by decide))).trans (V3_main_arg0 m (outs m) c),
     (h c _ (mem_uc main_arg1 (by decide))).trans (V3_main_arg1 m (outs m) c),
     (h c _ (mem_uc main_arg2 (by decide))).trans (V3_main_arg2 m (outs m) c),
     (h c _ (mem_uc main_arg3 (by decide))).trans (V3_main_arg3 m (outs m) c),
     (h c _ (mem_uc main_arg4 (by decide))).trans (V3_main_arg4 m (outs m) c),
     (h c _ (mem_uc main_arg5 (by decide))).trans (V3_main_arg5 m (outs m) c)⟩

end Cert.KernelIdeal.Hand

end
-- ==== Proof.KBBase0.lean ====
/-
  What the statistics kernel's two cases are stated over: whether a grid point is the first tile of its batch.

  The grid is (batch, tile) with 8 tiles per batch. The body's one conditional asks whether the tile coordinate is
  zero; it is decided here over the whole grid: the points whose position is a multiple of 8.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen

variable {F : FTy → Type} [FloatOps F]

/-- The body's conditional: the tile coordinate is zero (the printed scalar chain over the grid coordinates). -/
abbrev cond0 (i : grid0.Coords) : Prop :=
  (Scalar.cmpi .ne (Scalar.extui (Scalar.cmpi .eq (BitVec.ofNat 32 (i 1).val) 0#32)) 0#32) = 1#1

/-- It holds exactly at the first tile of each batch. -/
theorem hcond0 : ∀ t : Fin cfg0.N, cond0 (grid0.coords t) ↔ t.val % 8 = 0 :=
  (by decide +kernel : ∀ t : Fin grid0.N, cond0 (grid0.coords t) ↔ t.val % 8 = 0)

end Cert.Kernel.Hand

end
-- ==== Proof.KBRun0A.lean ====
/-
  The statistics kernel's body, run once on any whole staging buffers, at the first tile of a batch: the two accumulators are reset to zero and the tile's sums added.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KBBase0
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen

variable {F : FTy → Type} [FloatOps F]

local notation "𝕄" => MT nD τ sig Unit (Elt F) ℕ (UR sig nD τ) ℕ

set_option maxHeartbeats 2000000 in
/-- The pieces the body's stores leave in the two accumulators' buffers (the running sum, the running sum of
    squares), last store first, with the proof that the body runs to a continuation that is handed the inputs
    unchanged and the accumulators' buffers with those pieces written. -/
noncomputable def kernelRun0_A (c : Dev nD) (i : grid0.Coords)
    (a2 : Memref sig .tc .vmem S1x128x8x1024 .f32) (h2 : a2.IsWhole) (a3 : Memref sig .tc .vmem S1x128x64 .f32) (h3 : a3.IsWhole)
    (a4 : Memref sig .tc .vmem S1x1024x64 .f32) (h4 : a4.IsWhole) (a5 : Memref sig .tc .vmem S8x9 .f32) (h5 : a5.IsWhole)
    (a6 : Memref sig .tc .vmem S8 .f32) (h6 : a6.IsWhole) (a7 : Memref sig .tc .vmem S1x1x8 .f32) (h7 : a7.IsWhole)
    (a8 : Memref sig .tc .vmem S1x1x8 .f32) (h8 : a8.IsWhole) (hc : cond0 i)
    (x0 : Vec F S1x128x8x1024 .f32) (x1 : Vec F S1x128x64 .f32) (x2 : Vec F S1x1024x64 .f32) (x3 : Vec F S8x9 .f32) (x4 : Vec F S8 .f32) :
    { L : List (View.Piece (Elt F) S1x1x8 .f32) × List (View.Piece (Elt F) S1x1x8 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E (cc0__lambda_ i a2 h2 a3 h3 a4 h4 a5 h5 a6 h6 a7 h7 a8 h8) K } := by
  refine ⟨⟨?_, ?_⟩, fun E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h2.eq_unread hf0
    obtain rfl := h3.eq_unread hf1
    obtain rfl := h4.eq_unread hf2
    obtain rfl := h5.eq_unread hf3
    obtain rfl := h6.eq_unread hf4

    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.Kernel.Hand

end
-- ==== Proof.KBRun0B.lean ====
/-
  The statistics kernel's body, run once on any whole staging buffers, at a later tile of a batch: the tile's sums are added to what the accumulators hold.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KBBase0
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen

variable {F : FTy → Type} [FloatOps F]

local notation "𝕄" => MT nD τ sig Unit (Elt F) ℕ (UR sig nD τ) ℕ

set_option maxHeartbeats 2000000 in
/-- The pieces the body's stores leave in the two accumulators' buffers (the running sum, the running sum of
    squares), last store first, with the proof that the body runs to a continuation that is handed the inputs
    unchanged and the accumulators' buffers with those pieces written. -/
noncomputable def kernelRun0_B (c : Dev nD) (i : grid0.Coords)
    (a2 : Memref sig .tc .vmem S1x128x8x1024 .f32) (h2 : a2.IsWhole) (a3 : Memref sig .tc .vmem S1x128x64 .f32) (h3 : a3.IsWhole)
    (a4 : Memref sig .tc .vmem S1x1024x64 .f32) (h4 : a4.IsWhole) (a5 : Memref sig .tc .vmem S8x9 .f32) (h5 : a5.IsWhole)
    (a6 : Memref sig .tc .vmem S8 .f32) (h6 : a6.IsWhole) (a7 : Memref sig .tc .vmem S1x1x8 .f32) (h7 : a7.IsWhole)
    (a8 : Memref sig .tc .vmem S1x1x8 .f32) (h8 : a8.IsWhole) (hc : ¬cond0 i)
    (x0 : Vec F S1x128x8x1024 .f32) (x1 : Vec F S1x128x64 .f32) (x2 : Vec F S1x1024x64 .f32) (x3 : Vec F S8x9 .f32) (x4 : Vec F S8 .f32)
    (xo5 xo6 : Vec F S1x1x8 .f32) :
    { L : List (View.Piece (Elt F) S1x1x8 .f32) × List (View.Piece (Elt F) S1x1x8 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E (cc0__lambda_ i a2 h2 a3 h3 a4 h4 a5 h5 a6 h6 a7 h7 a8 h8) K } := by
  refine ⟨⟨?_, ?_⟩, fun E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0
    obtain rfl := h3.eq_unread hf1
    obtain rfl := h4.eq_unread hf2
    obtain rfl := h5.eq_unread hf3
    obtain rfl := h6.eq_unread hf4
    obtain rfl := h7.eq_unread hf5
    obtain rfl := h8.eq_unread hf6
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.Kernel.Hand

end
-- ==== Proof.KBDat0.lean ====
/-
  The statistics region's proof data and its body obligation.

  At every grid point each input window's staging buffer holds that window's block of its array (fetched at this
  point or kept from an earlier one). The two output windows are accumulators with one block per batch: at the
  first tile of a batch the body resets them and adds the tile's sums; at a later tile it adds the tile's sums to
  what the point before left, the buffer not having been written back in between (it is written back after the
  batch's last tile only). What they hold after each point is therefore defined by recursion on the point.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KBRun0A
import proofs.«100599_j24919400252237_2_alg».proof.Proof.KBRun0B
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of an accumulator window, through which contents are stated (which one does not matter). -/
abbrev VO0 : View sig .tc .vmem S1x1x8 .f32 := (Memref.whole cc0_stg5_0 : Memref sig .tc .vmem S1x1x8 .f32).view
abbrev ms0_0 (t : Fin cfg0.N) : Memref sig .tc .vmem S1x128x8x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x9 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8 .f32 := win0_6.stage (cfg0.slots t 6)
abbrev hs0_6 (t : Fin cfg0.N) : (ms0_6 t).IsWhole := hstage0_6 ((cfg0.slots t 6).cast nbuf0_6)

/-- Pieces read back over anything: what a buffer holds once they are written. -/
abbrev readBack (L : List (View.Piece (Elt F) S1x1x8 .f32)) : Vec F S1x1x8 .f32 :=
  VO0.read (Elt F) (VO0.writes (Elt F) VO0.junk L)

/-- The pieces the body writes into the two accumulators at a first tile, -/
abbrev piecesA (c : Dev nD) (t : Fin cfg0.N) (h0 : t.val % 8 = 0) :
    List (View.Piece (Elt F) S1x1x8 .f32) × List (View.Piece (Elt F) S1x1x8 .f32) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0 t).mpr h0) (iblk0 V c 0 t) (iblk0 V c 1 t) (iblk0 V c 2 t) (iblk0 V c 3 t) (iblk0 V c 4 t)).1

/-- and at a later tile, over what the accumulators held. -/
abbrev piecesB (c : Dev nD) (t : Fin cfg0.N) (h0 : ¬t.val % 8 = 0) (xo5 xo6 : Vec F S1x1x8 .f32) :
    List (View.Piece (Elt F) S1x1x8 .f32) × List (View.Piece (Elt F) S1x1x8 .f32) :=
  (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0 t).mp h)) (iblk0 V c 0 t) (iblk0 V c 1 t) (iblk0 V c 2 t) (iblk0 V c 3 t) (iblk0 V c 4 t) xo5 xo6).1

theorem coverA_5 (c : Dev nD) (t : Fin cfg0.N) (h0 : t.val % 8 = 0) (y : S1x1x8.Idx) : ∃ pc ∈ (piecesA V c t h0).1, y ∈ pc.1.set :=
  View.cover_of_tiledL (piecesA V c t h0).1 S1x1x8.size (by sl_kernel_rfl) y
theorem coverA_6 (c : Dev nD) (t : Fin cfg0.N) (h0 : t.val % 8 = 0) (y : S1x1x8.Idx) : ∃ pc ∈ (piecesA V c t h0).2, y ∈ pc.1.set :=
  View.cover_of_tiledL (piecesA V c t h0).2 S1x1x8.size (by sl_kernel_rfl) y
theorem coverB_5 (c : Dev nD) (t : Fin cfg0.N) (h0 : ¬t.val % 8 = 0) (xo5 xo6 : Vec F S1x1x8 .f32) (y : S1x1x8.Idx) :
    ∃ pc ∈ (piecesB V c t h0 xo5 xo6).1, y ∈ pc.1.set :=
  View.cover_of_tiledL (piecesB V c t h0 xo5 xo6).1 S1x1x8.size (by sl_kernel_rfl) y
theorem coverB_6 (c : Dev nD) (t : Fin cfg0.N) (h0 : ¬t.val % 8 = 0) (xo5 xo6 : Vec F S1x1x8 .f32) (y : S1x1x8.Idx) :
    ∃ pc ∈ (piecesB V c t h0 xo5 xo6).2, y ∈ pc.1.set :=
  View.cover_of_tiledL (piecesB V c t h0 xo5 xo6).2 S1x1x8.size (by sl_kernel_rfl) y

/-- THE ACCUMULATION: what the running sum and the running sum of squares hold after the body at position `n`. -/
def outsAt0 (c : Dev nD) : (n : ℕ) → n < cfg0.N → Vec F S1x1x8 .f32 × Vec F S1x1x8 .f32
  | 0, hn => (readBack (piecesA V c ⟨0, hn⟩ (Nat.zero_mod _)).1, readBack (piecesA V c ⟨0, hn⟩ (Nat.zero_mod _)).2)
  | n + 1, hn =>
    if h0 : (n + 1) % 8 = 0 then
      (readBack (piecesA V c ⟨n + 1, hn⟩ h0).1, readBack (piecesA V c ⟨n + 1, hn⟩ h0).2)
    else
      (readBack (piecesB V c ⟨n + 1, hn⟩ h0 (outsAt0 c n (Nat.lt_of_succ_lt hn)).1 (outsAt0 c n (Nat.lt_of_succ_lt hn)).2).1,
       readBack (piecesB V c ⟨n + 1, hn⟩ h0 (outsAt0 c n (Nat.lt_of_succ_lt hn)).1 (outsAt0 c n (Nat.lt_of_succ_lt hn)).2).2)

/-- At a first tile: the reset-and-add contents. -/
theorem outsAt0_A (c : Dev nD) (t : Fin cfg0.N) (h0 : t.val % 8 = 0) :
    outsAt0 V c t.val t.isLt = (readBack (piecesA V c t h0).1, readBack (piecesA V c t h0).2) := by
  obtain ⟨n, hn⟩ := t
  cases n with
  | zero => exact rfl
  | succ n => exact (dif_pos h0).trans rfl

/-- At a later tile: the add contents, over what the point before left. -/
theorem outsAt0_B (c : Dev nD) (t : Fin cfg0.N) (h0 : ¬t.val % 8 = 0) :
    outsAt0 V c t.val t.isLt =
      (readBack (piecesB V c t h0 (outsAt0 V c (t.val - 1) (Nat.lt_of_le_of_lt (Nat.sub_le _ _) t.isLt)).1 (outsAt0 V c (t.val - 1) (Nat.lt_of_le_of_lt (Nat.sub_le _ _) t.isLt)).2).1,
       readBack (piecesB V c t h0 (outsAt0 V c (t.val - 1) (Nat.lt_of_le_of_lt (Nat.sub_le _ _) t.isLt)).1 (outsAt0 V c (t.val - 1) (Nat.lt_of_le_of_lt (Nat.sub_le _ _) t.isLt)).2).2) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body each input's buffer at
    its block and the accumulators' at `outsAt0`; the invariant the scoped buffers no window stages and the generator
    register; nothing owed. The feature array is handed to two windows, each holding half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a later tile accumulator window 5's current buffer holds what the body left at the point before: the point is
    not the first, and the buffer was not written back in between. -/
theorem before0_5_B (c : Dev nD) (t : Fin cfg0.N) (h0 : ¬t.val % 8 = 0) (d) :
    (dat0 V c).before 5 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dat0]
/-- At a later tile accumulator window 6's current buffer holds what the body left at the point before: the point is
    not the first, and the buffer was not written back in between. -/
theorem before0_6_B (c : Dev nD) (t : Fin cfg0.N) (h0 : ¬t.val % 8 = 0) (d) :
    (dat0 V c).before 6 t d = (outsAt0 V c (t.val - 1) (Nat.lt_of_le_of_lt (Nat.sub_le _ _) t.isLt)).2 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point: the inputs' buffers hold their blocks; the closed form says whether the point is a first
    tile; at a later tile the accumulators hold what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 32 := lt_of_lt_of_eq t.isLt (show cfg0.N = 32 from N_0)
  by_cases h0 : t.val % 8 = 0
  · rw [outsAt0_A V c t h0]
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0 t).mpr h0) (iblk0 V c 0 t) (iblk0 V c 1 t) (iblk0 V c 2 t) (iblk0 V c 3 t) (iblk0 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA_5 V c t h0)
    · unfold owns; iexists _; isplitr
      swap; · iexact H6
      ipureintro; exact View.read_writes_of_cover _ _ _ _ _ (coverA_6 V c t h0)
  · rw [outsAt0_B V c t h0]
    simp only [before0_5_B V c t h0, before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0 t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)).1 (outsAt0 V c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB_5 V c t h0 _ _)
    · unfold owns; iexists _; isplitr
      swap; · iexact H6
      ipureintro; exact View.read_writes_of_cover _ _ _ _ _ (coverB_6 V c t h0 _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRun1.lean ====
/-
  The normalising kernel's body, run once on any whole staging buffers.

  The body loads the adjacency block, the tile of feature rows, all feature rows of the batch, the weights, the
  bias, the mean, the variance, the scale and the shift, computes the normalised activations of the tile and
  stores them over the whole output block in one store. Run from the nine inputs at given contents and the output
  buffer at anything, it ends with the inputs as they were and the output buffer written with that one piece.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen

variable {F : FTy → Type} [FloatOps F]

local notation "𝕄" => MT nD τ sig Unit (Elt F) ℕ (UR sig nD τ) ℕ

set_option maxHeartbeats 2000000 in
/-- The pieces the body's store leaves in the output block's buffer, with the proof that the body runs to a
    continuation that is handed the inputs unchanged and the output buffer with those pieces written. -/
noncomputable def kernelRun1 (c : Dev nD) (i : grid1.Coords)
    (a2 : Memref sig .tc .vmem S1x128x8x1024 .f32) (h2 : a2.IsWhole) (a3 : Memref sig .tc .vmem S1x128x64 .f32) (h3 : a3.IsWhole)
    (a4 : Memref sig .tc .vmem S1x1024x64 .f32) (h4 : a4.IsWhole) (a5 : Memref sig .tc .vmem S8x9 .f32) (h5 : a5.IsWhole)
    (a6 : Memref sig .tc .vmem S8 .f32) (h6 : a6.IsWhole) (a7 : Memref sig .tc .vmem S8 .f32) (h7 : a7.IsWhole)
    (a8 : Memref sig .tc .vmem S8 .f32) (h8 : a8.IsWhole) (a9 : Memref sig .tc .vmem S8 .f32) (h9 : a9.IsWhole)
    (a10 : Memref sig .tc .vmem S8 .f32) (h10 : a10.IsWhole) (a11 : Memref sig .tc .vmem S1x128x8x1024 .f32) (h11 : a11.IsWhole)
    (x0 : Vec F S1x128x8x1024 .f32) (x1 : Vec F S1x128x64 .f32) (x2 : Vec F S1x1024x64 .f32) (x3 : Vec F S8x9 .f32)
    (x4 x5 x6 x7 x8 : Vec F S8 .f32) :
    { L : List (View.Piece (Elt F) S1x128x8x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6 ∗ owns (c : Thread nD τ) a9 fullShare x7 ∗ owns (c : Thread nD τ) a10 fullShare x8
            ∗ (∃ d, owns (c : Thread nD τ) a11 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4 ∗ owns (c : Thread nD τ) a7 fullShare x5
                ∗ owns (c : Thread nD τ) a8 fullShare x6 ∗ owns (c : Thread nD τ) a9 fullShare x7 ∗ owns (c : Thread nD τ) a10 fullShare x8
                ∗ (∃ f, a11.view.loc (c : Thread nD τ) ↦[a11.view.set]{fullShare} a11.view.writes (Elt F) f L)) -∗ K ⟨⟩))
          ⊢ wp frame (wpE (defs₀ (F := F)) Variants.none c none) E (cc1__lambda_ i a2 h2 a3 h3 a4 h4 a5 h5 a6 h6 a7 h7 a8 h8 a9 h9 a10 h10 a11 h11) K } := by
  refine ⟨?_, fun E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := h2.eq_unread hf0
    obtain rfl := h3.eq_unread hf1
    obtain rfl := h4.eq_unread hf2
    obtain rfl := h5.eq_unread hf3
    obtain rfl := h6.eq_unread hf4
    obtain rfl := h7.eq_unread hf5
    obtain rfl := h8.eq_unread hf6
    obtain rfl := h9.eq_unread hf7
    obtain rfl := h10.eq_unread hf8
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    iexists _; iexact H9

end Cert.Kernel.Hand

end
-- ==== Proof.KBDat1.lean ====
/-
  The normalising region's proof data and its body obligation.

  At every grid point each input window's staging buffer holds that window's block of its array — whether the
  pipeline fetched it at this point or kept it from an earlier one, because an unfetched window's block index has not
  moved — and the body leaves the output window's buffer holding what its one store wrote. The arrays are read off
  the contents `V` the region is entered with, a parameter here.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KBRun1
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated (which one does not matter). -/
abbrev VO1_9 : View sig .tc .vmem S1x128x8x1024 .f32 := (Memref.whole cc1_stg9_0 : Memref sig .tc .vmem S1x128x8x1024 .f32).view
abbrev ms1_0 (t : Fin cfg1.N) : Memref sig .tc .vmem S1x128x8x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x9 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128x8x1024 .f32 := win1_9.stage (cfg1.slots t 9)
abbrev hs1_9 (t : Fin cfg1.N) : (ms1_9 t).IsWhole := hstage1_9 ((cfg1.slots t 9).cast nbuf1_9)

/-- The pieces the body writes into the output buffer at point `t`. -/
abbrev pieces1 (c : Dev nD) (t : Fin cfg1.N) : List (View.Piece (Elt F) S1x128x8x1024 .f32) :=
  (kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t)).1

/-- They tile the output block (one store of the whole block), so they cover it. -/
theorem cover1_9 (c : Dev nD) (t : Fin cfg1.N) (y : S1x128x8x1024.Idx) : ∃ pc ∈ pieces1 V c t, y ∈ pc.1.set :=
  View.cover_of_tiledL (pieces1 V c t) S1x128x8x1024.size (by sl_kernel_rfl) y

/-- What the body leaves in the output window's staging buffer at point `t`: its pieces read back. -/
def out1_9 (c : Dev nD) (t : Fin cfg1.N) : Vec F S1x128x8x1024 .f32 :=
  VO1_9.read (Elt F) (VO1_9.writes (Elt F) VO1_9.junk (pieces1 V c t))

/-- The region's proof data on core `c`: the arrays as the region finds them; after the body each input's buffer at
    its block and the output's at what the body wrote; the invariant the scoped buffers no window stages and the
    generator register; nothing owed. The feature array is handed to two windows (the tile's rows and all rows), each
    holding half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 V c t
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1600000 in
/-- The body at any point: the inputs' buffers hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold out1_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover1_9 V c t)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBArr.lean ====
/-
  A region's arrays among the core's unscoped buffers, when two windows read one array.

  Both regions hand the feature array to two input windows (the tile's rows, and all rows of the batch). The
  pipeline holds each window's array at that window's share, so at a region's entry the array's one whole
  points-to is split into its two halves, one per window, and at the exit the halves are joined again; every other
  array belongs to one window and is held whole.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KBDat0
import proofs.«100599_j24919400252237_2_alg».proof.Proof.KBDat1
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

/-- The distinct buffers behind region 0's arrays, one by one. -/
theorem arrBufs0_eq (c : Dev nD) (U0 : (b : Ref sig .tc) → Buf (Elt F) ((c : Thread nD τ).loc b)) :
    (Pipeline.arrBufs (Ix := Unit) (Name := ℕ) (U := UR sig nD τ) (Lvl := ℕ) spec0 c U0 : sProp 𝕄)
      = iprop((((c : Thread nD τ).loc main_arg0) ↦{fullShare} U0 main_arg0) ∗ (((c : Thread nD τ).loc main_arg1) ↦{fullShare} U0 main_arg1) ∗ (((c : Thread nD τ).loc main_arg2) ↦{fullShare} U0 main_arg2) ∗ (((c : Thread nD τ).loc main_arg3) ↦{fullShare} U0 main_arg3) ∗ (((c : Thread nD τ).loc main_v0_0) ↦{fullShare} U0 main_v0_0) ∗ (((c : Thread nD τ).loc main_v0_1) ↦{fullShare} U0 main_v0_1)) :=
  bigSep_eq_bigSepL_of_eq [main_arg0, main_arg1, main_arg2, main_arg3, main_v0_0, main_v0_1] (by decide) (by decide) _

set_option maxHeartbeats 1600000 in
/-- ENTRY: the distinct buffers behind region 0's arrays, each whole at `U0`, are the pipeline's arrays at
    contents read off `U0`, the feature array split between its two windows. -/
theorem arrays_entry0 (c : Dev nD) (U0 : (b : Ref sig .tc) → Buf (Elt F) ((c : Thread nD τ).loc b))
    (G : (w : Fin cfg0.W) → Buf (Elt F) ((cfg0.win w).arr.view.loc (c : Thread nD τ))) (hG : ∀ w, G w = U0 (Pipeline.arrRef spec0 w)) :
    (Pipeline.arrBufs (Ix := Unit) (Name := ℕ) (U := UR sig nD τ) (Lvl := ℕ) spec0 c U0 : sProp 𝕄) ⊢ (dat0 V c).arrays G := by
  rw [arrBufs0_eq]
  unfold Pipeline.Dat.arrays
  rw [bigSep_W0]
  rw [share0_0 V c, share0_1 V c, share0_2 V c, share0_3 V c, share0_4 V c, share0_5 V c, share0_6 V c]
  rw [hG 0, hG 1, hG 2, hG 3, hG 4, hG 5, hG 6]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ]
  iintro ⟨H0, H1, H2, H3, H4, H5⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  isplitl [H4]; · iexact H4
  iexact H5

set_option maxHeartbeats 1600000 in
/-- EXIT: the pipeline's arrays at contents `G` are the distinct buffers behind them, each whole at any valuation
    `U1` that has the arrays at `G`; the feature array's two halves joined. -/
theorem arrays_exit0 (c : Dev nD) (U1 : (b : Ref sig .tc) → Buf (Elt F) ((c : Thread nD τ).loc b))
    (G : (w : Fin cfg0.W) → Buf (Elt F) ((cfg0.win w).arr.view.loc (c : Thread nD τ))) (hG : ∀ w, G w = U1 (Pipeline.arrRef spec0 w)) :
    (dat0 V c).arrays G ⊢ (Pipeline.arrBufs (Ix := Unit) (Name := ℕ) (U := UR sig nD τ) (Lvl := ℕ) spec0 c U1 : sProp 𝕄) := by
  rw [arrBufs0_eq]
  unfold Pipeline.Dat.arrays
  rw [bigSep_W0]
  rw [share0_0 V c, share0_1 V c, share0_2 V c, share0_3 V c, share0_4 V c, share0_5 V c, share0_6 V c]
  rw [hG 0, hG 1, hG 2, hG 3, hG 4, hG 5, hG 6]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ]
  iintro ⟨K0, K1, K2, K3, K4, K5, K6⟩
  ihave K12 := (pointsTo_share (PosShare.mem_left_op_right fullShare)).2 $$ [K1 K2]
  · isplitl [K1] <;> iassumption
  isplitl [K0]; · iexact K0
  isplitl [K12]; · iexact K12
  isplitl [K3]; · iexact K3
  isplitl [K4]; · iexact K4
  isplitl [K5]; · iexact K5
  iexact K6

/-! ## Region 1 -/

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl

/-- The distinct buffers behind region 1's arrays, one by one. -/
theorem arrBufs1_eq (c : Dev nD) (U0 : (b : Ref sig .tc) → Buf (Elt F) ((c : Thread nD τ).loc b)) :
    (Pipeline.arrBufs (Ix := Unit) (Name := ℕ) (U := UR sig nD τ) (Lvl := ℕ) spec1 c U0 : sProp 𝕄)
      = iprop((((c : Thread nD τ).loc main_arg0) ↦{fullShare} U0 main_arg0) ∗ (((c : Thread nD τ).loc main_arg1) ↦{fullShare} U0 main_arg1) ∗ (((c : Thread nD τ).loc main_arg2) ↦{fullShare} U0 main_arg2) ∗ (((c : Thread nD τ).loc main_arg3) ↦{fullShare} U0 main_arg3) ∗ (((c : Thread nD τ).loc main_v6) ↦{fullShare} U0 main_v6) ∗ (((c : Thread nD τ).loc main_v12) ↦{fullShare} U0 main_v12) ∗ (((c : Thread nD τ).loc main_arg4) ↦{fullShare} U0 main_arg4) ∗ (((c : Thread nD τ).loc main_arg5) ↦{fullShare} U0 main_arg5) ∗ (((c : Thread nD τ).loc main_v13) ↦{fullShare} U0 main_v13)) :=
  bigSep_eq_bigSepL_of_eq [main_arg0, main_arg1, main_arg2, main_arg3, main_v6, main_v12, main_arg4, main_arg5, main_v13] (by decide) (by decide) _

set_option maxHeartbeats 1600000 in
/-- ENTRY: the distinct buffers behind region 1's arrays, each whole at `U0`, are the pipeline's arrays at
    contents read off `U0`, the feature array split between its two windows. -/
theorem arrays_entry1 (c : Dev nD) (U0 : (b : Ref sig .tc) → Buf (Elt F) ((c : Thread nD τ).loc b))
    (G : (w : Fin cfg1.W) → Buf (Elt F) ((cfg1.win w).arr.view.loc (c : Thread nD τ))) (hG : ∀ w, G w = U0 (Pipeline.arrRef spec1 w)) :
    (Pipeline.arrBufs (Ix := Unit) (Name := ℕ) (U := UR sig nD τ) (Lvl := ℕ) spec1 c U0 : sProp 𝕄) ⊢ (dat1 V c).arrays G := by
  rw [arrBufs1_eq]
  unfold Pipeline.Dat.arrays
  rw [bigSep_W1]
  rw [share1_0 V c, share1_1 V c, share1_2 V c, share1_3 V c, share1_4 V c, share1_5 V c, share1_6 V c, share1_7 V c, share1_8 V c, share1_9 V c]
  rw [hG 0, hG 1, hG 2, hG 3, hG 4, hG 5, hG 6, hG 7, hG 8, hG 9]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ]
  iintro ⟨H0, H1, H2, H3, H4, H5, H6, H7, H8⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- EXIT: the pipeline's arrays at contents `G` are the distinct buffers behind them, each whole at any valuation
    `U1` that has the arrays at `G`; the feature array's two halves joined. -/
theorem arrays_exit1 (c : Dev nD) (U1 : (b : Ref sig .tc) → Buf (Elt F) ((c : Thread nD τ).loc b))
    (G : (w : Fin cfg1.W) → Buf (Elt F) ((cfg1.win w).arr.view.loc (c : Thread nD τ))) (hG : ∀ w, G w = U1 (Pipeline.arrRef spec1 w)) :
    (dat1 V c).arrays G ⊢ (Pipeline.arrBufs (Ix := Unit) (Name := ℕ) (U := UR sig nD τ) (Lvl := ℕ) spec1 c U1 : sProp 𝕄) := by
  rw [arrBufs1_eq]
  unfold Pipeline.Dat.arrays
  rw [bigSep_W1]
  rw [share1_0 V c, share1_1 V c, share1_2 V c, share1_3 V c, share1_4 V c, share1_5 V c, share1_6 V c, share1_7 V c, share1_8 V c, share1_9 V c]
  rw [hG 0, hG 1, hG 2, hG 3, hG 4, hG 5, hG 6, hG 7, hG 8, hG 9]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ]
  iintro ⟨K0, K1, K2, K3, K4, K5, K6, K7, K8, K9⟩
  ihave K12 := (pointsTo_share (PosShare.mem_left_op_right fullShare)).2 $$ [K1 K2]
  · isplitl [K1] <;> iassumption
  isplitl [K0]; · iexact K0
  isplitl [K12]; · iexact K12
  isplitl [K3]; · iexact K3
  isplitl [K4]; · iexact K4
  isplitl [K5]; · iexact K5
  isplitl [K6]; · iexact K6
  isplitl [K7]; · iexact K7
  isplitl [K8]; · iexact K8
  iexact K9

end Cert.Kernel.Hand

end
-- ==== Proof.KBRunCond.lean ====
/-
  The kernel program's run: both regions' records, and the run with every unscoped buffer named at the end.

  @main is the statistics region, seventeen host operations (the mean and the variance from the two sum arrays),
  and the normalising region. Between items a core holds every unscoped buffer whole: the launch contents, then what
  the statistics region leaves in the two sum arrays, then the host operations' results, then what the normalising
  region leaves in the result array. Each region's arrays are taken out of that state at its entry and put back at
  its exit; the run ends with every unscoped buffer read against the last valuation, from which both the frame (the
  six arguments are as launched) and the result array's contents follow.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KBArr
import proofs.«100599_j24919400252237_2_alg».proof.Proof.Gen.Kernel.Regions
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

/-! ## The conditional run, every unscoped buffer read at the end -/

-- the launch theorem's implicit arguments are found by unifying its conclusion with this one, which takes unfolding
-- plain definitions in a metavariable's type
set_option backward.isDefEq.respectTransparency.types false in
/-- Given one segment record per region, entered from and left at the thread states of the generated conditional
    frame, every weakly fair execution of @main terminates and every final memory holds each unscoped buffer at the
    last valuation. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    {Q : PUnit × MemSt nD τ sig (Elt F) → Prop}
    (hQ : ∀ s : MemSt nD τ sig (Elt F),
      (∀ c : Dev nD, ∀ b ∈ Pipeline.ucRefs τ sig, s.mem (((c : Thread nD τ)).1, b) = V3 m outs c b) → Q (⟨⟩, s)) :
    θ_run defs (onTc (τ := τ) (main (F := F))) ⟨m, fun _ => 0, ρ⟩ Q := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, hpost0 c, hpre1 c, (hpost1 c).trans (sep_mono .rfl (hE2 c))⟩)
    (hinit := ?_) (QY := fun c s => ∀ b ∈ Pipeline.ucRefs τ sig, s.mem (((c : Thread nD τ)).1, b) = V3 m outs c b)
    (hfin := fun c s' => ?_) (hQ := hQ)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => ((c : Thread nD τ).1, b)) (V3 m outs c) s')
    isplitl [Hh] <;> iassumption

end Cert.Kernel.Hand

end
-- ==== Proof.KBVals.lean ====
/-
  The kernel program's run, instantiated: what the regions leave, the two region records, the run.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KBRunCond
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The contents the statistics region is entered with: the launch memory. -/
abbrev Vr0 : (c : Dev nD) → (b : Ref sig .tc) → Buf (Elt F) ((c : Thread nD τ).loc b) := fun c b => V0 m c b

/-- The two sum arrays as the statistics region leaves them: its write-backs folded over the launch contents. -/
def sumArr (c : Dev nD) : Buf (Elt F) ((c : Thread nD τ).loc main_v0_0) := (dat0 (Vr0 m) c).arrAt 5 cfg0.N
def sqArr (c : Dev nD) : Buf (Elt F) ((c : Thread nD τ).loc main_v0_1) := (dat0 (Vr0 m) c).arrAt 6 cfg0.N

/-- What the statistics region leaves in the buffers it may change. -/
def left0 (r : Ref sig .tc) (c : Dev nD) : Buf (Elt F) ((c : Thread nD τ).loc r) :=
  if h0 : r = main_v0_0 then h0 ▸ sumArr m c else if h1 : r = main_v0_1 then h1 ▸ sqArr m c else m ((c : Thread nD τ).loc r)

/-- The contents the normalising region is entered with: the sum arrays in place, the host operations run. -/
abbrev Vr1 : (c : Dev nD) → (b : Ref sig .tc) → Buf (Elt F) ((c : Thread nD τ).loc b) := fun c b => V2 m (fun _ r c => left0 m r c) c b

/-- The result array as the normalising region leaves it. -/
def resArr (c : Dev nD) : Buf (Elt F) ((c : Thread nD τ).loc main_v13) := (dat1 (Vr1 m) c).arrAt 9 cfg1.N

/-- What the normalising region leaves in the buffer it may change. -/
def left1 (r : Ref sig .tc) (c : Dev nD) : Buf (Elt F) ((c : Thread nD τ).loc r) :=
  if h : r = main_v13 then h ▸ resArr m c else m ((c : Thread nD τ).loc r)

/-- The regions' effects on the unscoped buffers, by item. -/
def outs : Outs (F := F) := fun J r c => match J with
  | 1 => left0 m r c
  | _ => left1 m r c

theorem outs_1 (r : Ref sig .tc) (c : Dev nD) : outs m 1 r c = left0 m r c := rfl
theorem outs_3 (r : Ref sig .tc) (c : Dev nD) : outs m 3 r c = left1 m r c := rfl
theorem left0_sum (c : Dev nD) : left0 m main_v0_0 c = sumArr m c := by unfold left0; rw [dif_pos rfl]
theorem left0_sq (c : Dev nD) : left0 m main_v0_1 c = sqArr m c := by
  unfold left0; rw [dif_neg (by decide), dif_pos rfl]
theorem left1_res (c : Dev nD) : left1 m main_v13 c = resArr m c := by unfold left1; rw [dif_pos rfl]

/-- The valuation after the statistics region at the two sum arrays, -/
theorem V1_sum (c : Dev nD) : V1 m (outs m) c main_v0_0 = sumArr m c := by
  unfold V1
  rw [Function.update_of_ne (StableHlo.devRef_ne_of_ne (by decide) : (Proc.devRef .tc main_v0_0 : DevRef τ sig) ≠ Proc.devRef .tc main_v0_1),
    Function.update_self, outs_1, left0_sum]
theorem V1_sq (c : Dev nD) : V1 m (outs m) c main_v0_1 = sqArr m c := by
  unfold V1
  rw [Function.update_self, outs_1, left0_sq]
/-- the entry contents of the normalising region are the second boundary's, -/
theorem V2_eq (c : Dev nD) (b : Ref sig .tc) : V2 m (outs m) c b = Vr1 m c b := rfl
/-- and the last valuation at the result array. -/
theorem V3_res (c : Dev nD) : V3 m (outs m) c main_v13 = resArr m c := by
  unfold V3
  rw [Function.update_self, outs_3, left1_res]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr1 m) c

abbrev 𝒱₀ : Variants := Variants.none
abbrev Lz : GSem nD τ sig → Finset Unit := fun _ => ∅
abbrev lvz : GSem nD τ sig → Unit → ℕ := fun _ _ => 0

/-- What rides beside the buffers through every item: the generator register at some state and the core owing
    nothing. -/
abbrev Rr (c : Dev nD) : sProp 𝕄 := iprop((∃ r, prngReg c r) ∗ ∃ W, owes (c : Thread nD τ) (0 : CellTallies nD τ sig Unit) W)

/-! ## The arrays at each region's ends -/

/-- After its last point each array of the statistics region holds what the next valuation has there. -/
theorem exitArr0 (c : Dev nD) : ∀ w : Fin cfg0.W, (dat0 (Vr0 m) c).arrAt w cfg0.N = V1 m (outs m) c (Pipeline.arrRef spec0 w)
  | ⟨0, _⟩ => ((dat0 (Vr0 m) c).arrAt_in 0 rfl _).trans ((A_eq0 (Vr0 m) c 0).trans (V1_of m (outs m) c main_arg0 (by decide)).symm)
  | ⟨1, _⟩ => ((dat0 (Vr0 m) c).arrAt_in 1 rfl _).trans ((A_eq0 (Vr0 m) c 1).trans (V1_of m (outs m) c main_arg1 (by decide)).symm)
  | ⟨2, _⟩ => ((dat0 (Vr0 m) c).arrAt_in 2 rfl _).trans ((A_eq0 (Vr0 m) c 2).trans (V1_of m (outs m) c main_arg1 (by decide)).symm)
  | ⟨3, _⟩ => ((dat0 (Vr0 m) c).arrAt_in 3 rfl _).trans ((A_eq0 (Vr0 m) c 3).trans (V1_of m (outs m) c main_arg2 (by decide)).symm)
  | ⟨4, _⟩ => ((dat0 (Vr0 m) c).arrAt_in 4 rfl _).trans ((A_eq0 (Vr0 m) c 4).trans (V1_of m (outs m) c main_arg3 (by decide)).symm)
  | ⟨5, _⟩ => (V1_sum m c).symm
  | ⟨6, _⟩ => (V1_sq m c).symm

/-- After its last point each array of the normalising region holds what the last valuation has there. -/
theorem exitArr1 (c : Dev nD) : ∀ w : Fin cfg1.W, (dat1 (Vr1 m) c).arrAt w cfg1.N = V3 m (outs m) c (Pipeline.arrRef spec1 w)
  | ⟨0, _⟩ => ((dat1 (Vr1 m) c).arrAt_in 0 rfl _).trans ((A_eq1 (Vr1 m) c 0).trans (V3_of m (outs m) c main_arg0 (by decide)).symm)
  | ⟨1, _⟩ => ((dat1 (Vr1 m) c).arrAt_in 1 rfl _).trans ((A_eq1 (Vr1 m) c 1).trans (V3_of m (outs m) c main_arg1 (by decide)).symm)
  | ⟨2, _⟩ => ((dat1 (Vr1 m) c).arrAt_in 2 rfl _).trans ((A_eq1 (Vr1 m) c 2).trans (V3_of m (outs m) c main_arg1 (by decide)).symm)
  | ⟨3, _⟩ => ((dat1 (Vr1 m) c).arrAt_in 3 rfl _).trans ((A_eq1 (Vr1 m) c 3).trans (V3_of m (outs m) c main_arg2 (by decide)).symm)
  | ⟨4, _⟩ => ((dat1 (Vr1 m) c).arrAt_in 4 rfl _).trans ((A_eq1 (Vr1 m) c 4).trans (V3_of m (outs m) c main_arg3 (by decide)).symm)
  | ⟨5, _⟩ => ((dat1 (Vr1 m) c).arrAt_in 5 rfl _).trans ((A_eq1 (Vr1 m) c 5).trans (V3_of m (outs m) c main_v6 (by decide)).symm)
  | ⟨6, _⟩ => ((dat1 (Vr1 m) c).arrAt_in 6 rfl _).trans ((A_eq1 (Vr1 m) c 6).trans (V3_of m (outs m) c main_v12 (by decide)).symm)
  | ⟨7, _⟩ => ((dat1 (Vr1 m) c).arrAt_in 7 rfl _).trans ((A_eq1 (Vr1 m) c 7).trans (V3_of m (outs m) c main_arg4 (by decide)).symm)
  | ⟨8, _⟩ => ((dat1 (Vr1 m) c).arrAt_in 8 rfl _).trans ((A_eq1 (Vr1 m) c 8).trans (V3_of m (outs m) c main_arg5 (by decide)).symm)
  | ⟨9, _⟩ => (V3_res m c).symm

/-- Off the statistics region's arrays the valuation after it is the one before. -/
theorem rest0 (c : Dev nD) (b : Ref sig .tc) (hb : b ∉ Finset.univ.image (Pipeline.arrRef spec0)) : V1 m (outs m) c b = V0 m c b :=
  V1_of m (outs m) c b (fun h => hb (by
    rcases List.mem_cons.mp h with rfl | h
    · exact Finset.mem_image.mpr ⟨5, Finset.mem_univ _, rfl⟩
    · rcases List.mem_cons.mp h with rfl | h
      · exact Finset.mem_image.mpr ⟨6, Finset.mem_univ _, rfl⟩
      · exact absurd h (List.not_mem_nil)))

/-- Off the normalising region's arrays the valuation after it is the one before. -/
theorem rest1 (c : Dev nD) (b : Ref sig .tc) (hb : b ∉ Finset.univ.image (Pipeline.arrRef spec1)) : V3 m (outs m) c b = V2 m (outs m) c b :=
  V3_of m (outs m) c b (fun h => hb (by
    rcases List.mem_cons.mp h with rfl | h
    · exact Finset.mem_image.mpr ⟨9, Finset.mem_univ _, rfl⟩
    · exact absurd h (List.not_mem_nil)))

end Cert.Kernel.Hand

end
-- ==== Proof.KBRegs.lean ====
/-
  The two regions as segments of @main, and the run.
-/
import proofs.«100599_j24919400252237_2_alg».proof.Proof.Gen.Kernel.Launch
import proofs.«100599_j24919400252237_2_alg».proof.Proof.Gen.Kernel.Skeleton
import proofs.«100599_j24919400252237_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«100599_j24919400252237_2_alg».proof.Proof.KBVals
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand
open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- ENTRY of region 0, the arrays' part: every unscoped buffer at the entry valuation is the region's arrays at their
    entry contents beside the unscoped rest. -/
theorem entry0 (c : Dev nD) :
    (StableHlo.held (c : Thread nD τ) (Pipeline.ucRefs τ sig) (V0 m c) : sProp 𝕄)
      ⊢ iprop((dat0 (Vr0 m) c).arrays ((dat0 (Vr0 m) c).arrAt · 0)
          ∗ Pipeline.unscopedRest (Ix := Unit) (Name := ℕ) (U := UR sig nD τ) (Lvl := ℕ) spec0 c (Vr0 m c)) := by
  rw [← Pipeline.unscopedBufs_held (Ix := Unit) (Name := ℕ) (U := UR sig nD τ) (Lvl := ℕ) c (V0 m c),
    Pipeline.unscopedBufs_split₀ cfgs (0 : Fin 2) winFacts₀0.arr_unscoped c (fun b => V0 m c b)]
  exact sep_mono (arrays_entry0 (Vr0 m) c (fun b => V0 m c b) _ (fun w => A_eq0 (Vr0 m) c w)) .rfl

/-- EXIT of region 0, the arrays' part: the region's arrays at their final contents beside the unscoped rest are every
    unscoped buffer at the next valuation. -/
theorem exit0 (c : Dev nD) :
    iprop((dat0 (Vr0 m) c).arrays ((dat0 (Vr0 m) c).arrAt · cfg0.N)
        ∗ Pipeline.unscopedRest (Ix := Unit) (Name := ℕ) (U := UR sig nD τ) (Lvl := ℕ) spec0 c (Vr0 m c))
      ⊢ (StableHlo.held (c : Thread nD τ) (Pipeline.ucRefs τ sig) (V1 m (outs m) c) : sProp 𝕄) := by
  rw [← Pipeline.unscopedBufs_held (Ix := Unit) (Name := ℕ) (U := UR sig nD τ) (Lvl := ℕ) c (V1 m (outs m) c),
    Pipeline.unscopedBufs_split₀ cfgs (0 : Fin 2) winFacts₀0.arr_unscoped c (fun b => V1 m (outs m) c b)]
  refine sep_mono (arrays_exit0 (Vr0 m) c (fun b => V1 m (outs m) c b) _ (exitArr0 m c)) (Entails.of_eq ?_)
  unfold Pipeline.unscopedRest
  exact bigSep_congr fun b hb => by dsimp only; rw [rest0 m c b (Finset.mem_sdiff.mp hb).2]

set_option backward.isDefEq.respectTransparency.types false in
/-- REGION 0 as a segment: entered from every unscoped buffer at its entry valuation beside the generator register
    and the core owing nothing, left at the next valuation beside the same. -/
def reg0 : RegionSeg (pcfgs (F := F)) adm (pdats m) () defs₀ 𝒱₀ Lz lvz 0 where
  win := winFacts₀0
  block_pos := block_pos0
  stage_whole := stage_whole0
  K := PEmpty
  osem k := k.elim
  ho := Pipeline.OwnSemFacts.none _
  hbody c := (body_obligation0 (Vr0 m) c).loose
  hwaits := Pipeline.hwaits_of_owed_zero _ _ _ _ Lz lvz 0 fun _ _ => rfl
  pre c := iprop(StableHlo.held (c : Thread nD τ) (Pipeline.ucRefs τ sig) (V0 m c) ∗ Rr c)
  post c := iprop(StableHlo.held (c : Thread nD τ) (Pipeline.ucRefs τ sig) (V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

/-- ENTRY of region 1, the arrays' part: every unscoped buffer at the entry valuation is the region's arrays at their
    entry contents beside the unscoped rest. -/
theorem entry1 (c : Dev nD) :
    (StableHlo.held (c : Thread nD τ) (Pipeline.ucRefs τ sig) (V2 m (outs m) c) : sProp 𝕄)
      ⊢ iprop((dat1 (Vr1 m) c).arrays ((dat1 (Vr1 m) c).arrAt · 0)
          ∗ Pipeline.unscopedRest (Ix := Unit) (Name := ℕ) (U := UR sig nD τ) (Lvl := ℕ) spec1 c (Vr1 m c)) := by
  rw [← Pipeline.unscopedBufs_held (Ix := Unit) (Name := ℕ) (U := UR sig nD τ) (Lvl := ℕ) c (V2 m (outs m) c),
    Pipeline.unscopedBufs_split₀ cfgs (1 : Fin 2) winFacts₀1.arr_unscoped c (fun b => V2 m (outs m) c b)]
  exact sep_mono (arrays_entry1 (Vr1 m) c (fun b => V2 m (outs m) c b) _ (fun w => A_eq1 (Vr1 m) c w)) .rfl

/-- EXIT of region 1, the arrays' part: the region's arrays at their final contents beside the unscoped rest are every
    unscoped buffer at the next valuation. -/
theorem exit1 (c : Dev nD) :
    iprop((dat1 (Vr1 m) c).arrays ((dat1 (Vr1 m) c).arrAt · cfg1.N)
        ∗ Pipeline.unscopedRest (Ix := Unit) (Name := ℕ) (U := UR sig nD τ) (Lvl := ℕ) spec1 c (Vr1 m c))
      ⊢ (StableHlo.held (c : Thread nD τ) (Pipeline.ucRefs τ sig) (V3 m (outs m) c) : sProp 𝕄) := by
  rw [← Pipeline.unscopedBufs_held (Ix := Unit) (Name := ℕ) (U := UR sig nD τ) (Lvl := ℕ) c (V3 m (outs m) c),
    Pipeline.unscopedBufs_split₀ cfgs (1 : Fin 2) winFacts₀1.arr_unscoped c (fun b => V3 m (outs m) c b)]
  refine sep_mono (arrays_exit1 (Vr1 m) c (fun b => V3 m (outs m) c b) _ (exitArr1 m c)) (Entails.of_eq ?_)
  unfold Pipeline.unscopedRest
  exact bigSep_congr fun b hb => by dsimp only; rw [rest1 m c b (Finset.mem_sdiff.mp hb).2]; rfl

set_option backward.isDefEq.respectTransparency.types false in
/-- REGION 1 as a segment: entered from every unscoped buffer at its entry valuation beside the generator register
    and the core owing nothing, left at the next valuation beside the same. -/
def reg1 : RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ Lz lvz 1 fun _ _ => rfl
  pre c := iprop(StableHlo.held (c : Thread nD τ) (Pipeline.ucRefs τ sig) (V2 m (outs m) c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- From any memory with zero counters every weakly fair execution of @main terminates, nothing faulting, and every
    final memory holds each unscoped buffer at the last valuation. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = V3 m (outs m) c b) → Q (⟨⟩, s)) :
    θ_run defs (onTc (τ := τ) (main (F := F))) ⟨m, fun _ => 0, ρ⟩ Q :=
  run_cond (Ix := Unit) (U := UR sig nD τ) (Lvl := ℕ) m emb₁ () 𝒱₀ Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      refine Pipeline.initEach Lz lvz fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl) hQ

/-- THE FRAME: every weakly fair execution of @main terminates, nothing faulting, and the six argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_all m ρ fun s h c =>
    ⟨(h c _ (mem_uc main_arg0 (by decide))).trans (V3_main_arg0 m (outs m) c),
     (h c _ (mem_uc main_arg1 (by decide))).trans (V3_main_arg1 m (outs m) c),
     (h c _ (mem_uc main_arg2 (by decide))).trans (V3_main_arg2 m (outs m) c),
     (h c _ (mem_uc main_arg3 (by decide))).trans (V3_main_arg3 m (outs m) c),
     (h c _ (mem_uc main_arg4 (by decide))).trans (V3_main_arg4 m (outs m) c),
     (h c _ (mem_uc main_arg5 (by decide))).trans (V3_main_arg5 m (outs m) c)⟩

/-- THE RUN WITH THE RESULT NAMED: besides, the result array ends at what the normalising region's write-backs leave. -/
theorem run_named : θ_run defs (onTc (τ := τ) (main (F := F))) ⟨m, fun _ => 0, ρ⟩ (fun r => ∀ c : Dev nD,
      r.2.mem ((c.tc : Thread nD τ).loc main_v13) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_all m ρ fun s h c =>
    ⟨(h c _ (mem_uc main_v13 (by decide))).trans (V3_res m c),
     (h c _ (mem_uc main_arg0 (by decide))).trans (V3_main_arg0 m (outs m) c),
     (h c _ (mem_uc main_arg1 (by decide))).trans (V3_main_arg1 m (outs m) c),
     (h c _ (mem_uc main_arg2 (by decide))).trans (V3_main_arg2 m (outs m) c),
     (h c _ (mem_uc main_arg3 (by decide))).trans (V3_main_arg3 m (outs m) c),
     (h c _ (mem_uc main_arg4 (by decide))).trans (V3_main_arg4 m (outs m) c),
     (h c _ (mem_uc main_arg5 (by decide))).trans (V3_main_arg5 m (outs m) c)⟩

end Cert.Kernel.Hand

end
-- ==== Proof.Spec.lean ====
/-
  The mathematics both programs compute, as functions of the six argument arrays over the extended reals.

  A : [4,1024,8,1024], V : [4,1024,64], W : [8,9], bias, gamma, beta : [8].  For a batch b and nodes n, m:
    sq b n     = Σ_f V(b,n,f)²                              (a row's squared norm)
    dots b n m = Σ_f V(b,n,f)·V(b,m,f)                      (the Gram matrix)
    gaus b n m = exp(−(sq b n + sq b m − 2·dots b n m))      (the Gaussian kernel of the pairwise squared distance)
    mix b n o m = bias o + Σ_{l<8} A(b,n,l,m)·W(o,l) + gaus b n m·W(o,8)   (the channel-mixing linear map)
    act = max(mix, 0)                                        (ReLU)
  and the batch normalisation over the channel axis o, with N = 4·1024·1024 entries per channel:
    mean o = (Σ act)/N,
    the variance either as  max((Σ act²)/N − mean², 0)   (one pass over sums of the values and their squares)
                 or as       (Σ (act − mean)²)/N            (two passes),
    out = (act − mean)·rsqrt(var + ε)·gamma o + beta o.
  The two variances agree when every act is a real number (Σ(x−μ)² = Σx² − Nμ² ≥ 0); that is the one law
  between the two programs that needs finiteness.
-/
import Idealize.ShloMosaic.PureOps.Ideal
import Idealize.ShloMosaic.Lib.ValueIdx

noncomputable section

namespace Cert.Spec

open Idealize.ShloMosaic Idealize.ShloMosaic.ValueIdx
open scoped BigOperators

abbrev SA : Shape := ⟨4, ![4, 1024, 8, 1024]⟩
abbrev SV : Shape := ⟨3, ![4, 1024, 64]⟩
abbrev SW : Shape := ⟨2, ![8, 9]⟩
abbrev SC : Shape := ⟨1, ![8]⟩

variable (A : SA.Idx → EReal) (V : SV.Idx → EReal) (W : SW.Idx → EReal) (bias gamma beta : SC.Idx → EReal)

/-- The squared norm of node `n`'s feature row in batch `b`. -/
def sq (b : Fin 4) (n : Fin 1024) : EReal := ∑ f : Fin 64, V (ix3 b n f) * V (ix3 b n f)

/-- The inner product of the feature rows of nodes `n` and `m` in batch `b`. -/
def dots (b : Fin 4) (n m : Fin 1024) : EReal := ∑ f : Fin 64, V (ix3 b n f) * V (ix3 b m f)

/-- The float constant 2 (an exact binary value). -/
def two : EReal := Ideal.ofBits .f32 0x40000000#32

/-- The Gaussian kernel of the squared distance between nodes `n` and `m`, the distance expanded as
    ‖v_n‖² + ‖v_m‖² − 2⟨v_n, v_m⟩. -/
def gaus (b : Fin 4) (n m : Fin 1024) : EReal :=
  Ideal.exp (-(sq V b n + sq V b m - two * dots V b n m))

/-- The channel mix: output channel `o` of the linear map over the eight adjacency channels and the Gaussian
    channel, plus its bias. -/
def mix (b : Fin 4) (n : Fin 1024) (o : Fin 8) (m : Fin 1024) : EReal :=
  bias (ix1 o) + ∑ l : Fin 8, A (ix4 b n l m) * W (ix2 o l.castSucc) + gaus V b n m * W (ix2 o (Fin.last 8))

/-- The activation: the channel mix clamped below at zero. -/
def act (b : Fin 4) (n : Fin 1024) (o : Fin 8) (m : Fin 1024) : EReal := max (mix A V W bias b n o m) 0

/-- The number of entries of one channel, 4·1024·1024 = 2²², as a float constant (exact). -/
def cnt : EReal := Ideal.ofBits .f32 0x4A800000#32

/-- The float constant the variance is regularised with (the f32 nearest 1e-5; the same word in both programs). -/
def eps : EReal := Ideal.ofBits .f32 0x3727C5AC#32

/-- The sum of a channel's activations over batches and node pairs. -/
def sum1 (o : Fin 8) : EReal := ∑ b : Fin 4, ∑ n : Fin 1024, ∑ m : Fin 1024, act A V W bias b n o m

/-- The sum of their squares. -/
def sum2 (o : Fin 8) : EReal :=
  ∑ b : Fin 4, ∑ n : Fin 1024, ∑ m : Fin 1024, act A V W bias b n o m * act A V W bias b n o m

/-- The channel's mean activation. -/
def mean (o : Fin 8) : EReal := Ideal.div (sum1 A V W bias o) cnt

/-- The variance from the sums of the values and of their squares, clamped below at zero. -/
def varOnePass (o : Fin 8) : EReal :=
  max (Ideal.div (sum2 A V W bias o) cnt - mean A V W bias o * mean A V W bias o) 0

/-- The variance as the mean squared deviation from the mean. -/
def varTwoPass (o : Fin 8) : EReal :=
  Ideal.div (∑ b : Fin 4, ∑ n : Fin 1024, ∑ m : Fin 1024,
    (act A V W bias b n o m - mean A V W bias o) * (act A V W bias b n o m - mean A V W bias o)) cnt

/-- The normalised, scaled and shifted activation, for a given variance per channel. -/
def out (var : Fin 8 → EReal) (b : Fin 4) (n : Fin 1024) (o : Fin 8) (m : Fin 1024) : EReal :=
  (act A V W bias b n o m - mean A V W bias o) * Ideal.rsqrt (var o + eps) * gamma (ix1 o) + beta (ix1 o)

/-- The result array with the one-pass variance (what the kernel computes). -/
def resultOnePass : SA.Idx → EReal := fun i =>
  out A V W bias gamma beta (varOnePass A V W bias) (i 0) (i 1) (i 2) (i 3)

/-- The result array with the two-pass variance (what the reference computes). -/
def resultTwoPass : SA.Idx → EReal := fun i =>
  out A V W bias gamma beta (varTwoPass A V W bias) (i 0) (i 1) (i 2) (i 3)

end Cert.Spec

end
-- ==== Proof.RefValue1.lean ====
/-
  The reference program's stages up to the activation, read index by index: the row norms, the Gram matrix, the
  Gaussian kernel, the joined channels, the channel mix and the clamp at zero are the specification's `sq`, `dots`,
  `gaus`, `mix` and `act`.
-/
import proofs.«100599_j24919400252237_2_alg».proof.Proof.Gen.ReferenceIdeal.Read
import proofs.«100599_j24919400252237_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
open scoped BigOperators

variable (x0 : (⟨S4x1024x8x1024, .f32⟩ : BufTy).Contents (Elt Ideal)) (x1 : (⟨S4x1024x64, .f32⟩ : BufTy).Contents (Elt Ideal))
  (x2 : (⟨S8x9, .f32⟩ : BufTy).Contents (Elt Ideal)) (x3 : (⟨S8, .f32⟩ : BufTy).Contents (Elt Ideal))

/-- The first sum: at (b, n) it is Σ_f V(b,n,f)², the squared norm of node n's feature row. -/
theorem v1_eq (b : Fin 4) (n : Fin 1024) : val_main_v1 (F := Ideal) x1 (ix2 b n) = Cert.Spec.sq x1 b n := by
  have e : ∀ k : Fin 64, idx_main_v1 (ix2 b n) k = ix3 b n k := fun k =>
    funext fun a => Fin.ext (by match a with | ⟨0, _⟩ => rfl | ⟨1, _⟩ => rfl | ⟨2, _⟩ => rfl)
  rw [val_main_v1_apply]
  simp only [val_main_cst_apply, val_main_v0_apply, e, Ideal.ofBits_def, Ideal.mulf_def, Ideal.ofBits_zero_f32, zero_add]
  rfl

/-- The contraction over the features: at (b, n, m) it is Σ_f V(b,n,f)·V(b,m,f), the Gram matrix. -/
theorem v2_eq (b : Fin 4) (n m : Fin 1024) : val_main_v2 (F := Ideal) x1 (ix3 b n m) = Cert.Spec.dots x1 b n m := by
  have el : ∀ k : Fin 64, lidx_main_v2 (ix3 b n m) k = ix3 b n k := fun k =>
    funext fun a => Fin.ext (by match a with | ⟨0, _⟩ => rfl | ⟨1, _⟩ => rfl | ⟨2, _⟩ => rfl)
  have er : ∀ k : Fin 64, ridx_main_v2 (ix3 b n m) k = ix3 b m k := fun k =>
    funext fun a => Fin.ext (by match a with | ⟨0, _⟩ => rfl | ⟨1, _⟩ => rfl | ⟨2, _⟩ => rfl)
  rw [val_main_v2_apply]
  simp only [el, er]
  rfl

/-- The Gaussian kernel: at (b, n, m) it is exp(−(‖v_n‖² + ‖v_m‖² − 2⟨v_n, v_m⟩)). -/
theorem v12_eq (b : Fin 4) (n m : Fin 1024) : val_main_v12 (F := Ideal) x1 (ix3 b n m) = Cert.Spec.gaus x1 b n m := by
  have e5 : idx_main_v3 (idx_main_v5 (ix3 b n m)) = ix2 b n :=
    funext fun a => Fin.ext (by match a with | ⟨0, _⟩ => rfl | ⟨1, _⟩ => rfl)
  have e6 : idx_main_v4 (idx_main_v6 (ix3 b n m)) = ix2 b m :=
    funext fun a => Fin.ext (by match a with | ⟨0, _⟩ => rfl | ⟨1, _⟩ => rfl)
  rw [val_main_v12_apply, val_main_v11_apply, val_main_v10_apply, val_main_v7_apply, val_main_v5_apply, val_main_v3_apply,
    val_main_v6_apply, val_main_v4_apply, val_main_v9_apply, val_main_v8_apply, val_main_cst_0_apply, e5, e6]
  simp only [v1_eq, v2_eq, Ideal.hostUnary_exp_def, Ideal.hostNegf_def, Ideal.negf_def, Ideal.subf_def, Ideal.addf_def,
    Ideal.mulf_def, Ideal.ofBits_def]
  rfl

/-- The joined array at one of the first eight channels l: the adjacency entry A(b,n,l,m) (its last two axes swapped). -/
theorem v15_left (b : Fin 4) (n m : Fin 1024) (l : Fin 8) :
    val_main_v15 (F := Ideal) x0 x1 (@ix4 4 1024 1024 9 b n m l.castSucc) = x0 (ix4 b n l m) := by
  unfold val_main_v15
  refine (concatenate_pair_apply_left (t := S4x1024x1024x9) (s₁ := S4x1024x1024x8) (s₂ := S4x1024x1024x1) 3 _ _ _
    (@ix4 4 1024 1024 9 b n m l.castSucc) rfl (@ix4 4 1024 1024 8 b n m l) (fun a => ?_)).trans ?_
  · match a with | ⟨0, _⟩ => rfl | ⟨1, _⟩ => rfl | ⟨2, _⟩ => rfl | ⟨3, _⟩ => rfl
  · rw [val_main_v13_apply]
    exact congrArg x0 (funext fun a => Fin.ext (by match a with | ⟨0, _⟩ => rfl | ⟨1, _⟩ => rfl | ⟨2, _⟩ => rfl | ⟨3, _⟩ => rfl))

/-- The joined array at the ninth channel: the Gaussian kernel at (b, n, m). -/
theorem v15_right (b : Fin 4) (n m : Fin 1024) :
    val_main_v15 (F := Ideal) x0 x1 (@ix4 4 1024 1024 9 b n m (Fin.last 8)) = Cert.Spec.gaus x1 b n m := by
  unfold val_main_v15
  refine (concatenate_pair_apply_right (t := S4x1024x1024x9) (s₁ := S4x1024x1024x8) (s₂ := S4x1024x1024x1) 3 _ _ _
    (@ix4 4 1024 1024 9 b n m (Fin.last 8)) rfl rfl (@ix4 4 1024 1024 1 b n m 0) (fun a ha => ?_) rfl).trans ?_
  · match a, ha with
    | ⟨0, _⟩, _ => rfl
    | ⟨1, _⟩, _ => rfl
    | ⟨2, _⟩, _ => rfl
    | ⟨3, _⟩, ha => exact absurd rfl ha
  · have e : idx_main_v14 (ix4 b n m (0 : Fin 1)) = ix3 b n m :=
      funext fun a => Fin.ext (by match a with | ⟨0, _⟩ => rfl | ⟨1, _⟩ => rfl | ⟨2, _⟩ => rfl)
    rw [val_main_v14_apply, e, v12_eq]

/-- The contraction with the weights: at (b, n, m, o) it is Σ_{l<8} A(b,n,l,m)·W(o,l) + gaus(b,n,m)·W(o,8), the sum
    over the nine joined channels split into the first eight and the last. -/
theorem v16_eq (b : Fin 4) (n m : Fin 1024) (o : Fin 8) :
    val_main_v16 (F := Ideal) x0 x1 x2 (ix4 b n m o)
      = ∑ l : Fin 8, x0 (ix4 b n l m) * x2 (@ix2 8 9 o l.castSucc) + Cert.Spec.gaus x1 b n m * x2 (@ix2 8 9 o (Fin.last 8)) := by
  have el : ∀ k : Fin 9, lidx_main_v16 (ix4 b n m o) k = ix4 b n m k := fun k =>
    funext fun a => Fin.ext (by match a with | ⟨0, _⟩ => rfl | ⟨1, _⟩ => rfl | ⟨2, _⟩ => rfl | ⟨3, _⟩ => rfl)
  have er : ∀ k : Fin 9, ridx_main_v16 (ix4 b n m o) k = ix2 o k := fun k =>
    funext fun a => Fin.ext (by match a with | ⟨0, _⟩ => rfl | ⟨1, _⟩ => rfl)
  rw [val_main_v16_apply]
  simp only [el, er]
  rw [Fin.sum_univ_castSucc]
  simp only [v15_left, v15_right]

/-- The clamped channel mix: at (b, n, o, m) it is max(bias o + Σ_l A(b,n,l,m)·W(o,l) + gaus(b,n,m)·W(o,8), 0); the
    bias, added last by the program, is moved to the front (addition commutes and associates). -/
theorem v21_eq (b : Fin 4) (n : Fin 1024) (o : Fin 8) (m : Fin 1024) :
    val_main_v21 (F := Ideal) x0 x1 x2 x3 (ix4 b n o m) = Cert.Spec.act x0 x1 x2 x3 b n o m := by
  have e20 : idx_main_v20 (ix4 b n o m) = ix4 b n m o :=
    funext fun a => Fin.ext (by match a with | ⟨0, _⟩ => rfl | ⟨1, _⟩ => rfl | ⟨2, _⟩ => rfl | ⟨3, _⟩ => rfl)
  have e18 : idx_main_v17 (idx_main_v18 (ix4 b n m o)) = ix1 o :=
    funext fun a => Fin.ext (by match a with | ⟨0, _⟩ => rfl)
  rw [val_main_v21_apply, val_main_v20_apply, e20, val_main_v19_apply, val_main_v18_apply, val_main_v17_apply, e18,
    val_main_call0_v0_apply, val_main_call0_cst_apply, v16_eq]
  simp only [Ideal.maximumf_def, Ideal.addf_def, Ideal.ofBits_def, Ideal.ofBits_zero_f32]
  unfold Cert.Spec.act Cert.Spec.mix
  rw [add_assoc (x3 (ix1 o)) _ _, add_comm (x3 (ix1 o)) _]

/-- The activation with the channel axis moved in front of the node axes: at (b, o, n, m) it is act(b, n, o, m). -/
theorem v22_eq (b : Fin 4) (o : Fin 8) (n m : Fin 1024) :
    val_main_v22 (F := Ideal) x0 x1 x2 x3 (ix4 b o n m) = Cert.Spec.act x0 x1 x2 x3 b n o m := by
  have e : idx_main_v22 (ix4 b o n m) = ix4 b n o m :=
    funext fun a => Fin.ext (by match a with | ⟨0, _⟩ => rfl | ⟨1, _⟩ => rfl | ⟨2, _⟩ => rfl | ⟨3, _⟩ => rfl)
  rw [val_main_v22_apply, e, v21_eq]

end Cert.RefValue

end
-- ==== Proof.LibHostSum3.lean ====
/-
  A float sum over three of a rank-4 array's four axes, read at an index of the axis that is kept.
-/
import Idealize.ShloMosaic.PureOps.Ideal.Laws
import Idealize.ShloMosaic.Lib.ValueIdx

namespace Cert.LibHostSum3

open Idealize.ShloMosaic Idealize.ShloMosaic.ValueIdx
open scoped BigOperators

/-- The indices of a rank-4 array whose second coordinate is `o` correspond to the triples of the other three
    coordinates, so a sum over those indices is the triple sum over the three coordinates. -/
theorem sum_filter_axis1 {M : Type*} [AddCommMonoid M] {n0 n1 n2 n3 : Nat}
    (x : (⟨4, ![n0, n1, n2, n3]⟩ : Shape).Idx → M) (o : Fin n1) :
    ∑ i ∈ Finset.univ.filter (fun i : (⟨4, ![n0, n1, n2, n3]⟩ : Shape).Idx => (i 1).val = o.val), x i
      = ∑ b : Fin n0, ∑ n : Fin n2, ∑ m : Fin n3, x (ix4 b o n m) := by
  have e : ∑ b : Fin n0, ∑ n : Fin n2, ∑ m : Fin n3, x (ix4 b o n m)
      = ∑ p : Fin n0 × Fin n2 × Fin n3, x (ix4 p.1 o p.2.1 p.2.2) := by
    simp only [Fintype.sum_prod_type]
  rw [e]
  refine Finset.sum_nbij' (fun i => ((i 0, i 2, i 3) : Fin n0 × Fin n2 × Fin n3))
    (fun p => ix4 p.1 o p.2.1 p.2.2) (fun _ _ => Finset.mem_univ _) (fun p _ => ?_) (fun i hi => ?_) (fun _ _ => rfl)
    (fun i hi => ?_)
  · exact Finset.mem_filter.2 ⟨Finset.mem_univ _, rfl⟩
  · have ho : i 1 = o := Fin.ext (Finset.mem_filter.1 hi).2
    subst ho; exact (eq_ix4 i).symm
  · have ho : i 1 = o := Fin.ext (Finset.mem_filter.1 hi).2
    subst ho; exact congrArg x (eq_ix4 i)

/-- The host's float sum of a rank-4 array over its first, third and fourth axes, read at the index `o` of the axis
    that is kept: the initial value plus the triple sum, over the three summed coordinates, of the array at
    `(b, o, n, m)`. -/
theorem hostReduceAdd_axes023 {n0 n1 n2 n3 : Nat}
    (h : Shape.ReducesTo (⟨4, ![n0, n1, n2, n3]⟩ : Shape) [0, 2, 3] ⟨1, ![n1]⟩)
    (x : (⟨4, ![n0, n1, n2, n3]⟩ : Shape).Idx → EReal) (init : EReal) (o : Fin n1) :
    Ideal.hostReduceAdd h x init (ix1 o)
      = init + ∑ b : Fin n0, ∑ n : Fin n2, ∑ m : Fin n3, x (ix4 b o n m) := by
  unfold Ideal.hostReduceAdd
  rw [← sum_filter_axis1 x o]
  have hd : ∀ i : (⟨4, ![n0, n1, n2, n3]⟩ : Shape).Idx, (h.drop i 0).val = (i 1).val := fun _ => rfl
  refine congrArg (init + ·) (Finset.sum_congr (Finset.filter_congr fun i _ => ⟨fun e => ?_, fun e => ?_⟩) fun _ _ => rfl)
  · exact (hd i).symm.trans (congrArg Fin.val (congrFun e 0))
  · funext d
    match d with
    | ⟨0, _⟩ => exact Fin.ext ((hd i).trans e)

end Cert.LibHostSum3
-- ==== Proof.RefValue.lean ====
/-
  The reference program's batch normalisation, read index by index: the channel sums, the mean, the two-pass variance
  and the normalised, scaled and shifted result are the specification's `sum1`, `mean`, `varTwoPass` and `out`; so the
  program's result is `resultTwoPass`.
-/
import proofs.«100599_j24919400252237_2_alg».proof.Proof.RefValue1
import proofs.«100599_j24919400252237_2_alg».proof.Proof.LibHostSum3
import Idealize.ShloMosaic.Lib.ValueIdx
import Idealize.ShloMosaic.Lib.ValueLayout
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
open scoped BigOperators

section Stages

variable (x0 : (⟨S4x1024x8x1024, .f32⟩ : BufTy).Contents (Elt Ideal)) (x1 : (⟨S4x1024x64, .f32⟩ : BufTy).Contents (Elt Ideal))
  (x2 : (⟨S8x9, .f32⟩ : BufTy).Contents (Elt Ideal)) (x3 x4 x5 : (⟨S8, .f32⟩ : BufTy).Contents (Elt Ideal))

/-- The first channel sum: at o it is Σ_{b,n,m} act(b,n,o,m) (the sum starts from zero). -/
theorem v23_eq (o : Fin 8) :
    val_main_v23 (F := Ideal) x0 x1 x2 x3 (ix1 o) = Cert.Spec.sum1 x0 x1 x2 x3 o := by
  unfold val_main_v23
  simp only [Host.reduceAdd, Ideal.hostReduceAdd_def]
  rw [Cert.LibHostSum3.hostReduceAdd_axes023 (n0 := 4) (n1 := 8) (n2 := 1024) (n3 := 1024), val_main_cst_1_apply]
  simp only [v22_eq, Ideal.ofBits_def, Ideal.ofBits_zero_f32, zero_add]
  rfl

/-- The channel mean, held on a [1,8,1,1] array: at (0,o,0,0) it is (Σ act)/2²². -/
theorem v26_eq (o : Fin 8) :
    val_main_v26 (F := Ideal) x0 x1 x2 x3 (@ix4 1 8 1 1 0 o 0 0) = Cert.Spec.mean x0 x1 x2 x3 o := by
  have e24 : idx_main_v24 (@ix4 1 8 1 1 0 o 0 0) = ix1 o :=
    funext fun a => Fin.ext (by match a with | ⟨0, _⟩ => rfl)
  rw [val_main_v26_apply, val_main_v24_apply, e24, v23_eq, val_main_v25_apply, val_main_cst_2_apply]
  rfl

/-- The deviation from the mean: at (b,o,n,m) it is act(b,n,o,m) − mean o. -/
theorem v28_eq (b : Fin 4) (o : Fin 8) (n m : Fin 1024) :
    val_main_v28 (F := Ideal) x0 x1 x2 x3 (ix4 b o n m)
      = Cert.Spec.act x0 x1 x2 x3 b n o m - Cert.Spec.mean x0 x1 x2 x3 o := by
  have e27 : idx_main_v27 (ix4 b o n m) = @ix4 1 8 1 1 0 o 0 0 :=
    funext fun a => Fin.ext (by match a with | ⟨0, _⟩ => rfl | ⟨1, _⟩ => rfl | ⟨2, _⟩ => rfl | ⟨3, _⟩ => rfl)
  rw [val_main_v28_apply, val_main_v27_apply, e27, v26_eq, v22_eq]
  rfl

/-- The second channel sum: at o it is Σ_{b,n,m} (act(b,n,o,m) − mean o)² (the sum starts from zero). -/
theorem v30_eq (o : Fin 8) :
    val_main_v30 (F := Ideal) x0 x1 x2 x3 (ix1 o)
      = ∑ b : Fin 4, ∑ n : Fin 1024, ∑ m : Fin 1024,
          (Cert.Spec.act x0 x1 x2 x3 b n o m - Cert.Spec.mean x0 x1 x2 x3 o)
            * (Cert.Spec.act x0 x1 x2 x3 b n o m - Cert.Spec.mean x0 x1 x2 x3 o) := by
  unfold val_main_v30
  simp only [Host.reduceAdd, Ideal.hostReduceAdd_def]
  rw [Cert.LibHostSum3.hostReduceAdd_axes023 (n0 := 4) (n1 := 8) (n2 := 1024) (n3 := 1024), val_main_cst_3_apply]
  simp only [val_main_v29_apply, v28_eq, Ideal.mulf_def, Ideal.ofBits_def, Ideal.ofBits_zero_f32, zero_add]

/-- The two-pass variance, held on a [1,8,1,1] array: at (0,o,0,0) it is (Σ (act − mean)²)/2²². -/
theorem v33_eq (o : Fin 8) :
    val_main_v33 (F := Ideal) x0 x1 x2 x3 (@ix4 1 8 1 1 0 o 0 0) = Cert.Spec.varTwoPass x0 x1 x2 x3 o := by
  have e31 : idx_main_v31 (@ix4 1 8 1 1 0 o 0 0) = ix1 o :=
    funext fun a => Fin.ext (by match a with | ⟨0, _⟩ => rfl)
  rw [val_main_v33_apply, val_main_v31_apply, e31, v30_eq, val_main_v32_apply, val_main_cst_4_apply]
  rfl

/-- The normalised, scaled and shifted activation: at (b,o,n,m) it is
    (act − mean)·rsqrt(var + ε)·gamma o + beta o with the two-pass variance. -/
theorem v46_eq (b : Fin 4) (o : Fin 8) (n m : Fin 1024) :
    val_main_v46 (F := Ideal) x0 x1 x2 x3 x4 x5 (ix4 b o n m)
      = Cert.Spec.out x0 x1 x2 x3 x4 x5 (Cert.Spec.varTwoPass x0 x1 x2 x3) b n o m := by
  have e34 : idx_main_v34 (ix4 b o n m) = @ix4 1 8 1 1 0 o 0 0 :=
    funext fun a => Fin.ext (by match a with | ⟨0, _⟩ => rfl | ⟨1, _⟩ => rfl | ⟨2, _⟩ => rfl | ⟨3, _⟩ => rfl)
  have e39 : idx_main_v39 (ix4 b o n m) = @ix4 1 8 1 1 0 o 0 0 :=
    funext fun a => Fin.ext (by match a with | ⟨0, _⟩ => rfl | ⟨1, _⟩ => rfl | ⟨2, _⟩ => rfl | ⟨3, _⟩ => rfl)
  have e42 : idx_main_v41 (idx_main_v42 (ix4 b o n m)) = ix1 o :=
    funext fun a => Fin.ext (by match a with | ⟨0, _⟩ => rfl)
  have e45 : idx_main_v44 (idx_main_v45 (ix4 b o n m)) = ix1 o :=
    funext fun a => Fin.ext (by match a with | ⟨0, _⟩ => rfl)
  rw [val_main_v46_apply, val_main_v43_apply, val_main_v40_apply, val_main_v35_apply, val_main_v34_apply, e34,
    val_main_v39_apply, e39, val_main_v38_apply, val_main_v37_apply, val_main_v36_apply, val_main_cst_5_apply,
    val_main_v42_apply, val_main_v41_apply, e42, val_main_v45_apply, val_main_v44_apply, e45, v22_eq, v26_eq, v33_eq]
  rfl

end Stages

/-- The reference program's result array is the specification's result with the two-pass variance: the last operation
    only moves the channel axis back behind the first node axis. -/
theorem ref_is_spec (x0 : (⟨Cert.ReferenceIdeal.S4x1024x8x1024, .f32⟩ : BufTy).Contents (Elt Ideal)) (x1 : (⟨Cert.ReferenceIdeal.S4x1024x64, .f32⟩ : BufTy).Contents (Elt Ideal)) (x2 : (⟨Cert.ReferenceIdeal.S8x9, .f32⟩ : BufTy).Contents (Elt Ideal)) (x3 x4 x5 : (⟨Cert.ReferenceIdeal.S8, .f32⟩ : BufTy).Contents (Elt Ideal)) :
    Cert.ReferenceIdeal.Read.val_main_v47 (F := Ideal) x0 x1 x2 x3 x4 x5 = Cert.Spec.resultTwoPass x0 x1 x2 x3 x4 x5 := by
  funext i
  obtain ⟨b, n, o, m, rfl⟩ : ∃ (b : Fin 4) (n : Fin 1024) (o : Fin 8) (m : Fin 1024), i = ix4 b n o m :=
    ⟨i 0, i 1, i 2, i 3, eq_ix4 i⟩
  have e : idx_main_v47 (ix4 b n o m) = ix4 b o n m :=
    funext fun a => Fin.ext (by match a with | ⟨0, _⟩ => rfl | ⟨1, _⟩ => rfl | ⟨2, _⟩ => rfl | ⟨3, _⟩ => rfl)
  rw [val_main_v47_apply, e, v46_eq]
  rfl

end Cert.RefValue

end
-- ==== Proof.LibVariance.lean ====
/-
  The variance of finitely many real numbers, computed two ways.

  For real numbers x_i over a finite index set of N elements (N ≠ 0), with S1 = Σ x_i, S2 = Σ x_i·x_i and the mean
  μ = S1/N:
      ( Σ (x_i − μ)·(x_i − μ) ) / N  =  S2/N − μ·μ,
  because Σ (x_i − μ)·(x_i − μ) = S2 − 2μ·S1 + N·μ·μ and μ·S1 = N·μ·μ. The left side is a sum of squares divided by a
  positive count, so both sides are ≥ 0 and taking the larger of the right side and 0 changes nothing.

  Over the extended reals the sum, the product and the difference are total but the laws used above fail at the
  infinities. When every x_i is a real number, every sum, product, difference and quotient by the nonzero real N in the
  two expressions is the real one, coerced, and so is the larger of a real and 0; the real identity then carries over.
-/
import Idealize.ShloMosaic.PureOps.Ideal

noncomputable section

open scoped BigOperators

namespace Cert.LibVariance

open Idealize.ShloMosaic

variable {ι : Type*} [Fintype ι]

/-- Σ (x_i − μ)·(x_i − μ) = Σ x_i·x_i − 2μ·Σ x_i + N·(μ·μ), N the number of indices, for any real μ. -/
theorem sum_sq_dev (x : ι → ℝ) (μ : ℝ) :
    ∑ i, (x i - μ) * (x i - μ) = (∑ i, x i * x i) - 2 * μ * (∑ i, x i) + (Fintype.card ι : ℝ) * (μ * μ) := by
  calc ∑ i, (x i - μ) * (x i - μ) = ∑ i, (x i * x i - 2 * μ * x i + μ * μ) :=
        Finset.sum_congr rfl (fun i _ => by ring)
    _ = _ := by
        rw [Finset.sum_add_distrib, Finset.sum_sub_distrib, ← Finset.mul_sum, Finset.sum_const, Finset.card_univ,
          nsmul_eq_mul]

/-- The mean of the squared deviations from the mean is the mean of the squares minus the square of the mean. -/
theorem var_real (x : ι → ℝ) (N : ℝ) (hN : (Fintype.card ι : ℝ) = N) (hN0 : N ≠ 0) :
    (∑ i, (x i - (∑ j, x j) / N) * (x i - (∑ j, x j) / N)) / N
      = (∑ i, x i * x i) / N - (∑ i, x i) / N * ((∑ i, x i) / N) := by
  rw [sum_sq_dev, hN]
  field_simp
  ring

/-- The mean of the squares minus the square of the mean is ≥ 0: it is a mean of squares. -/
theorem var_real_nonneg (x : ι → ℝ) (N : ℝ) (hN : (Fintype.card ι : ℝ) = N) (hN0 : N ≠ 0) :
    0 ≤ (∑ i, x i * x i) / N - (∑ i, x i) / N * ((∑ i, x i) / N) := by
  rw [← var_real x N hN hN0]
  have hpos : (0 : ℝ) ≤ N := hN ▸ Nat.cast_nonneg _
  exact div_nonneg (Finset.sum_nonneg fun i _ => mul_self_nonneg _) hpos

/-- The larger of (mean of squares − square of mean) and 0 is the mean of the squared deviations from the mean. -/
theorem max_var_real (x : ι → ℝ) (N : ℝ) (hN : (Fintype.card ι : ℝ) = N) (hN0 : N ≠ 0) :
    max ((∑ i, x i * x i) / N - (∑ i, x i) / N * ((∑ i, x i) / N)) 0
      = (∑ i, (x i - (∑ j, x j) / N) * (x i - (∑ j, x j) / N)) / N := by
  rw [max_eq_left (var_real_nonneg x N hN hN0), var_real x N hN hN0]

/-- The coercion of a finite sum of real numbers is the sum of the coercions. -/
theorem coe_sum {κ : Type*} (s : Finset κ) (f : κ → ℝ) : ∑ i ∈ s, (f i : EReal) = ((∑ i ∈ s, f i : ℝ) : EReal) := by
  classical
  refine Finset.induction_on s (by simp) ?_
  intro i s hi ih
  rw [Finset.sum_insert hi, Finset.sum_insert hi, ih, EReal.coe_add]

/-- The quotient of a real by a nonzero real, taken in the extended reals, is the real quotient. -/
theorem div_coe_coe (a : ℝ) {N : ℝ} (hN0 : N ≠ 0) : Ideal.div (a : EReal) (N : EReal) = ((a / N : ℝ) : EReal) := by
  rw [Ideal.div_coe hN0, ← EReal.coe_mul, mul_one_div]

/-- The larger of two reals, taken in the extended reals, is the real one. -/
theorem coe_max (a b : ℝ) : max (a : EReal) (b : EReal) = ((max a b : ℝ) : EReal) :=
  (EReal.coe_strictMono.monotone.map_max).symm

/-- Over the extended reals, for real numbers x_i and N their nonzero count: the larger of
    S2/N − (S1/N)·(S1/N) and 0 is ( Σ (x_i − S1/N)·(x_i − S1/N) ) / N. -/
theorem max_var_ereal (x : ι → EReal) (hx : ∀ i, ∃ r : ℝ, x i = (r : EReal)) (N : ℝ)
    (hN : (Fintype.card ι : ℝ) = N) (hN0 : N ≠ 0) :
    max (Ideal.div (∑ i, x i * x i) (N : EReal)
          - Ideal.div (∑ i, x i) (N : EReal) * Ideal.div (∑ i, x i) (N : EReal)) 0
      = Ideal.div (∑ i, (x i - Ideal.div (∑ j, x j) (N : EReal)) * (x i - Ideal.div (∑ j, x j) (N : EReal)))
          (N : EReal) := by
  choose r hr using hx
  obtain rfl : x = fun i => (r i : EReal) := funext hr
  simp only [← EReal.coe_mul, coe_sum, div_coe_coe _ hN0, ← EReal.coe_sub]
  rw [← EReal.coe_zero, coe_max, max_var_real r N hN hN0]

/-- The same with the two arguments of the larger-of exchanged. -/
theorem max_zero_var_ereal (x : ι → EReal) (hx : ∀ i, ∃ r : ℝ, x i = (r : EReal)) (N : ℝ)
    (hN : (Fintype.card ι : ℝ) = N) (hN0 : N ≠ 0) :
    max 0 (Ideal.div (∑ i, x i * x i) (N : EReal)
          - Ideal.div (∑ i, x i) (N : EReal) * Ideal.div (∑ i, x i) (N : EReal))
      = Ideal.div (∑ i, (x i - Ideal.div (∑ j, x j) (N : EReal)) * (x i - Ideal.div (∑ j, x j) (N : EReal)))
          (N : EReal) := by
  rw [max_comm]
  exact max_var_ereal x hx N hN hN0

/-- The same with the mean named: for m = S1/N, the larger of S2/N − m·m and 0 is ( Σ (x_i − m)·(x_i − m) ) / N. -/
theorem max_var_ereal_mean (x : ι → EReal) (hx : ∀ i, ∃ r : ℝ, x i = (r : EReal)) (N : ℝ)
    (hN : (Fintype.card ι : ℝ) = N) (hN0 : N ≠ 0) (m : EReal) (hm : m = Ideal.div (∑ i, x i) (N : EReal)) :
    max (Ideal.div (∑ i, x i * x i) (N : EReal) - m * m) 0
      = Ideal.div (∑ i, (x i - m) * (x i - m)) (N : EReal) := by
  subst hm
  exact max_var_ereal x hx N hN hN0

/-- The pattern 0x4A800000 of the 32-bit format is the real number 4194304 = 2^22: sign 0, exponent field 149,
    fraction 0, so 2^23 · 2^(149 − 127 − 23). -/
theorem ofBits_4194304 : Ideal.ofBits .f32 0x4A800000#32 = ((4194304 : ℝ) : EReal) := by
  simp [Ideal.ofBits, Ideal.ieee]
  rw [← EReal.coe_mul, EReal.coe_eq_coe_iff]
  norm_num

end Cert.LibVariance

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.LibRealOps.lean ====
/-
  More closure properties of the real numbers among the extended reals.

  A real number is an extended real other than the two infinities. Besides the sum, the product and finite sums, the
  real numbers are closed under the difference, the negation, the larger and the smaller of two, the exponential, the
  quotient by a nonzero real, and the reciprocal square root of a positive real: on real arguments each of these
  operations on the extended reals is the real operation, coerced.
-/
import proofs.«100599_j24919400252237_2_alg».proof.Proof.LibReal

noncomputable section

open scoped BigOperators

namespace Cert.LibRealOps

open Idealize.ShloMosaic Cert.LibReal

/-- 1 is a real number. -/
theorem IsReal.one : IsReal 1 := ⟨1, EReal.coe_one.symm⟩

/-- A real number is not plus infinity. -/
theorem IsReal.ne_top {a : EReal} (ha : IsReal a) : a ≠ ⊤ := by
  obtain ⟨r, rfl⟩ := ha; exact EReal.coe_ne_top r

/-- A real number is not minus infinity. -/
theorem IsReal.ne_bot {a : EReal} (ha : IsReal a) : a ≠ ⊥ := by
  obtain ⟨r, rfl⟩ := ha; exact EReal.coe_ne_bot r

/-- An extended real that is neither infinity is a real number. -/
theorem IsReal.of_ne {a : EReal} (ht : a ≠ ⊤) (hb : a ≠ ⊥) : IsReal a := by
  induction a using EReal.rec with
  | bot => exact absurd rfl hb
  | coe r => exact ⟨r, rfl⟩
  | top => exact absurd rfl ht

/-- The negation of a real number is a real number. -/
theorem IsReal.neg {a : EReal} (ha : IsReal a) : IsReal (-a) := by
  obtain ⟨r, rfl⟩ := ha; exact ⟨-r, (EReal.coe_neg r).symm⟩

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The larger of two real numbers is a real number. -/
theorem IsReal.max {a b : EReal} (ha : IsReal a) (hb : IsReal b) : IsReal (max a b) := by
  obtain ⟨r, rfl⟩ := ha; obtain ⟨s, rfl⟩ := hb
  exact ⟨Max.max r s, (EReal.coe_strictMono.monotone.map_max).symm⟩

/-- The smaller of two real numbers is a real number. -/
theorem IsReal.min {a b : EReal} (ha : IsReal a) (hb : IsReal b) : IsReal (min a b) := by
  obtain ⟨r, rfl⟩ := ha; obtain ⟨s, rfl⟩ := hb
  exact ⟨Min.min r s, (EReal.coe_strictMono.monotone.map_min).symm⟩

/-- The exponential of a real number is a real number. -/
theorem IsReal.exp {a : EReal} (ha : IsReal a) : IsReal (Ideal.exp a) := by
  obtain ⟨r, rfl⟩ := ha; exact ⟨Real.exp r, Ideal.exp_coe r⟩

/-- The quotient of a real number by a nonzero real is a real number. -/
theorem IsReal.div_coe {a : EReal} (ha : IsReal a) {N : ℝ} (hN : N ≠ 0) : IsReal (Ideal.div a (N : EReal)) := by
  obtain ⟨r, rfl⟩ := ha
  exact ⟨r * (1 / N), by rw [Ideal.div_coe hN, EReal.coe_mul]⟩

/-- The quotient of a real number by a nonzero real number is a real number. -/
theorem IsReal.div {a b : EReal} (ha : IsReal a) (hb : IsReal b) (hb0 : b ≠ 0) : IsReal (Ideal.div a b) := by
  obtain ⟨s, rfl⟩ := hb
  exact IsReal.div_coe ha (fun h => hb0 (by rw [h, EReal.coe_zero]))

/-- The reciprocal square root of a positive real is a real number. -/
theorem IsReal.rsqrt_coe {r : ℝ} (hr : 0 < r) : IsReal (Ideal.rsqrt (r : EReal)) :=
  ⟨(Real.sqrt r)⁻¹, by rw [Ideal.rsqrt_coe, if_neg (not_lt.mpr hr.le), if_neg hr.ne']⟩

/-- A sum of real numbers over a whole finite index type is a real number. -/
theorem IsReal.sum_univ {ι : Type*} [Fintype ι] (f : ι → EReal) (h : ∀ i, IsReal (f i)) : IsReal (∑ i, f i) :=
  IsReal.sum Finset.univ f (fun i _ => h i)

end Cert.LibRealOps

end
-- ==== Proof.SpecLaw.lean ====
/-
  The one law between the two programs that needs finiteness: the two forms of the variance agree.

  When the four arrays A, V, W and bias hold real numbers, every activation is a real number: the squared norms and
  the inner products are finite sums of products of reals, the Gaussian channel is the exponential of a real, the
  channel mix is a sum of products of reals, and the activation is the larger of that and 0. For one channel the
  activations over all batches and node pairs are then 4·1024·1024 = 4194304 real numbers, and for N real numbers with
  mean μ the clamped one-pass form max((Σ x²)/N − μ², 0) is the two-pass form (Σ (x − μ)²)/N. The normalised results,
  which depend on the variance only through its value per channel, therefore agree as well.
-/
import proofs.«100599_j24919400252237_2_alg».proof.Proof.Spec
import proofs.«100599_j24919400252237_2_alg».proof.Proof.LibVariance
import proofs.«100599_j24919400252237_2_alg».proof.Proof.LibRealOps

noncomputable section

namespace Cert.SpecLaw

open Idealize.ShloMosaic Idealize.ShloMosaic.ValueIdx Cert.Spec Cert.LibReal Cert.LibRealOps Cert.LibVariance
open scoped BigOperators

variable {A : SA.Idx → EReal} {V : SV.Idx → EReal} {W : SW.Idx → EReal} {bias : SC.Idx → EReal}

/-- The pattern 0x40000000 of the 32-bit format is the real number 2: sign 0, exponent field 128, fraction 0,
    so 2^23 · 2^(128 − 127 − 23). -/
theorem two_eq : two = ((2 : ℝ) : EReal) := by
  unfold two
  simp [Ideal.ofBits, Ideal.ieee]
  rw [← EReal.coe_mul, EReal.coe_eq_coe_iff]
  norm_num

/-- The constant 2 is a real number. -/
theorem two_real : IsReal two := ⟨2, two_eq⟩

/-- A squared norm of a row of real numbers is a real number. -/
theorem sq_real (hV : ∀ i, IsReal (V i)) (b : Fin 4) (n : Fin 1024) : IsReal (sq V b n) :=
  IsReal.sum_univ _ fun _ => IsReal.mul (hV _) (hV _)

/-- An inner product of two rows of real numbers is a real number. -/
theorem dots_real (hV : ∀ i, IsReal (V i)) (b : Fin 4) (n m : Fin 1024) : IsReal (dots V b n m) :=
  IsReal.sum_univ _ fun _ => IsReal.mul (hV _) (hV _)

/-- The Gaussian channel of real rows is a real number: the exponential of a real. -/
theorem gaus_real (hV : ∀ i, IsReal (V i)) (b : Fin 4) (n m : Fin 1024) : IsReal (gaus V b n m) :=
  IsReal.exp (IsReal.neg (IsReal.sub (IsReal.add (sq_real hV b n) (sq_real hV b m))
    (IsReal.mul two_real (dots_real hV b n m))))

/-- The channel mix of real arrays is a real number. -/
theorem mix_real (hA : ∀ i, IsReal (A i)) (hV : ∀ i, IsReal (V i)) (hW : ∀ i, IsReal (W i))
    (hb : ∀ i, IsReal (bias i)) (b : Fin 4) (n : Fin 1024) (o : Fin 8) (m : Fin 1024) :
    IsReal (mix A V W bias b n o m) :=
  IsReal.add (IsReal.add (hb _) (IsReal.sum_univ _ fun _ => IsReal.mul (hA _) (hW _)))
    (IsReal.mul (gaus_real hV b n m) (hW _))

/-- The activation of real arrays is a real number: the larger of a real and 0. -/
theorem act_real (hA : ∀ i, IsReal (A i)) (hV : ∀ i, IsReal (V i)) (hW : ∀ i, IsReal (W i))
    (hb : ∀ i, IsReal (bias i)) (b : Fin 4) (n : Fin 1024) (o : Fin 8) (m : Fin 1024) :
    IsReal (act A V W bias b n o m) :=
  IsReal.max (mix_real hA hV hW hb b n o m) IsReal.zero

/-- One channel has 4·1024·1024 = 4194304 entries. -/
theorem card_entries : (Fintype.card (Fin 4 × Fin 1024 × Fin 1024) : ℝ) = 4194304 := by
  rw [Fintype.card_prod, Fintype.card_prod, Fintype.card_fin, Fintype.card_fin]
  norm_num

/-- For real arrays the one-pass variance of a channel, max((Σ x²)/N − mean², 0), is the two-pass one, (Σ (x − mean)²)/N. -/
theorem var_eq (hA : ∀ i, IsReal (A i)) (hV : ∀ i, IsReal (V i)) (hW : ∀ i, IsReal (W i))
    (hb : ∀ i, IsReal (bias i)) (o : Fin 8) : varOnePass A V W bias o = varTwoPass A V W bias o := by
  have key := max_var_ereal_mean (ι := Fin 4 × Fin 1024 × Fin 1024)
    (fun p => act A V W bias p.1 p.2.1 o p.2.2) (fun p => act_real hA hV hW hb p.1 p.2.1 o p.2.2)
    4194304 card_entries (by norm_num) (mean A V W bias o)
    (by unfold mean sum1 cnt; rw [ofBits_4194304]; simp only [Fintype.sum_prod_type])
  simp only [Fintype.sum_prod_type] at key
  unfold varOnePass varTwoPass sum2 cnt
  rw [ofBits_4194304]
  exact key

/-- For real arrays A, V, W, bias (gamma and beta arbitrary) the result with the one-pass variance is the result with
    the two-pass variance. -/
theorem result_eq (hA : ∀ i, IsReal (A i)) (hV : ∀ i, IsReal (V i)) (hW : ∀ i, IsReal (W i))
    (hb : ∀ i, IsReal (bias i)) (gamma beta : SC.Idx → EReal) :
    resultOnePass A V W bias gamma beta = resultTwoPass A V W bias gamma beta := by
  have hvar : varOnePass A V W bias = varTwoPass A V W bias := funext (var_eq hA hV hW hb)
  unfold resultOnePass resultTwoPass
  rw [hvar]

end Cert.SpecLaw

end
-- ==== Proof.PreReal.lean ====
/-
  From the precondition to "every input entry is a real number".

  The precondition is the conjunction, by "and" of one-bit words, of six tests, one per argument array: the all-reduce
  by "and" of the element-wise comparison |x| < +∞. The conjunction being 1 says each test is 1; an all-reduce by "and"
  onto a single result being 1 says every element of the comparison is 1; and |x| < +∞ for an extended real x says x is
  neither infinity, that is, a real number.
-/
import proofs.«100599_j24919400252237_2_alg».proof.Pre_finite_inputs
import proofs.«100599_j24919400252237_2_alg».proof.Proof.LibReal
import Idealize.ShloMosaic.Lib.ReduceAll
import Idealize.ShloMosaic.Lib.ValueIdx

noncomputable section

namespace Cert.PreReal

open Idealize.ShloMosaic Cert.LibReal Cert.Pre_finite_inputs

/-- The rank-zero shape has one index. -/
instance scalar_subsingleton : Subsingleton S_.Idx := ⟨fun a b => funext fun d => d.elim0⟩

/-- One test: an all-reduce by "and" of the comparison |x| < +∞ that is 1 says every entry of the array is a real
    number. -/
theorem real_of_all {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi (cmpf .olt (Host.absf a) (broadcastInDim s ![] hb (constant S_ .f32 0x7F800000#32)))
          (constantI S_ 1 1#1) hr hu ValueIdx.ix0 = 1#1) :
    ∀ i, IsReal (a i) :=
  fun i => elem_real hb a i (Host.reduce_andi_all _ _ hr hu ValueIdx.ix0 h i)

/-- The precondition being all ones says every entry of each of the six argument arrays is a real number. -/
theorem real_of_pre [Facts] (a0 : FVec Ideal S4x1024x8x1024 .f32) (a1 : FVec Ideal S4x1024x64 .f32)
    (a2 : FVec Ideal S8x9 .f32) (a3 : FVec Ideal S8 .f32) (a4 : FVec Ideal S8 .f32) (a5 : FVec Ideal S8 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have h0 := congrFun h ValueIdx.ix0
  unfold fn fn_part1 at h0
  dsimp only at h0
  simp only [andi, IntOp.andi_eq_one] at h0
  obtain ⟨⟨⟨⟨⟨t0, t1⟩, t2⟩, t3⟩, t4⟩, t5⟩ := h0
  exact ⟨real_of_all _ _ _ a0 t0, real_of_all _ _ _ a1 t1, real_of_all _ _ _ a2 t2, real_of_all _ _ _ a3 t3,
    real_of_all _ _ _ a4 t4, real_of_all _ _ _ a5 t5⟩

end Cert.PreReal

end
-- ==== Proof.KIHost.lean ====
/-
  The seventeen operations between the two kernel regions, read at an index.

  From the two [4,1,8] arrays of per-batch partial sums s1 (of the activations) and s2 (of their squares) the operations
  compute, per channel o: the sums over the four batches S1 = Σ_b s1(b,0,o) and S2 = Σ_b s2(b,0,o) (each a sum from the
  initial value 0 over the first axis, then the [1,8] result read as [8]), the count N = 4194304 spread over the eight
  channels, the mean S1/N, the mean of squares S2/N, their difference S2/N − (S1/N)·(S1/N), and the larger of that and 0.
  Here the two results the second region reads, the mean and the clamped variance, are given as those closed forms,
  for any contents of the other buffers; and the operations leave the arguments and the two arrays of partial sums as
  they were.
-/
import proofs.«100599_j24919400252237_2_alg».proof.Proof.Gen.KernelIdeal.Launch
import proofs.«100599_j24919400252237_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostVal

open Cert.KernelIdeal Cert.KernelIdeal.Gen Idealize.ShloMosaic Idealize.ShloMosaic.TcCoe Idealize.ShloMosaic.ValueIdx
open Idealize.SL.Sem
open scoped BigOperators

/-- Σ over the first axis of a [4,1,8] array, from the initial value 0, the [1,8] result read as [8]. -/
def rowSum (s : FVec Ideal S4x1x8 .f32) : FVec Ideal S8 .f32 :=
  shapeCast S8 (Host.reduceAdd (F := Ideal) s (constant (F := Ideal) S_ .f32 0x00000000#32) reducesTo_S4x1x8_S1x8_d0 h_S_)
    shapeCasts_S1x8_S8

/-- The count constant spread over the eight channels. -/
def cntVec : FVec Ideal S8 .f32 := broadcastInDim S8 ![] bcast_S_S8 (constant (F := Ideal) S_ .f32 0x4A800000#32)

/-- The zero constant spread over the eight channels. -/
def zeroVec : FVec Ideal S8 .f32 := broadcastInDim S8 ![] bcast_S_S8 (constant (F := Ideal) S_ .f32 0x00000000#32)

/-- The per-channel mean: the batch sum divided by the count. -/
def meanVec (s1 : FVec Ideal S4x1x8 .f32) : FVec Ideal S8 .f32 := Host.divf (F := Ideal) (rowSum s1) cntVec

/-- The per-channel clamped variance: the larger of (mean of squares − mean·mean) and 0. -/
def varVec (s1 s2 : FVec Ideal S4x1x8 .f32) : FVec Ideal S8 .f32 :=
  maximumf (F := Ideal) (subf (F := Ideal) (Host.divf (F := Ideal) (rowSum s2) cntVec) (mulf (F := Ideal) (meanVec s1) (meanVec s1)))
    zeroVec

/-- After the operations the mean's buffer holds `meanVec` of the first array of partial sums. -/
theorem after_mean (W : Valuation τ sig (Elt Ideal)) :
    (StableHlo.after (hostOps1 (F := Ideal)) W (Proc.devRef .tc main_v6) : FVec Ideal S8 .f32)
      = meanVec (W (Proc.devRef .tc main_v0_0)) := by
  unfold hostOps1
  after_results
  rfl

/-- After the operations the variance's buffer holds `varVec` of the two arrays of partial sums. -/
theorem after_var (W : Valuation τ sig (Elt Ideal)) :
    (StableHlo.after (hostOps1 (F := Ideal)) W (Proc.devRef .tc main_v12) : FVec Ideal S8 .f32)
      = varVec (W (Proc.devRef .tc main_v0_0)) (W (Proc.devRef .tc main_v0_1)) := by
  unfold hostOps1
  after_results
  rfl

/-- The batch sum at channel o is Σ_b s(b,0,o): the initial value 0 drops out, and the [8] index o reads the [1,8]
    index (0,o). -/
theorem rowSum_apply (s : FVec Ideal S4x1x8 .f32) (o : Fin 8) : rowSum s (ix1 o) = ∑ b : Fin 4, s (ix3 b 0 o) := by
  unfold rowSum
  rw [shapeCast_1a_a_apply]
  simp only [Host.reduceAdd, Ideal.hostReduceAdd_def]
  rw [Ideal.hostReduceAdd_single reducesTo_S4x1x8_S1x8_d0 (by decide)]
  have h0 : constant (F := Ideal) S_ .f32 0x00000000#32 (Shape.Idx.first h_S_) = 0 := Ideal.ofBits_zero_f32
  rw [h0, zero_add]
  refine Finset.sum_congr rfl fun k _ => congrArg s (funext fun a => Fin.ext ?_)
  match a with
  | ⟨0, _⟩ => rfl
  | ⟨1, _⟩ => rfl
  | ⟨2, _⟩ => rfl

/-- Every channel of the spread count is the count constant. -/
theorem cntVec_apply (o : Fin 8) : cntVec (ix1 o) = Cert.Spec.cnt :=
  (broadcastInDim_apply _ bcast_S_S8 _ (ix1 o) ix0 (fun a => a.elim0)).trans rfl

/-- Every channel of the spread zero is 0. -/
theorem zeroVec_apply (o : Fin 8) : zeroVec (ix1 o) = 0 :=
  (broadcastInDim_apply _ bcast_S_S8 _ (ix1 o) ix0 (fun a => a.elim0)).trans Ideal.ofBits_zero_f32

/-- The mean at channel o is (Σ_b s1(b,0,o)) / N. -/
theorem meanVec_apply (s1 : FVec Ideal S4x1x8 .f32) (o : Fin 8) :
    meanVec s1 (ix1 o) = Ideal.div (∑ b : Fin 4, s1 (ix3 b 0 o)) Cert.Spec.cnt := by
  show Ideal.div (rowSum s1 (ix1 o)) (cntVec (ix1 o)) = _
  rw [rowSum_apply, cntVec_apply]

/-- The clamped variance at channel o is max( (Σ_b s2(b,0,o))/N − mean·mean, 0 ) with mean = (Σ_b s1(b,0,o))/N. -/
theorem varVec_apply (s1 s2 : FVec Ideal S4x1x8 .f32) (o : Fin 8) :
    varVec s1 s2 (ix1 o)
      = max (Ideal.div (∑ b : Fin 4, s2 (ix3 b 0 o)) Cert.Spec.cnt
          - Ideal.div (∑ b : Fin 4, s1 (ix3 b 0 o)) Cert.Spec.cnt * Ideal.div (∑ b : Fin 4, s1 (ix3 b 0 o)) Cert.Spec.cnt) 0 := by
  show max (Ideal.div (rowSum s2 (ix1 o)) (cntVec (ix1 o)) - meanVec s1 (ix1 o) * meanVec s1 (ix1 o)) (zeroVec (ix1 o)) = _
  rw [rowSum_apply, cntVec_apply, meanVec_apply, zeroVec_apply]

/-- After the operations, the mean's buffer at channel o is (Σ_b s1(b,0,o)) / N, s1 the first array of partial sums. -/
theorem mean_after (W : Valuation τ sig (Elt Ideal)) (o : Fin 8) :
    (StableHlo.after (hostOps1 (F := Ideal)) W (Proc.devRef .tc main_v6) : FVec Ideal S8 .f32) (ix1 o)
      = Ideal.div (∑ b : Fin 4, (W (Proc.devRef .tc main_v0_0) : FVec Ideal S4x1x8 .f32) (ix3 b 0 o)) Cert.Spec.cnt := by
  rw [after_mean, meanVec_apply]

/-- After the operations, the variance's buffer at channel o is max( (Σ_b s2(b,0,o))/N − mean·mean, 0 ). -/
theorem var_after (W : Valuation τ sig (Elt Ideal)) (o : Fin 8) :
    (StableHlo.after (hostOps1 (F := Ideal)) W (Proc.devRef .tc main_v12) : FVec Ideal S8 .f32) (ix1 o)
      = max (Ideal.div (∑ b : Fin 4, (W (Proc.devRef .tc main_v0_1) : FVec Ideal S4x1x8 .f32) (ix3 b 0 o)) Cert.Spec.cnt
          - Ideal.div (∑ b : Fin 4, (W (Proc.devRef .tc main_v0_0) : FVec Ideal S4x1x8 .f32) (ix3 b 0 o)) Cert.Spec.cnt
            * Ideal.div (∑ b : Fin 4, (W (Proc.devRef .tc main_v0_0) : FVec Ideal S4x1x8 .f32) (ix3 b 0 o)) Cert.Spec.cnt) 0 := by
  rw [after_var, varVec_apply]

/-! The operations write none of the six arguments nor the two arrays of partial sums. -/

theorem after_arg0 (W : Valuation τ sig (Elt Ideal)) :
    StableHlo.after (hostOps1 (F := Ideal)) W (Proc.devRef .tc main_arg0) = W (Proc.devRef .tc main_arg0) := by
  unfold hostOps1; after_results
theorem after_arg1 (W : Valuation τ sig (Elt Ideal)) :
    StableHlo.after (hostOps1 (F := Ideal)) W (Proc.devRef .tc main_arg1) = W (Proc.devRef .tc main_arg1) := by
  unfold hostOps1; after_results
theorem after_arg2 (W : Valuation τ sig (Elt Ideal)) :
    StableHlo.after (hostOps1 (F := Ideal)) W (Proc.devRef .tc main_arg2) = W (Proc.devRef .tc main_arg2) := by
  unfold hostOps1; after_results
theorem after_arg3 (W : Valuation τ sig (Elt Ideal)) :
    StableHlo.after (hostOps1 (F := Ideal)) W (Proc.devRef .tc main_arg3) = W (Proc.devRef .tc main_arg3) := by
  unfold hostOps1; after_results
theorem after_arg4 (W : Valuation τ sig (Elt Ideal)) :
    StableHlo.after (hostOps1 (F := Ideal)) W (Proc.devRef .tc main_arg4) = W (Proc.devRef .tc main_arg4) := by
  unfold hostOps1; after_results
theorem after_arg5 (W : Valuation τ sig (Elt Ideal)) :
    StableHlo.after (hostOps1 (F := Ideal)) W (Proc.devRef .tc main_arg5) = W (Proc.devRef .tc main_arg5) := by
  unfold hostOps1; after_results
theorem after_v0_0 (W : Valuation τ sig (Elt Ideal)) :
    StableHlo.after (hostOps1 (F := Ideal)) W (Proc.devRef .tc main_v0_0) = W (Proc.devRef .tc main_v0_0) := by
  unfold hostOps1; after_results
theorem after_v0_1 (W : Valuation τ sig (Elt Ideal)) :
    StableHlo.after (hostOps1 (F := Ideal)) W (Proc.devRef .tc main_v0_1) = W (Proc.devRef .tc main_v0_1) := by
  unfold hostOps1; after_results

/-- Any of the six arguments keeps its contents through the operations. -/
theorem after_arg (W : Valuation τ sig (Elt Ideal)) (r : Ref sig .tc)
    (h : r ∈ ([main_arg0, main_arg1, main_arg2, main_arg3, main_arg4, main_arg5] : List (Ref sig .tc))) :
    StableHlo.after (hostOps1 (F := Ideal)) W (Proc.devRef .tc r) = W (Proc.devRef .tc r) := by
  simp only [List.mem_cons, List.not_mem_nil, or_false] at h
  rcases h with rfl | rfl | rfl | rfl | rfl | rfl
  exacts [after_arg0 W, after_arg1 W, after_arg2 W, after_arg3 W, after_arg4 W, after_arg5 W]

end Cert.KernelIdeal.HostVal

end
-- ==== Proof.KIValue0A.lean ====
/-
  The statistics region: what one grid point leaves in the two accumulators, as values.

  The body's stores into an accumulator's buffer are found as a list of pieces. At a later tile of a batch there is one
  store covering the whole block: the old contents plus the tile's per-channel sums (for the second accumulator, of the
  squares), computed from the five input blocks. At the first tile there are two: the zero block, then the same update
  taken over the zero block read back. Both lists are read here as the one function `sumStep` (`sqStep`) of the input
  blocks and the starting contents.
-/
import proofs.«100599_j24919400252237_2_alg».proof.Proof.KIDat0
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Value0

open Cert.KernelIdeal Cert.KernelIdeal.Gen Cert.KernelIdeal.Hand Idealize.ShloMosaic.ValueIdx

variable {F : FTy → Type} [FloatOps F]
variable (V : (c : Dev nD) → (b : Ref sig .tc) → Buf (Elt F) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One tile's contribution to the running sum: the accumulator plus the tile's per-channel sums, as the body computes it
    from the five input blocks. -/
def sumStep (x0 : Vec F S1x128x8x1024 .f32) (x1 : Vec F S1x128x64 .f32) (x2 : Vec F S1x1024x64 .f32) (x3 : Vec F S8x9 .f32)
    (x4 : Vec F S8 .f32) (acc : Vec F S1x1x8 .f32) : Vec F S1x1x8 .f32 :=
  k0_pay2 (k0_pay7 x1 x2) x3 (k0_pay13 (k0_pay6 x0))
    (k0_pay14 (k0_pay6 x0) x3 x4 (k0_pay8 x0) (k0_pay9 x0) (k0_pay10 x0) (k0_pay11 x0) (k0_pay12 x0)) (k0_pay15 x3)
    (k0_pay16 (k0_pay6 x0)) acc

/-- One tile's contribution to the running sum of squares. -/
def sqStep (x0 : Vec F S1x128x8x1024 .f32) (x1 : Vec F S1x128x64 .f32) (x2 : Vec F S1x1024x64 .f32) (x3 : Vec F S8x9 .f32)
    (x4 : Vec F S8 .f32) (acc : Vec F S1x1x8 .f32) : Vec F S1x1x8 .f32 :=
  k0_pay3 (k0_pay7 x1 x2) x3 (k0_pay13 (k0_pay6 x0))
    (k0_pay14 (k0_pay6 x0) x3 x4 (k0_pay8 x0) (k0_pay9 x0) (k0_pay10 x0) (k0_pay11 x0) (k0_pay12 x0)) (k0_pay15 x3)
    (k0_pay16 (k0_pay6 x0)) acc

/-- At a later tile the running sum becomes the step over what it held. -/
theorem sum_B (c : Dev nD) (t : Fin cfg0.N) (h0 : ¬t.val % 8 = 0) (xo5 xo6 : Vec F S1x1x8 .f32) :
    readBack (piecesB V c t h0 xo5 xo6).1
      = sumStep (iblk0 V c 0 t) (iblk0 V c 1 t) (iblk0 V c 2 t) (iblk0 V c 3 t) (iblk0 V c 4 t) xo5 := by
  refine (View.read_writes_junk_eq_canon VO0 _).trans ?_
  unfold piecesB kernelRun0_B
  dsimp only
  sl_unfold_words
  rw [View.canon_unit_zero (S := S1x1x8) hz3]
  simp only [View.readAt_eq_ld, (hs0_0 t).read_unread, (hs0_1 t).read_unread, (hs0_2 t).read_unread, (hs0_3 t).read_unread,
    (hs0_4 t).read_unread, (hs0_5 t).read_unread, View.ld_unit_zero (S := S1x128x8x1024) hz4,
    View.ld_unit_zero (S := S1x128x64) hz3, View.ld_unit_zero (S := S1x1024x64) hz3, View.ld_unit_zero (S := S8x9) hz2,
    View.ld_unit_zero (S := S8) hz1, View.ld_unit_zero (S := S1x1x8) hz3]
  rfl

/-- At a later tile the running sum of squares becomes the step over what it held. -/
theorem sq_B (c : Dev nD) (t : Fin cfg0.N) (h0 : ¬t.val % 8 = 0) (xo5 xo6 : Vec F S1x1x8 .f32) :
    readBack (piecesB V c t h0 xo5 xo6).2
      = sqStep (iblk0 V c 0 t) (iblk0 V c 1 t) (iblk0 V c 2 t) (iblk0 V c 3 t) (iblk0 V c 4 t) xo6 := by
  refine (View.read_writes_junk_eq_canon VO0 _).trans ?_
  unfold piecesB kernelRun0_B
  dsimp only
  sl_unfold_words
  rw [View.canon_unit_zero (S := S1x1x8) hz3]
  simp only [View.readAt_eq_ld, (hs0_0 t).read_unread, (hs0_1 t).read_unread, (hs0_2 t).read_unread, (hs0_3 t).read_unread,
    (hs0_4 t).read_unread, (hs0_6 t).read_unread, View.ld_unit_zero (S := S1x128x8x1024) hz4,
    View.ld_unit_zero (S := S1x128x64) hz3, View.ld_unit_zero (S := S1x1024x64) hz3, View.ld_unit_zero (S := S8x9) hz2,
    View.ld_unit_zero (S := S8) hz1, View.ld_unit_zero (S := S1x1x8) hz3]
  rfl

/-- At a first tile the running sum is reset to the zero block, read back, and the step taken over it. -/
theorem sum_A (c : Dev nD) (t : Fin cfg0.N) (h0 : t.val % 8 = 0) :
    readBack (piecesA V c t h0).1
      = sumStep (iblk0 V c 0 t) (iblk0 V c 1 t) (iblk0 V c 2 t) (iblk0 V c 3 t) (iblk0 V c 4 t) k0_pay4 := by
  refine (View.read_writes_junk_eq_canon VO0 _).trans ?_
  unfold piecesA kernelRun0_A
  dsimp only
  sl_unfold_words
  rw [View.canon_cons_unit_zero (S := S1x1x8) hz3, View.readCov_unit_zero (S := S1x1x8) _ hz3]
  simp only [View.readAt_eq_ld, (hs0_0 t).read_unread, (hs0_1 t).read_unread, (hs0_2 t).read_unread, (hs0_3 t).read_unread,
    (hs0_4 t).read_unread, View.ld_unit_zero (S := S1x128x8x1024) hz4,
    View.ld_unit_zero (S := S1x128x64) hz3, View.ld_unit_zero (S := S1x1024x64) hz3, View.ld_unit_zero (S := S8x9) hz2,
    View.ld_unit_zero (S := S8) hz1]
  rfl

/-- At a first tile the running sum of squares is reset to the zero block, read back, and the step taken over it. -/
theorem sq_A (c : Dev nD) (t : Fin cfg0.N) (h0 : t.val % 8 = 0) :
    readBack (piecesA V c t h0).2
      = sqStep (iblk0 V c 0 t) (iblk0 V c 1 t) (iblk0 V c 2 t) (iblk0 V c 3 t) (iblk0 V c 4 t) k0_pay5 := by
  refine (View.read_writes_junk_eq_canon VO0 _).trans ?_
  unfold piecesA kernelRun0_A
  dsimp only
  sl_unfold_words
  rw [View.canon_cons_unit_zero (S := S1x1x8) hz3, View.readCov_unit_zero (S := S1x1x8) _ hz3]
  simp only [View.readAt_eq_ld, (hs0_0 t).read_unread, (hs0_1 t).read_unread, (hs0_2 t).read_unread, (hs0_3 t).read_unread,
    (hs0_4 t).read_unread, View.ld_unit_zero (S := S1x128x8x1024) hz4,
    View.ld_unit_zero (S := S1x128x64) hz3, View.ld_unit_zero (S := S1x1024x64) hz3, View.ld_unit_zero (S := S8x9) hz2,
    View.ld_unit_zero (S := S8) hz1]
  rfl

end Cert.KernelIdeal.Value0

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.KPay1.lean ====
/-
  The two kernel bodies' arithmetic read at an index, at the exact values (floats are extended reals, operations exact).

  This file: the block-level formulas of the mathematics a grid point computes, over the loaded blocks as variables, and
  the Gaussian kernel of a tile. For the tile's rows `vt : [1, 128, 64]` and the batch's rows `vf : [1, 1024, 64]`,
    gausBlk p q = exp(−(‖vt_p‖² + ‖vf_q‖² − 2·⟨vt_p, vf_q⟩)),
  the squared distance expanded. The kernel computes the two squared norms as lane sums of the squares, keeps the first
  as a column and the second as a row and spreads both over the tile; the inner products are one matrix product
  `vt · vfᵀ` into a zero accumulator; and the negation is written `0 − x`.
-/
import proofs.«100599_j24919400252237_2_alg».proof.Proof.Gen.KernelIdeal.Skeleton
import proofs.«100599_j24919400252237_2_alg».proof.Proof.Spec
import proofs.«100599_j24919400252237_2_alg».proof.Proof.LibMatmulNT
import proofs.«100599_j24919400252237_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KPay

open Cert.KernelIdeal Cert.KernelIdeal.Gen Idealize.ShloMosaic Idealize.ShloMosaic.ValueIdx

/-! ## The block-level formulas -/

/-- The Gaussian kernel of the squared distance between row `p` of the tile and row `q` of the batch, the distance
    expanded as ‖vt_p‖² + ‖vf_q‖² − 2⟨vt_p, vf_q⟩. -/
def gausBlk (vt : Vec Ideal S1x128x64 .f32) (vf : Vec Ideal S1x1024x64 .f32) (p : Fin 128) (q : Fin 1024) : EReal :=
  Ideal.exp (-((∑ f : Fin 64, vt (ix3 (0 : Fin 1) p f) * vt (ix3 (0 : Fin 1) p f))
    + (∑ f : Fin 64, vf (ix3 (0 : Fin 1) q f) * vf (ix3 (0 : Fin 1) q f))
    - Cert.Spec.two * ∑ f : Fin 64, vt (ix3 (0 : Fin 1) p f) * vf (ix3 (0 : Fin 1) q f)))

/-- The channel mix of a tile: output channel `o` of the linear map over the eight adjacency channels of the block `a`
    and the Gaussian channel, plus the bias. -/
def mixBlk (a : Vec Ideal S1x128x8x1024 .f32) (vt : Vec Ideal S1x128x64 .f32) (vf : Vec Ideal S1x1024x64 .f32)
    (w : Vec Ideal S8x9 .f32) (bv : Vec Ideal S8 .f32) (p : Fin 128) (o : Fin 8) (q : Fin 1024) : EReal :=
  bv (ix1 o) + ∑ l : Fin 8, a (ix4 (0 : Fin 1) p l q) * w (ix2 o l.castSucc) + gausBlk vt vf p q * w (ix2 o (Fin.last 8))

/-- The activation of a tile: the channel mix clamped below at zero. -/
def actBlk (a : Vec Ideal S1x128x8x1024 .f32) (vt : Vec Ideal S1x128x64 .f32) (vf : Vec Ideal S1x1024x64 .f32)
    (w : Vec Ideal S8x9 .f32) (bv : Vec Ideal S8 .f32) (p : Fin 128) (o : Fin 8) (q : Fin 1024) : EReal :=
  max (mixBlk a vt vf w bv p o q) 0

/-! ## The Gaussian kernel of a tile -/

/-- A row's squared norm, summed along the lanes, kept as a column and spread along the row: at `(p, q)` it is
    Σ_f x(p, f)². -/
theorem rowSq_col_apply (x : FVec Ideal S128x64 .f32) (h : S128x64.Reduces [1] S128) (hφ : FKind.Formats .f32)
    (hacc : (0x00000000#32 : BitVec 32) = FKind.add.neutral .f32 hφ) (hc : S128.ShapeCasts S128x1)
    (hb : S128x1.Broadcasts S128x1024) (p : Fin 128) (q : Fin 1024) :
    broadcastTo S128x1024 (shapeCast S128x1 (multiReduction .add [1] S128 (mulf x x) 0x00000000#32 h hφ hacc) hc) hb (ix2 p q)
      = ∑ f : Fin 64, x (ix2 p f) * x (ix2 p f) :=
  (Cert.LibColumns.broadcastTo_a1_ab_apply _ hb p q).trans
    ((Cert.LibColumns.shapeCast_a_a1_apply _ hc p 0).trans
      (Cert.LibColumns.multiReduction_add_rows_apply (mulf x x) _ h hφ hacc p))

/-- A row's squared norm, summed along the lanes, kept as a row and spread along the columns: at `(p, q)` it is
    Σ_f y(q, f)². -/
theorem rowSq_row_apply (y : FVec Ideal S1024x64 .f32) (h : S1024x64.Reduces [1] S1024) (hφ : FKind.Formats .f32)
    (hacc : (0x00000000#32 : BitVec 32) = FKind.add.neutral .f32 hφ) (hc : S1024.ShapeCasts S1x1024)
    (hb : S1x1024.Broadcasts S128x1024) (p : Fin 128) (q : Fin 1024) :
    broadcastTo S128x1024 (shapeCast S1x1024 (multiReduction .add [1] S1024 (mulf y y) 0x00000000#32 h hφ hacc) hc) hb (ix2 p q)
      = ∑ f : Fin 64, y (ix2 q f) * y (ix2 q f) :=
  (broadcastTo_1b_ab_apply _ hb p q).trans
    ((shapeCast_a_1a_apply _ hc 0 q).trans
      (Cert.LibColumns.multiReduction_add_rows_apply (mulf y y) _ h hφ hacc q))

/-- The Gaussian kernel as a chain of vector operations over the two row blocks with their unit axis dropped: what both
    kernel bodies compute, read at `(p, q)`. -/
theorem gaus_chain_apply (vt : Vec Ideal S1x128x64 .f32) (vf : Vec Ideal S1x1024x64 .f32)
    (x : FVec Ideal S128x64 .f32) (y : FVec Ideal S1024x64 .f32)
    (hx : ∀ (p : Fin 128) (f : Fin 64), x (ix2 p f) = vt (ix3 (0 : Fin 1) p f))
    (hy : ∀ (q : Fin 1024) (f : Fin 64), y (ix2 q f) = vf (ix3 (0 : Fin 1) q f))
    (sqx sqy dots : FVec Ideal S128x1024 .f32) (p : Fin 128) (q : Fin 1024)
    (h1 : sqx (ix2 p q) = ∑ f : Fin 64, x (ix2 p f) * x (ix2 p f))
    (h2 : sqy (ix2 p q) = ∑ f : Fin 64, y (ix2 q f) * y (ix2 q f))
    (h3 : dots (ix2 p q) = ∑ f : Fin 64, x (ix2 p f) * y (ix2 q f)) :
    Ideal.exp (Ideal.ofBits .f32 0x00000000#32 - (sqx (ix2 p q) + sqy (ix2 p q) - Ideal.ofBits .f32 0x40000000#32 * dots (ix2 p q)))
      = gausBlk vt vf p q := by
  unfold gausBlk
  rw [Ideal.ofBits_zero_f32, zero_sub, h1, h2, h3]
  refine congrArg Ideal.exp (congrArg Neg.neg ?_)
  refine congrArg₂ HSub.hSub (congrArg₂ HAdd.hAdd ?_ ?_) (congrArg (Cert.Spec.two * ·) ?_)
  · exact Finset.sum_congr rfl fun f _ => by rw [hx p f]
  · exact Finset.sum_congr rfl fun f _ => by rw [hy q f]
  · exact Finset.sum_congr rfl fun f _ => by rw [hx p f, hy q f]

/-- THE STATS KERNEL'S GAUSSIAN TILE at `(p, q)`: exp(−(‖vt_p‖² + ‖vf_q‖² − 2⟨vt_p, vf_q⟩)). -/
theorem k0_pay7_apply (vt : Vec Ideal S1x128x64 .f32) (vf : Vec Ideal S1x1024x64 .f32) (p : Fin 128) (q : Fin 1024) :
    k0_pay7 vt vf (ix2 p q) = gausBlk vt vf p q := by
  unfold k0_pay7
  exact gaus_chain_apply vt vf _ _ (fun p f => shapeCast_1ab_ab_apply vt _ p f) (fun q f => shapeCast_1ab_ab_apply vf _ q f)
    _ _ _ p q (rowSq_col_apply _ _ _ _ _ _ p q) (rowSq_row_apply _ _ _ _ _ _ p q)
    (Cert.LibMatmulNT.matmul_nt_apply _ rfl rfl rfl rfl rfl rfl none _ _ p q)

/-- THE NORM KERNEL'S GAUSSIAN TILE at `(p, q)`: the same function of its two row blocks. -/
theorem k1_pay3_apply (vt : Vec Ideal S1x128x64 .f32) (vf : Vec Ideal S1x1024x64 .f32) (p : Fin 128) (q : Fin 1024) :
    k1_pay3 vt vf (ix2 p q) = gausBlk vt vf p q := by
  unfold k1_pay3
  exact gaus_chain_apply vt vf _ _ (fun p f => shapeCast_1ab_ab_apply vt _ p f) (fun q f => shapeCast_1ab_ab_apply vf _ q f)
    _ _ _ p q (rowSq_col_apply _ _ _ _ _ _ p q) (rowSq_row_apply _ _ _ _ _ _ p q)
    (Cert.LibMatmulNT.matmul_nt_apply _ rfl rfl rfl rfl rfl rfl none _ _ p q)

end Cert.KPay

end
-- ==== Proof.LibMid3.lean ====
/-
  General lemmas: the layouts that bring a vector `[b]` and a matrix `[a, c]` to a rank-3 array `[a, b, c]` whose MIDDLE
  axis is the vector's, each read at an index given by coordinates.

  An expression `x[:, None, :] * w[None, :, None]` of `x : [a, c]` and `w : [b]` meets at `[a, b, c]`: the matrix goes
  `[a, c] → [a, 1, c] → [a, b, c]` (a kept middle axis, then a broadcast along it), the vector
  `[b] → [1, b, 1] → [a, b, c]`. Read at `(p, q, k)` these are the matrix at `(p, k)` and the vector at `q`. With them the
  two casts that undo a kept axis: `[a, 1, c] → [a, c]` and `[b, 1] → [b]`.
-/
import Idealize.ShloMosaic.Lib.ValueIdx
import Idealize.ShloMosaic.Lib.ValueLayout
import Idealize.ShloMosaic.Lib.Pipeline.Value

noncomputable section

namespace Cert.LibMid3

open Idealize.ShloMosaic Idealize.ShloMosaic.ValueIdx

variable {α : Type}

/-- A `[b]` vector cast to `[1, b, 1]` reads, at `(u, q, u')`, the vector at `q`. -/
theorem shapeCast_b_1b1_apply {b : ℕ} (x : (⟨1, ![b]⟩ : Shape).Idx → α) (h : (⟨1, ![b]⟩ : Shape).ShapeCasts ⟨3, ![1, b, 1]⟩)
    (u : Fin 1) (q : Fin b) (u' : Fin 1) : shapeCast ⟨3, ![1, b, 1]⟩ x h (ix3 u q u') = x (ix1 q) :=
  shapeCast_apply x h _ _ (by
    have hu : u.val = 0 := by omega
    have hu' : u'.val = 0 := by omega
    rw [Shape.rowMajor_val_three, Shape.rowMajor_val_one]
    show q.val = (u.val * b + q.val) * 1 + u'.val
    rw [hu, hu', Nat.zero_mul, Nat.zero_add, Nat.mul_one, Nat.add_zero])

/-- A `[1, b, 1]` array broadcast to `[a, b, c]` reads, at `(p, q, k)`, its one line at `q`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (k : Fin c) :
    broadcastTo ⟨3, ![a, b, c]⟩ v h (ix3 p q k) = v (ix3 (0 : Fin 1) q (0 : Fin 1)) := by
  refine broadcastTo_apply v h (ix3 p q k) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- An `[a, c]` matrix cast to `[a, 1, c]` (a kept middle axis) reads, at `(p, u, k)`, the matrix at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- An `[a, 1, c]` array cast to `[a, c]` (the unit middle axis dropped) reads, at `(p, k)`, the array at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- An `[a, 1, c]` array broadcast to `[a, b, c]` reads, at `(p, q, k)`, the array at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[b, 1]` column cast to a `[b]` vector reads, at `q`, the column at `(q, 0)`. -/
theorem shapeCast_b1_b_apply {b : ℕ} (x : (⟨2, ![b, 1]⟩ : Shape).Idx → α) (h : (⟨2, ![b, 1]⟩ : Shape).ShapeCasts ⟨1, ![b]⟩)
    (q : Fin b) : shapeCast ⟨1, ![b]⟩ x h (ix1 q) = x (ix2 q (0 : Fin 1)) :=
  shapeCast_apply x h _ _ (by
    rw [Shape.rowMajor_val_two, Shape.rowMajor_val_one]
    show q.val * 1 + 0 = q.val
    rw [Nat.mul_one, Nat.add_zero])

/-- The vector's whole road: `[b] → [1, b, 1] → [a, b, c]` reads, at `(p, q, k)`, the vector at `q`. -/
theorem broadcastTo_shapeCast_b_abc_apply {a b c : ℕ} (x : (⟨1, ![b]⟩ : Shape).Idx → α)
    (h₁ : (⟨1, ![b]⟩ : Shape).ShapeCasts ⟨3, ![1, b, 1]⟩) (h₂ : (⟨3, ![1, b, 1]⟩ : Shape).Broadcasts ⟨3, ![a, b, c]⟩)
    (p : Fin a) (q : Fin b) (k : Fin c) :
    broadcastTo ⟨3, ![a, b, c]⟩ (shapeCast ⟨3, ![1, b, 1]⟩ x h₁) h₂ (ix3 p q k) = x (ix1 q) :=
  (broadcastTo_1b1_abc_apply _ h₂ p q k).trans (shapeCast_b_1b1_apply x h₁ 0 q 0)

/-- The matrix's whole road: `[a, c] → [a, 1, c] → [a, b, c]` reads, at `(p, q, k)`, the matrix at `(p, k)`. -/
theorem broadcastTo_shapeCast_ac_abc_apply {a b c : ℕ} (x : (⟨2, ![a, c]⟩ : Shape).Idx → α)
    (h₁ : (⟨2, ![a, c]⟩ : Shape).ShapeCasts ⟨3, ![a, 1, c]⟩) (h₂ : (⟨3, ![a, 1, c]⟩ : Shape).Broadcasts ⟨3, ![a, b, c]⟩)
    (p : Fin a) (q : Fin b) (k : Fin c) :
    broadcastTo ⟨3, ![a, b, c]⟩ (shapeCast ⟨3, ![a, 1, c]⟩ x h₁) h₂ (ix3 p q k) = x (ix2 p k) :=
  (broadcastTo_a1c_abc_apply _ h₂ p q k).trans (shapeCast_ac_a1c_apply x h₁ p 0 k)

end Cert.LibMid3

end
-- ==== Proof.KPay2.lean ====
/-
  The channel mix and its activation, read at an index at the exact values: the stats kernel's tile.

  A tile's activation at `(p, o, q)` is max(mix, 0) with
    mix = bias(o) + Σ_{l<8} a(p, l, q)·w(o, l) + gaus(p, q)·w(o, 8).
  The kernel cuts the block `a : [128, 8, 1024]` into its eight channel slabs `[128, 1024]`, and builds the nine products
  as broadcasts: a slab goes `[128, 1024] → [128, 1, 1024] → [128, 8, 1024]`, a column of the weights
  `[8, 9] → [8, 1] → [8] → [1, 8, 1] → [128, 8, 1024]`; the sum starts at the bias and adds the products left to right. Read at
  one index that is the same sum up to the association of additions.
-/
import proofs.«100599_j24919400252237_2_alg».proof.Proof.KPay1
import proofs.«100599_j24919400252237_2_alg».proof.Proof.LibMid3

noncomputable section

open scoped BigOperators

namespace Cert.KPay

open Cert.KernelIdeal Cert.KernelIdeal.Gen Idealize.ShloMosaic Idealize.ShloMosaic.ValueIdx

/-! ## The pieces of a product -/

/-- A channel slab of the block with its unit axis dropped: at `(p, q)` the block at `(p, l, q)`, `l` the slab's channel. -/
theorem slab_apply (A3 : FVec Ideal S128x8x1024 .f32) (c : ℕ) (hs : S128x8x1024.Slices ![0, c, 0] S128x1x1024)
    (h1 : S128x1x1024.ShapeCasts S128x1024) (l : Fin 8) (hl : l.val = c) (p : Fin 128) (q : Fin 1024) :
    shapeCast S128x1024 (extractStridedSlice S128x1x1024 ![0, c, 0] A3 hs) h1 (ix2 p q) = A3 (ix3 p l q) :=
  (Cert.LibMid3.shapeCast_a1c_ac_apply _ h1 p q).trans
    (slice3_axis1_apply c A3 hs p (0 : Fin 1) q l (by rw [hl]; rfl))

/-- A matrix `[128, 1024]` spread over the eight output channels: at `(p, o, q)` the matrix at `(p, q)`. -/
theorem plane_apply (x : FVec Ideal S128x1024 .f32) (h1 : S128x1024.ShapeCasts S128x1x1024)
    (h2 : S128x1x1024.Broadcasts S128x8x1024) (p : Fin 128) (o : Fin 8) (q : Fin 1024) :
    broadcastTo S128x8x1024 (shapeCast S128x1x1024 x h1) h2 (ix3 p o q) = x (ix2 p q) :=
  Cert.LibMid3.broadcastTo_shapeCast_ac_abc_apply x h1 h2 p o q

/-- A per-channel vector `[8]` spread over the tile: at `(p, o, q)` the vector at `o`. -/
theorem chan_apply (x : FVec Ideal S8 .f32) (h1 : S8.ShapeCasts S1x8x1) (h2 : S1x8x1.Broadcasts S128x8x1024)
    (p : Fin 128) (o : Fin 8) (q : Fin 1024) :
    broadcastTo S128x8x1024 (shapeCast S1x8x1 x h1) h2 (ix3 p o q) = x (ix1 o) :=
  Cert.LibMid3.broadcastTo_shapeCast_b_abc_apply x h1 h2 p o q

/-- A column of the weights as a vector over the output channels: at `o` the weight `w(o, k)`, `k` the column. -/
theorem wcol_apply (w : Vec Ideal S8x9 .f32) (c : ℕ) (hs : S8x9.Slices ![0, c] S8x1) (h1 : S8x1.ShapeCasts S8)
    (k : Fin 9) (hk : k.val = c) (o : Fin 8) :
    shapeCast S8 (extractStridedSlice S8x1 ![0, c] w hs) h1 (ix1 o) = w (ix2 o k) :=
  (Cert.LibMid3.shapeCast_b1_b_apply _ h1 o).trans (slice2_axis1_apply c w hs o (0 : Fin 1) k (by rw [hk]; rfl))

/-- One product of the channel mix: a matrix spread over the channels times a column of the weights spread over the tile. -/
theorem term_apply (x : FVec Ideal S128x1024 .f32) (w : Vec Ideal S8x9 .f32) (c : ℕ) (hs : S8x9.Slices ![0, c] S8x1)
    (h1 : S8x1.ShapeCasts S8) (h2 : S128x1024.ShapeCasts S128x1x1024) (h3 : S8.ShapeCasts S1x8x1)
    (h4 : S128x1x1024.Broadcasts S128x8x1024) (h5 : S1x8x1.Broadcasts S128x8x1024)
    (k : Fin 9) (hk : k.val = c) (p : Fin 128) (o : Fin 8) (q : Fin 1024) :
    mulf (broadcastTo S128x8x1024 (shapeCast S128x1x1024 x h2) h4)
        (broadcastTo S128x8x1024 (shapeCast S1x8x1 (shapeCast S8 (extractStridedSlice S8x1 ![0, c] w hs) h1) h3) h5) (ix3 p o q)
      = x (ix2 p q) * w (ix2 o k) :=
  congrArg₂ HMul.hMul (plane_apply x h2 h4 p o q) ((chan_apply _ h3 h5 p o q).trans (wcol_apply w c hs h1 k hk o))

/-! ## The stats kernel's payloads -/

/-- The block with its leading unit axis dropped. -/
theorem k0_pay6_apply (a : Vec Ideal S1x128x8x1024 .f32) (p : Fin 128) (l : Fin 8) (q : Fin 1024) :
    k0_pay6 a (ix3 p l q) = a (ix4 (0 : Fin 1) p l q) := by
  unfold k0_pay6
  exact shapeCast_1abc_abc_apply a _ p l q

/-- Channel slab 0 of the block. -/
theorem k0_pay8_apply (a : Vec Ideal S1x128x8x1024 .f32) (p : Fin 128) (q : Fin 1024) :
    k0_pay8 a (ix2 p q) = a (ix4 (0 : Fin 1) p (0 : Fin 8) q) := by
  unfold k0_pay8
  exact (slab_apply _ 0 _ _ (0 : Fin 8) rfl p q).trans (k0_pay6_apply a p 0 q)

/-- Channel slab 1 of the block. -/
theorem k0_pay9_apply (a : Vec Ideal S1x128x8x1024 .f32) (p : Fin 128) (q : Fin 1024) :
    k0_pay9 a (ix2 p q) = a (ix4 (0 : Fin 1) p (1 : Fin 8) q) := by
  unfold k0_pay9
  exact (slab_apply _ 1 _ _ (1 : Fin 8) rfl p q).trans (k0_pay6_apply a p 1 q)

/-- Channel slab 2 of the block. -/
theorem k0_pay10_apply (a : Vec Ideal S1x128x8x1024 .f32) (p : Fin 128) (q : Fin 1024) :
    k0_pay10 a (ix2 p q) = a (ix4 (0 : Fin 1) p (2 : Fin 8) q) := by
  unfold k0_pay10
  exact (slab_apply _ 2 _ _ (2 : Fin 8) rfl p q).trans (k0_pay6_apply a p 2 q)

/-- Channel slab 3 of the block. -/
theorem k0_pay11_apply (a : Vec Ideal S1x128x8x1024 .f32) (p : Fin 128) (q : Fin 1024) :
    k0_pay11 a (ix2 p q) = a (ix4 (0 : Fin 1) p (3 : Fin 8) q) := by
  unfold k0_pay11
  exact (slab_apply _ 3 _ _ (3 : Fin 8) rfl p q).trans (k0_pay6_apply a p 3 q)

/-- Channel slab 4 of the block. -/
theorem k0_pay12_apply (a : Vec Ideal S1x128x8x1024 .f32) (p : Fin 128) (q : Fin 1024) :
    k0_pay12 a (ix2 p q) = a (ix4 (0 : Fin 1) p (4 : Fin 8) q) := by
  unfold k0_pay12
  exact (slab_apply _ 4 _ _ (4 : Fin 8) rfl p q).trans (k0_pay6_apply a p 4 q)

/-- Channel slab 7 of a block `[128, 8, 1024]`. -/
theorem k0_pay13_apply (A3 : FVec Ideal S128x8x1024 .f32) (p : Fin 128) (q : Fin 1024) :
    k0_pay13 A3 (ix2 p q) = A3 (ix3 p (7 : Fin 8) q) := by
  unfold k0_pay13
  exact slab_apply A3 7 _ _ (7 : Fin 8) rfl p q

/-- Column 6 of the weights. -/
theorem k0_pay15_apply (w : Vec Ideal S8x9 .f32) (o : Fin 8) :
    k0_pay15 w (ix1 o) = w (ix2 o (6 : Fin 8).castSucc) := by
  unfold k0_pay15
  exact wcol_apply w 6 _ _ (6 : Fin 8).castSucc rfl o

/-- Channel slab 6 of a block `[128, 8, 1024]`, with its unit axis put back. -/
theorem k0_pay16_apply (A3 : FVec Ideal S128x8x1024 .f32) (p : Fin 128) (u : Fin 1) (q : Fin 1024) :
    k0_pay16 A3 (ix3 p u q) = A3 (ix3 p (6 : Fin 8) q) := by
  unfold k0_pay16
  exact (Cert.LibMid3.shapeCast_ac_a1c_apply _ _ p u q).trans (slab_apply A3 6 _ _ (6 : Fin 8) rfl p q)

/-- The partial channel mix: the bias plus the products of channels 0 to 5, added left to right. -/
theorem k0_pay14_apply (A3 : FVec Ideal S128x8x1024 .f32) (w : Vec Ideal S8x9 .f32) (bv : Vec Ideal S8 .f32)
    (v28 v30 v32 v34 v36 : FVec Ideal S128x1024 .f32) (p : Fin 128) (o : Fin 8) (q : Fin 1024) :
    k0_pay14 A3 w bv v28 v30 v32 v34 v36 (ix3 p o q)
      = bv (ix1 o) + v28 (ix2 p q) * w (ix2 o (0 : Fin 8).castSucc) + v30 (ix2 p q) * w (ix2 o (1 : Fin 8).castSucc)
        + v32 (ix2 p q) * w (ix2 o (2 : Fin 8).castSucc) + v34 (ix2 p q) * w (ix2 o (3 : Fin 8).castSucc)
        + v36 (ix2 p q) * w (ix2 o (4 : Fin 8).castSucc) + A3 (ix3 p (5 : Fin 8) q) * w (ix2 o (5 : Fin 8).castSucc) := by
  unfold k0_pay14
  refine congrArg₂ HAdd.hAdd (congrArg₂ HAdd.hAdd (congrArg₂ HAdd.hAdd (congrArg₂ HAdd.hAdd (congrArg₂ HAdd.hAdd
    (congrArg₂ HAdd.hAdd ?_ ?_) ?_) ?_) ?_) ?_) ?_
  · exact (Cert.LibMid3.broadcastTo_1b1_abc_apply _ _ p o q).trans
      ((congrFun (shapeCast_self _ _) _).trans (Cert.LibMid3.shapeCast_b_1b1_apply bv _ 0 o 0))
  · exact term_apply v28 w 0 _ _ _ _ _ _ (0 : Fin 8).castSucc rfl p o q
  · exact term_apply v30 w 1 _ _ _ _ _ _ (1 : Fin 8).castSucc rfl p o q
  · exact term_apply v32 w 2 _ _ _ _ _ _ (2 : Fin 8).castSucc rfl p o q
  · exact term_apply v34 w 3 _ _ _ _ _ _ (3 : Fin 8).castSucc rfl p o q
  · exact term_apply v36 w 4 _ _ _ _ _ _ (4 : Fin 8).castSucc rfl p o q
  · exact (term_apply _ w 5 _ _ _ _ _ _ (5 : Fin 8).castSucc rfl p o q).trans
      (congrArg (· * w (ix2 o (5 : Fin 8).castSucc)) (slab_apply A3 5 _ _ (5 : Fin 8) rfl p q))

/-- The tile's activation over its inputs: the partial mix plus the products of channels 6 and 7 and of the Gaussian
    channel, clamped below at zero. -/
theorem k0_pay1_apply (v24 : FVec Ideal S128x1024 .f32) (w : Vec Ideal S8x9 .f32) (v42 : FVec Ideal S128x1024 .f32)
    (v93 : FVec Ideal S128x8x1024 .f32) (v95 : FVec Ideal S8 .f32) (v96 : FVec Ideal S128x1x1024 .f32)
    (p : Fin 128) (o : Fin 8) (q : Fin 1024) :
    k0_pay1 v24 w v42 v93 v95 v96 (ix3 p o q)
      = max (v93 (ix3 p o q) + v96 (ix3 p (0 : Fin 1) q) * v95 (ix1 o) + v42 (ix2 p q) * w (ix2 o (7 : Fin 8).castSucc)
          + v24 (ix2 p q) * w (ix2 o (Fin.last 8))) 0 := by
  unfold k0_pay1
  refine congrArg₂ max (congrArg₂ HAdd.hAdd (congrArg₂ HAdd.hAdd (congrArg₂ HAdd.hAdd rfl ?_) ?_) ?_) Ideal.ofBits_zero_f32
  · exact congrArg₂ HMul.hMul (Cert.LibMid3.broadcastTo_a1c_abc_apply v96 _ p o q) (chan_apply v95 _ _ p o q)
  · exact term_apply v42 w 7 _ _ _ _ _ _ (7 : Fin 8).castSucc rfl p o q
  · exact term_apply v24 w 8 _ _ _ _ _ _ (Fin.last 8) rfl p o q

/-! ## The stats kernel's tile -/

/-- The channel mix with its eight adjacency products written out and added left to right from the bias is the
    formula's: additions reassociate. -/
theorem mix_assoc (b t0 t1 t2 t3 t4 t5 t6 t7 g : EReal) :
    b + t0 + t1 + t2 + t3 + t4 + t5 + t6 + t7 + g = b + (t0 + t1 + t2 + t3 + t4 + t5 + t6 + t7) + g := by
  simp only [add_assoc]

/-- THE STATS KERNEL'S ACTIVATION TILE at `(p, o, q)`: max(bias(o) + Σ_l a(p,l,q)·w(o,l) + gaus(p,q)·w(o,8), 0). -/
theorem relu0_apply (a : Vec Ideal S1x128x8x1024 .f32) (vt : Vec Ideal S1x128x64 .f32) (vf : Vec Ideal S1x1024x64 .f32)
    (w : Vec Ideal S8x9 .f32) (bv : Vec Ideal S8 .f32) (p : Fin 128) (o : Fin 8) (q : Fin 1024) :
    k0_pay1 (k0_pay7 vt vf) w (k0_pay13 (k0_pay6 a))
        (k0_pay14 (k0_pay6 a) w bv (k0_pay8 a) (k0_pay9 a) (k0_pay10 a) (k0_pay11 a) (k0_pay12 a)) (k0_pay15 w)
        (k0_pay16 (k0_pay6 a)) (ix3 p o q)
      = actBlk a vt vf w bv p o q := by
  rw [k0_pay1_apply, k0_pay14_apply, k0_pay16_apply, k0_pay15_apply, k0_pay13_apply, k0_pay7_apply, k0_pay8_apply,
    k0_pay9_apply, k0_pay10_apply, k0_pay11_apply, k0_pay12_apply, k0_pay6_apply, k0_pay6_apply, k0_pay6_apply]
  unfold actBlk mixBlk
  rw [Fin.sum_univ_eight]
  exact congrArg (max · 0) (mix_assoc _ _ _ _ _ _ _ _ _ _)

end Cert.KPay

end
-- ==== Proof.LibSum02.lean ====
/-
  General lemma: a rank-3 array `[a, b, c]` summed over its FIRST and LAST axes, at the exact values, read at an index.

  `jnp.sum(x, axis=(0, 2))` of `x : [a, b, c]` is one reduction `[a, b, c] → [b]` over the axes `[0, 2]`. At the extended
  reals a reduction by addition is, at each kept index, the sum of the source over the indices that drop to it; the
  indices of `[a, b, c]` that drop to `q` are the `(p, q, k)`, in bijection with the pairs `(p, k)`, so the reduction read at
  `q` is the double sum `Σ_p Σ_k x(p, q, k)`.
-/
import Idealize.ShloMosaic.Lib.ValueIdx
import Idealize.ShloMosaic.PureOps.Ideal.Laws

noncomputable section

open scoped BigOperators

namespace Cert.LibSum02

open Idealize.ShloMosaic Idealize.ShloMosaic.ValueIdx

/-- The one kept axis of a rank-3 array reduced over its first and last axes is the middle one: an index drops to its
    middle coordinate. -/
theorem kept_02 {a b c : ℕ} : (⟨3, ![a, b, c]⟩ : Shape).kept [0, 2] = [1] := rfl

theorem drop_02_val {a b c : ℕ} (h : (⟨3, ![a, b, c]⟩ : Shape).Reduces [0, 2] ⟨1, ![b]⟩)
    (i : (⟨3, ![a, b, c]⟩ : Shape).Idx) : (h.drop i 0 : ℕ) = (i 1 : ℕ) :=
  h.drop_apply_val_of_eq i 0 1 (by rw [kept_02]; exact Nat.one_pos) ((List.getElem_of_eq kept_02 _).trans rfl)

/-- A sum of an `[a, b, c]` array over its first and last axes, at the exact values and read at `q`: the double sum over
    `(·, q, ·)`. The accumulator's word is the neutral one, so it contributes nothing. -/
theorem multiReduction_add_02_apply {a b c : ℕ} {φ : FTy} (src : FVec Ideal ⟨3, ![a, b, c]⟩ φ) (acc : BitVec φ.bits)
    (h : (⟨3, ![a, b, c]⟩ : Shape).Reduces [0, 2] ⟨1, ![b]⟩) (hφ : FKind.Formats φ) (hacc : acc = FKind.add.neutral φ hφ)
    (q : Fin b) :
    multiReduction .add [0, 2] ⟨1, ![b]⟩ src acc h hφ hacc (ix1 q) = ∑ p : Fin a, ∑ k : Fin c, src (ix3 p q k) := by
  show ∑ i ∈ Finset.univ.filter (fun i => h.drop i = ix1 q), src i = _
  rw [← Fintype.sum_prod_type' (f := fun (p : Fin a) (k : Fin c) => src (ix3 p q k))]
  have hmid : ∀ i : (⟨3, ![a, b, c]⟩ : Shape).Idx, h.drop i = ix1 q → i = ix3 (i 0) q (i 2) := fun i hi => by
    have h1 : (i 1 : ℕ) = q.val := by
      rw [← drop_02_val h i, hi]
      rfl
    funext ax
    match ax with
    | ⟨0, _⟩ => rfl
    | ⟨1, _⟩ => exact Fin.ext h1
    | ⟨2, _⟩ => rfl
  refine Finset.sum_nbij' (fun i => ((i 0 : Fin a), (i 2 : Fin c))) (fun x => ix3 x.1 q x.2) ?_ ?_ ?_ ?_ ?_
  · intro i _; exact Finset.mem_univ _
  · intro x _
    refine Finset.mem_filter.2 ⟨Finset.mem_univ _, funext fun ax => Fin.ext ?_⟩
    match ax with
    | ⟨0, _⟩ => exact drop_02_val h (ix3 x.1 q x.2)
  · intro i hi; exact (hmid i (Finset.mem_filter.1 hi).2).symm
  · intro x _; rfl
  · intro i hi; exact congrArg src (hmid i (Finset.mem_filter.1 hi).2)

end Cert.LibSum02

end
-- ==== Proof.KPay4.lean ====
/-
  The stats kernel's running sums, read at an index at the exact values.

  Per output channel `o` the stats kernel adds to its running sum the sum of the tile's activations over the tile's rows
  and columns, and to its running sum of squares the sum of their squares:
    new_sum(o)   = old_sum(o)   + Σ_p Σ_q act(p, o, q),
    new_sumsq(o) = old_sumsq(o) + Σ_p Σ_q act(p, o, q)².
  The tile sum is one reduction of the `[128, 8, 1024]` tile over its first and last axes; the buffers are `[1, 1, 8]`
  blocks, read and written through `[1, 8]`. At the first tile of a batch the buffers are set to zero.
-/
import proofs.«100599_j24919400252237_2_alg».proof.Proof.KPay2
import proofs.«100599_j24919400252237_2_alg».proof.Proof.LibSum02

noncomputable section

open scoped BigOperators

namespace Cert.KPay

open Cert.KernelIdeal Cert.KernelIdeal.Gen Idealize.ShloMosaic Idealize.ShloMosaic.ValueIdx

/-- A running-sum update over its inputs: the buffer as loaded plus the tile `t` summed over its first and last axes,
    through the buffer's `[1, 8]` and `[1, 1, 8]` layouts. -/
theorem accum_apply (t : FVec Ideal S128x8x1024 .f32) (old : Vec Ideal S1x1x8 .f32)
    (h1 : S1x1x8.ShapeCasts S1x8) (hr : S128x8x1024.Reduces [0, 2] S8) (hφ : FKind.Formats .f32)
    (hacc : (0x00000000#32 : BitVec 32) = FKind.add.neutral .f32 hφ) (h2 : S8.ShapeCasts S1x8) (h3 : S1x8.ShapeCasts S1x1x8)
    (u u' : Fin 1) (o : Fin 8) :
    shapeCast S1x1x8 (addf (shapeCast S1x8 old h1)
        (shapeCast S1x8 (multiReduction .add [0, 2] S8 t 0x00000000#32 hr hφ hacc) h2)) h3 (ix3 u u' o)
      = old (ix3 (0 : Fin 1) (0 : Fin 1) o) + ∑ p : Fin 128, ∑ q : Fin 1024, t (ix3 p o q) := by
  obtain rfl : u' = 0 := Subsingleton.elim _ _
  exact (shapeCast_ab_1ab_apply _ h3 u (0 : Fin 1) o).trans
    (congrArg₂ HAdd.hAdd (shapeCast_1ab_ab_apply old h1 (0 : Fin 1) o)
      ((shapeCast_a_1a_apply _ h2 (0 : Fin 1) o).trans (Cert.LibSum02.multiReduction_add_02_apply t _ hr hφ hacc o)))

/-- The new running sum over the activation tile's inputs. -/
theorem k0_pay2_apply (v24 : FVec Ideal S128x1024 .f32) (w : Vec Ideal S8x9 .f32) (v42 : FVec Ideal S128x1024 .f32)
    (v93 : FVec Ideal S128x8x1024 .f32) (v95 : FVec Ideal S8 .f32) (v96 : FVec Ideal S128x1x1024 .f32)
    (old : Vec Ideal S1x1x8 .f32) (u u' : Fin 1) (o : Fin 8) :
    k0_pay2 v24 w v42 v93 v95 v96 old (ix3 u u' o)
      = old (ix3 (0 : Fin 1) (0 : Fin 1) o) + ∑ p : Fin 128, ∑ q : Fin 1024, k0_pay1 v24 w v42 v93 v95 v96 (ix3 p o q) := by
  unfold k0_pay2
  exact accum_apply _ old _ _ _ _ _ _ u u' o

/-- The new running sum of squares over the activation tile's inputs. -/
theorem k0_pay3_apply (v24 : FVec Ideal S128x1024 .f32) (w : Vec Ideal S8x9 .f32) (v42 : FVec Ideal S128x1024 .f32)
    (v93 : FVec Ideal S128x8x1024 .f32) (v95 : FVec Ideal S8 .f32) (v96 : FVec Ideal S128x1x1024 .f32)
    (old : Vec Ideal S1x1x8 .f32) (u u' : Fin 1) (o : Fin 8) :
    k0_pay3 v24 w v42 v93 v95 v96 old (ix3 u u' o)
      = old (ix3 (0 : Fin 1) (0 : Fin 1) o)
        + ∑ p : Fin 128, ∑ q : Fin 1024, k0_pay1 v24 w v42 v93 v95 v96 (ix3 p o q) * k0_pay1 v24 w v42 v93 v95 v96 (ix3 p o q) := by
  unfold k0_pay3
  exact accum_apply _ old _ _ _ _ _ _ u u' o

/-- THE STATS KERNEL'S NEW RUNNING SUM at channel `o`: the old one plus Σ_p Σ_q act(p, o, q). -/
theorem sum0_apply (a : Vec Ideal S1x128x8x1024 .f32) (vt : Vec Ideal S1x128x64 .f32) (vf : Vec Ideal S1x1024x64 .f32)
    (w : Vec Ideal S8x9 .f32) (bv : Vec Ideal S8 .f32) (old : Vec Ideal S1x1x8 .f32) (o : Fin 8) :
    k0_pay2 (k0_pay7 vt vf) w (k0_pay13 (k0_pay6 a))
        (k0_pay14 (k0_pay6 a) w bv (k0_pay8 a) (k0_pay9 a) (k0_pay10 a) (k0_pay11 a) (k0_pay12 a)) (k0_pay15 w)
        (k0_pay16 (k0_pay6 a)) old (ix3 (0 : Fin 1) (0 : Fin 1) o)
      = old (ix3 (0 : Fin 1) (0 : Fin 1) o) + ∑ p : Fin 128, ∑ q : Fin 1024, actBlk a vt vf w bv p o q :=
  (k0_pay2_apply _ _ _ _ _ _ old 0 0 o).trans
    (congrArg (old (ix3 (0 : Fin 1) (0 : Fin 1) o) + ·)
      (Finset.sum_congr rfl fun p _ => Finset.sum_congr rfl fun q _ => relu0_apply a vt vf w bv p o q))

/-- THE STATS KERNEL'S NEW RUNNING SUM OF SQUARES at channel `o`: the old one plus Σ_p Σ_q act(p, o, q)². -/
theorem sumsq0_apply (a : Vec Ideal S1x128x8x1024 .f32) (vt : Vec Ideal S1x128x64 .f32) (vf : Vec Ideal S1x1024x64 .f32)
    (w : Vec Ideal S8x9 .f32) (bv : Vec Ideal S8 .f32) (old : Vec Ideal S1x1x8 .f32) (o : Fin 8) :
    k0_pay3 (k0_pay7 vt vf) w (k0_pay13 (k0_pay6 a))
        (k0_pay14 (k0_pay6 a) w bv (k0_pay8 a) (k0_pay9 a) (k0_pay10 a) (k0_pay11 a) (k0_pay12 a)) (k0_pay15 w)
        (k0_pay16 (k0_pay6 a)) old (ix3 (0 : Fin 1) (0 : Fin 1) o)
      = old (ix3 (0 : Fin 1) (0 : Fin 1) o)
        + ∑ p : Fin 128, ∑ q : Fin 1024, actBlk a vt vf w bv p o q * actBlk a vt vf w bv p o q :=
  (k0_pay3_apply _ _ _ _ _ _ old 0 0 o).trans
    (congrArg (old (ix3 (0 : Fin 1) (0 : Fin 1) o) + ·)
      (Finset.sum_congr rfl fun p _ => Finset.sum_congr rfl fun q _ => by rw [relu0_apply a vt vf w bv p o q]))

/-- The zero block stored into the running sum at a batch's first tile. -/
theorem k0_pay4_apply (u u' : Fin 1) (o : Fin 8) : k0_pay4 (F := Ideal) (ix3 u u' o) = 0 := by
  unfold k0_pay4
  exact (shapeCast_ab_1ab_apply _ _ u u' o).trans Ideal.ofBits_zero_f32

/-- The zero block stored into the running sum of squares at a batch's first tile. -/
theorem k0_pay5_apply (u u' : Fin 1) (o : Fin 8) : k0_pay5 (F := Ideal) (ix3 u u' o) = 0 := by
  unfold k0_pay5
  exact (shapeCast_ab_1ab_apply _ _ u u' o).trans Ideal.ofBits_zero_f32

end Cert.KPay

end
-- ==== Proof.KBridge.lean ====
/-
  From a grid point's blocks to the whole arrays: the block-level formulas are the specification's.

  At batch `b` and tile `j` the tile's row `p` is row `128·j + p` of the batch. If the loaded blocks are the arrays read
  there (the block of `A` and the tile of `V` at the tile's rows, the whole batch of `V`, and `W`, `bias` whole), then the
  block's Gaussian kernel and activation are the specification's at `(b, 128·j + p, ·, q)`: the same sums, term by term.
-/
import proofs.«100599_j24919400252237_2_alg».proof.Proof.KPay1
import proofs.«100599_j24919400252237_2_alg».proof.Proof.Spec

noncomputable section

open scoped BigOperators

namespace Cert.KPay

open Cert.KernelIdeal Cert.KernelIdeal.Gen Idealize.ShloMosaic Idealize.ShloMosaic.ValueIdx

/-- Row `p` of tile `j`: row `128·j + p` of the batch. -/
def row (j : Fin 8) (p : Fin 128) : Fin 1024 := ⟨128 * j.val + p.val, by omega⟩

/-- The block's Gaussian kernel is the specification's at the tile's row. -/
theorem gausBlk_of_blocks (V : Cert.Spec.SV.Idx → EReal) (vt : Vec Ideal S1x128x64 .f32) (vf : Vec Ideal S1x1024x64 .f32)
    (b : Fin 4) (j : Fin 8)
    (hvt : ∀ (p : Fin 128) (f : Fin 64), vt (ix3 (0 : Fin 1) p f) = V (ix3 b (row j p) f))
    (hvf : ∀ (q : Fin 1024) (f : Fin 64), vf (ix3 (0 : Fin 1) q f) = V (ix3 b q f)) (p : Fin 128) (q : Fin 1024) :
    gausBlk vt vf p q = Cert.Spec.gaus V b (row j p) q := by
  unfold gausBlk Cert.Spec.gaus Cert.Spec.sq Cert.Spec.dots
  refine congrArg Ideal.exp (congrArg Neg.neg (congrArg₂ HSub.hSub (congrArg₂ HAdd.hAdd ?_ ?_)
    (congrArg (Cert.Spec.two * ·) ?_)))
  · exact Finset.sum_congr rfl fun f _ => by rw [hvt p f]
  · exact Finset.sum_congr rfl fun f _ => by rw [hvf q f]
  · exact Finset.sum_congr rfl fun f _ => by rw [hvt p f, hvf q f]

/-- The block's activation is the specification's at the tile's row. -/
theorem actBlk_of_blocks (A : Cert.Spec.SA.Idx → EReal) (V : Cert.Spec.SV.Idx → EReal) (W : Cert.Spec.SW.Idx → EReal)
    (bias : Cert.Spec.SC.Idx → EReal) (a : Vec Ideal S1x128x8x1024 .f32) (vt : Vec Ideal S1x128x64 .f32)
    (vf : Vec Ideal S1x1024x64 .f32) (w : Vec Ideal S8x9 .f32) (bv : Vec Ideal S8 .f32) (b : Fin 4) (j : Fin 8)
    (ha : ∀ (p : Fin 128) (l : Fin 8) (q : Fin 1024), a (ix4 (0 : Fin 1) p l q) = A (ix4 b (row j p) l q))
    (hvt : ∀ (p : Fin 128) (f : Fin 64), vt (ix3 (0 : Fin 1) p f) = V (ix3 b (row j p) f))
    (hvf : ∀ (q : Fin 1024) (f : Fin 64), vf (ix3 (0 : Fin 1) q f) = V (ix3 b q f))
    (hw : ∀ i, w i = W i) (hbv : ∀ i, bv i = bias i) (p : Fin 128) (o : Fin 8) (q : Fin 1024) :
    actBlk a vt vf w bv p o q = Cert.Spec.act A V W bias b (row j p) o q := by
  unfold actBlk mixBlk Cert.Spec.act Cert.Spec.mix
  exact congrArg (max · 0) (congrArg₂ HAdd.hAdd
    (congrArg₂ HAdd.hAdd (hbv _) (Finset.sum_congr rfl fun l _ => congrArg₂ HMul.hMul (ha p l q) (hw _)))
    (congrArg₂ HMul.hMul (gausBlk_of_blocks V vt vf b j hvt hvf p q) (hw _)))

end Cert.KPay

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.KIValue1a.lean ====
/-
  What the normalising kernel's body leaves in the output block at a grid point: one payload of the nine input
  blocks of that point.

  The body's single store covers the whole output block at zero offsets, so the pieces read back are that store's
  payload; every load reads a whole staging buffer at zero offsets, so it reads the buffer's contents, the window's
  block.
-/
import proofs.«100599_j24919400252237_2_alg».proof.Proof.KIDat1
import Idealize.ShloMosaic.Lib.Pipeline.Value
import Idealize.ShloMosaic.Lib.ValueIdx
import Idealize.ShloMosaic.Lib.Tactic
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Cert.KernelIdeal.Value1
open Cert.KernelIdeal Cert.KernelIdeal.Gen Cert.KernelIdeal.Hand

variable {F : FTy → Type} [FloatOps F]
variable (V : (c : Dev nD) → (b : Ref sig .tc) → Buf (Elt F) ((c : Thread nD τ).loc b))

/-- Four zero offsets, however spelt, are the zero function. -/
theorem hz4 : (![0, 0, 0, 0] : Fin 4 → Nat) = fun _ => 0 := funext fun a => by fin_cases a <;> rfl
/-- Three zero offsets are the zero function. -/
theorem hz3 : (![0, 0, 0] : Fin 3 → Nat) = fun _ => 0 := funext fun a => by fin_cases a <;> rfl
/-- Two zero offsets are the zero function. -/
theorem hz2 : (![0, 0] : Fin 2 → Nat) = fun _ => 0 := funext fun a => by fin_cases a <;> rfl
/-- One zero offset is the zero function. -/
theorem hz1 : (![0] : Fin 1 → Nat) = fun _ => 0 := funext fun a => by fin_cases a; rfl

/-- The output block after the body at point `t`: the normalising payload of the Gaussian tile of the two feature
    blocks, the weights, the mean, the variance, the scale, the shift, and the adjacency block's channel slices and
    channel mix. -/
theorem out1_9_eq (c : Dev nD) (t : Fin cfg1.N) :
    out1_9 V c t = k1_pay1 (k1_pay3 (iblk1 V c 1 t) (iblk1 V c 2 t)) (iblk1 V c 3 t) (k1_pay4 (iblk1 V c 5 t))
      (k1_pay5 (iblk1 V c 6 t)) (iblk1 V c 7 t) (iblk1 V c 8 t) (k1_pay9 (k1_pay2 (iblk1 V c 0 t)))
      (k1_pay10 (k1_pay2 (iblk1 V c 0 t)))
      (k1_pay11 (k1_pay2 (iblk1 V c 0 t)) (iblk1 V c 3 t) (iblk1 V c 4 t) (k1_pay6 (iblk1 V c 0 t))
        (k1_pay7 (iblk1 V c 0 t)) (k1_pay8 (iblk1 V c 0 t)))
      (k1_pay12 (k1_pay2 (iblk1 V c 0 t)) (iblk1 V c 3 t)) := by
  unfold out1_9 pieces1
  rw [View.read_writes_eq_canon _ _ _ (cover1_9 V c t)]
  unfold pieces1 kernelRun1
  dsimp only
  sl_unfold_words
  rw [View.canon_unit_zero hz4]
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread,
    View.ld_unit_zero (S := S1x128x8x1024) hz4, View.ld_unit_zero (S := S1x128x64) hz3, View.ld_unit_zero (S := S1x1024x64) hz3,
    View.ld_unit_zero (S := S8x9) hz2, View.ld_unit_zero (S := S8) hz1]

end Cert.KernelIdeal.Value1

end
-- ==== Proof.KPay3.lean ====
/-
  The norm kernel's stored block, read at an index at the exact values.

  The norm kernel recomputes the tile's activation (the same channel mix, its nine products grouped differently among the
  kernel's parts but added in the same order) and normalises it per output channel:
    out(p, o, q) = (act(p, o, q) − mean(o))·rsqrt(var(o) + ε)·gamma(o) + beta(o).
  The four per-channel vectors go `[8] → [1, 8, 1] → [128, 8, 1024]`, and the result takes a leading unit axis.
-/
import proofs.«100599_j24919400252237_2_alg».proof.Proof.KPay2

noncomputable section

open scoped BigOperators

namespace Cert.KPay

open Cert.KernelIdeal Cert.KernelIdeal.Gen Idealize.ShloMosaic Idealize.ShloMosaic.ValueIdx

/-! ## The norm kernel's payloads -/

/-- The block with its leading unit axis dropped. -/
theorem k1_pay2_apply (a : Vec Ideal S1x128x8x1024 .f32) (p : Fin 128) (l : Fin 8) (q : Fin 1024) :
    k1_pay2 a (ix3 p l q) = a (ix4 (0 : Fin 1) p l q) := by
  unfold k1_pay2
  exact shapeCast_1abc_abc_apply a _ p l q

/-- The mean vector as loaded (a cast to its own shape). -/
theorem k1_pay4_eq (m : Vec Ideal S8 .f32) : k1_pay4 m = m := by
  unfold k1_pay4
  exact shapeCast_self m _

/-- The variance vector as loaded (a cast to its own shape). -/
theorem k1_pay5_eq (v : Vec Ideal S8 .f32) : k1_pay5 v = v := by
  unfold k1_pay5
  exact shapeCast_self v _

/-- Channel slab 0 of the block. -/
theorem k1_pay6_apply (a : Vec Ideal S1x128x8x1024 .f32) (p : Fin 128) (q : Fin 1024) :
    k1_pay6 a (ix2 p q) = a (ix4 (0 : Fin 1) p (0 : Fin 8) q) := by
  unfold k1_pay6
  exact (slab_apply _ 0 _ _ (0 : Fin 8) rfl p q).trans (k1_pay2_apply a p 0 q)

/-- Channel slab 1 of the block. -/
theorem k1_pay7_apply (a : Vec Ideal S1x128x8x1024 .f32) (p : Fin 128) (q : Fin 1024) :
    k1_pay7 a (ix2 p q) = a (ix4 (0 : Fin 1) p (1 : Fin 8) q) := by
  unfold k1_pay7
  exact (slab_apply _ 1 _ _ (1 : Fin 8) rfl p q).trans (k1_pay2_apply a p 1 q)

/-- Channel slab 2 of the block. -/
theorem k1_pay8_apply (a : Vec Ideal S1x128x8x1024 .f32) (p : Fin 128) (q : Fin 1024) :
    k1_pay8 a (ix2 p q) = a (ix4 (0 : Fin 1) p (2 : Fin 8) q) := by
  unfold k1_pay8
  exact (slab_apply _ 2 _ _ (2 : Fin 8) rfl p q).trans (k1_pay2_apply a p 2 q)

/-- Channel slab 6 of a block `[128, 8, 1024]`. -/
theorem k1_pay9_apply (A3 : FVec Ideal S128x8x1024 .f32) (p : Fin 128) (q : Fin 1024) :
    k1_pay9 A3 (ix2 p q) = A3 (ix3 p (6 : Fin 8) q) := by
  unfold k1_pay9
  exact slab_apply A3 6 _ _ (6 : Fin 8) rfl p q

/-- Channel slab 7 of a block `[128, 8, 1024]`. -/
theorem k1_pay10_apply (A3 : FVec Ideal S128x8x1024 .f32) (p : Fin 128) (q : Fin 1024) :
    k1_pay10 A3 (ix2 p q) = A3 (ix3 p (7 : Fin 8) q) := by
  unfold k1_pay10
  exact slab_apply A3 7 _ _ (7 : Fin 8) rfl p q

/-- The partial channel mix: the bias plus the products of channels 0 to 4, added left to right. -/
theorem k1_pay11_apply (A3 : FVec Ideal S128x8x1024 .f32) (w : Vec Ideal S8x9 .f32) (bv : Vec Ideal S8 .f32)
    (v31 v33 v35 : FVec Ideal S128x1024 .f32) (p : Fin 128) (o : Fin 8) (q : Fin 1024) :
    k1_pay11 A3 w bv v31 v33 v35 (ix3 p o q)
      = bv (ix1 o) + v31 (ix2 p q) * w (ix2 o (0 : Fin 8).castSucc) + v33 (ix2 p q) * w (ix2 o (1 : Fin 8).castSucc)
        + v35 (ix2 p q) * w (ix2 o (2 : Fin 8).castSucc) + A3 (ix3 p (3 : Fin 8) q) * w (ix2 o (3 : Fin 8).castSucc)
        + A3 (ix3 p (4 : Fin 8) q) * w (ix2 o (4 : Fin 8).castSucc) := by
  unfold k1_pay11
  refine congrArg₂ HAdd.hAdd (congrArg₂ HAdd.hAdd (congrArg₂ HAdd.hAdd (congrArg₂ HAdd.hAdd
    (congrArg₂ HAdd.hAdd ?_ ?_) ?_) ?_) ?_) ?_
  · exact (Cert.LibMid3.broadcastTo_1b1_abc_apply _ _ p o q).trans
      ((congrFun (shapeCast_self _ _) _).trans (Cert.LibMid3.shapeCast_b_1b1_apply bv _ 0 o 0))
  · exact term_apply v31 w 0 _ _ _ _ _ _ (0 : Fin 8).castSucc rfl p o q
  · exact term_apply v33 w 1 _ _ _ _ _ _ (1 : Fin 8).castSucc rfl p o q
  · exact term_apply v35 w 2 _ _ _ _ _ _ (2 : Fin 8).castSucc rfl p o q
  · exact (term_apply _ w 3 _ _ _ _ _ _ (3 : Fin 8).castSucc rfl p o q).trans
      (congrArg (· * w (ix2 o (3 : Fin 8).castSucc)) (slab_apply A3 3 _ _ (3 : Fin 8) rfl p q))
  · exact (term_apply _ w 4 _ _ _ _ _ _ (4 : Fin 8).castSucc rfl p o q).trans
      (congrArg (· * w (ix2 o (4 : Fin 8).castSucc)) (slab_apply A3 4 _ _ (4 : Fin 8) rfl p q))

/-- The product of channel 5. -/
theorem k1_pay12_apply (A3 : FVec Ideal S128x8x1024 .f32) (w : Vec Ideal S8x9 .f32) (p : Fin 128) (o : Fin 8) (q : Fin 1024) :
    k1_pay12 A3 w (ix3 p o q) = A3 (ix3 p (5 : Fin 8) q) * w (ix2 o (5 : Fin 8).castSucc) := by
  unfold k1_pay12
  exact (term_apply _ w 5 _ _ _ _ _ _ (5 : Fin 8).castSucc rfl p o q).trans
    (congrArg (· * w (ix2 o (5 : Fin 8).castSucc)) (slab_apply A3 5 _ _ (5 : Fin 8) rfl p q))

/-- The stored block over its inputs: the partial mix plus the products of channels 5, 6, 7 and of the Gaussian channel,
    clamped below at zero, then centred, scaled by the reciprocal root of the regularised variance and by gamma, and
    shifted by beta. -/
theorem k1_pay1_apply (v21 : FVec Ideal S128x1024 .f32) (w : Vec Ideal S8x9 .f32) (v25 v27 : FVec Ideal S8 .f32)
    (gm bt : Vec Ideal S8 .f32) (v43 v45 : FVec Ideal S128x1024 .f32) (v88 v95 : FVec Ideal S128x8x1024 .f32)
    (u : Fin 1) (p : Fin 128) (o : Fin 8) (q : Fin 1024) :
    k1_pay1 v21 w v25 v27 gm bt v43 v45 v88 v95 (ix4 u p o q)
      = (max (v88 (ix3 p o q) + v95 (ix3 p o q) + v43 (ix2 p q) * w (ix2 o (6 : Fin 8).castSucc)
            + v45 (ix2 p q) * w (ix2 o (7 : Fin 8).castSucc) + v21 (ix2 p q) * w (ix2 o (Fin.last 8))) 0 - v25 (ix1 o))
          * Ideal.rsqrt (v27 (ix1 o) + Cert.Spec.eps) * gm (ix1 o) + bt (ix1 o) := by
  unfold k1_pay1
  refine (shapeCast_abc_1abc_apply _ _ u p o q).trans ?_
  refine congrArg₂ HAdd.hAdd (congrArg₂ HMul.hMul (congrArg₂ HMul.hMul (congrArg₂ HSub.hSub
    (congrArg₂ max (congrArg₂ HAdd.hAdd (congrArg₂ HAdd.hAdd (congrArg₂ HAdd.hAdd rfl ?_) ?_) ?_) Ideal.ofBits_zero_f32)
    ?_) ?_) ?_) ?_
  · exact term_apply v43 w 6 _ _ _ _ _ _ (6 : Fin 8).castSucc rfl p o q
  · exact term_apply v45 w 7 _ _ _ _ _ _ (7 : Fin 8).castSucc rfl p o q
  · exact term_apply v21 w 8 _ _ _ _ _ _ (Fin.last 8) rfl p o q
  · exact chan_apply v25 _ _ p o q
  · exact chan_apply _ _ _ p o q
  · exact chan_apply gm _ _ p o q
  · exact chan_apply bt _ _ p o q

/-! ## The norm kernel's tile -/

/-- THE NORM KERNEL'S STORED BLOCK at `(0, p, o, q)`: (act(p,o,q) − mean(o))·rsqrt(var(o) + ε)·gamma(o) + beta(o), with
    act the same activation tile as the stats kernel's. -/
theorem norm_out_apply (a : Vec Ideal S1x128x8x1024 .f32) (vt : Vec Ideal S1x128x64 .f32) (vf : Vec Ideal S1x1024x64 .f32)
    (w : Vec Ideal S8x9 .f32) (bv mean var gm bt : Vec Ideal S8 .f32) (u : Fin 1) (p : Fin 128) (o : Fin 8) (q : Fin 1024) :
    k1_pay1 (k1_pay3 vt vf) w (k1_pay4 mean) (k1_pay5 var) gm bt (k1_pay9 (k1_pay2 a)) (k1_pay10 (k1_pay2 a))
        (k1_pay11 (k1_pay2 a) w bv (k1_pay6 a) (k1_pay7 a) (k1_pay8 a)) (k1_pay12 (k1_pay2 a) w) (ix4 u p o q)
      = (actBlk a vt vf w bv p o q - mean (ix1 o)) * Ideal.rsqrt (var (ix1 o) + Cert.Spec.eps) * gm (ix1 o) + bt (ix1 o) := by
  rw [k1_pay1_apply, k1_pay11_apply, k1_pay12_apply, k1_pay9_apply, k1_pay10_apply, k1_pay3_apply, k1_pay6_apply,
    k1_pay7_apply, k1_pay8_apply, k1_pay2_apply, k1_pay2_apply, k1_pay2_apply, k1_pay2_apply, k1_pay2_apply,
    k1_pay4_eq, k1_pay5_eq]
  unfold actBlk mixBlk
  rw [Fin.sum_univ_eight]
  refine congrArg (fun t => (max t 0 - mean (ix1 o)) * Ideal.rsqrt (var (ix1 o) + Cert.Spec.eps) * gm (ix1 o) + bt (ix1 o)) ?_
  exact mix_assoc _ _ _ _ _ _ _ _ _ _

end Cert.KPay

end
-- ==== Proof.KIValue1.lean ====
/-
  The normalising region's result array, from the blocks the pipeline writes back.

  Grid point t = 8·b + j (batch b, tile j of 128 node rows) stages the adjacency block and the tile's feature rows at
  (b, j), all feature rows of batch b, and the small arrays whole; its body leaves in the output block the normalised
  activations of those blocks; and the output block is written back at rows 128·j … 128·j + 127 of batch b. Each input
  block read at an index is its array read at the index under it, so what a point writes back is the block, at that
  point's place, of ONE function of the arrays; the 32 blocks tile the result array, which therefore holds that
  function after the run.
-/
import proofs.«100599_j24919400252237_2_alg».proof.Proof.KIValue1a
import proofs.«100599_j24919400252237_2_alg».proof.Proof.KPay3
import proofs.«100599_j24919400252237_2_alg».proof.Proof.Spec
import Idealize.ShloMosaic.Lib.Pipeline.Value
import Idealize.ShloMosaic.Lib.ValueIdx
import Idealize.ShloMosaic.Lib.Tactic
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Cert.KernelIdeal.Value1
open Cert.KernelIdeal Cert.KernelIdeal.Gen Cert.KernelIdeal.Hand

variable (V : (c : Dev nD) → (b : Ref sig .tc) → Buf (Elt Ideal) ((c : Thread nD τ).loc b))

/-! ## The arrays the region is entered with -/

/-- The adjacency array A : [4,1024,8,1024]. -/
abbrev arrA (c : Dev nD) : S4x1024x8x1024.Idx → EReal := V c main_arg0
/-- The feature array V : [4,1024,64]. -/
abbrev arrV (c : Dev nD) : S4x1024x64.Idx → EReal := V c main_arg1
/-- The weights W : [8,9]. -/
abbrev arrW (c : Dev nD) : S8x9.Idx → EReal := V c main_arg2
/-- The bias : [8]. -/
abbrev arrBias (c : Dev nD) : S8.Idx → EReal := V c main_arg3
/-- The channel means the first kernel left : [8]. -/
abbrev arrMean (c : Dev nD) : S8.Idx → EReal := V c main_v6
/-- The channel variances the first kernel left : [8]. -/
abbrev arrVar (c : Dev nD) : S8.Idx → EReal := V c main_v12
/-- The scale gamma : [8]. -/
abbrev arrGamma (c : Dev nD) : S8.Idx → EReal := V c main_arg4
/-- The shift beta : [8]. -/
abbrev arrBeta (c : Dev nD) : S8.Idx → EReal := V c main_arg5

/-! ## Where each window's block sits in its array -/

/-- The block indices of the ten windows at grid point `t` = 8·(batch) + (tile): the adjacency, the tile's feature rows
    and the result follow (batch, tile); the batch's feature rows follow the batch; the small arrays do not move. -/
theorem idx_facts : ∀ t : Fin cfg1.N,
    win1_0.index t (0 : Fin 4) = t.val / 8 ∧ win1_0.index t (1 : Fin 4) = t.val % 8
    ∧ win1_0.index t (2 : Fin 4) = 0 ∧ win1_0.index t (3 : Fin 4) = 0
    ∧ win1_1.index t (0 : Fin 3) = t.val / 8 ∧ win1_1.index t (1 : Fin 3) = t.val % 8 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 1) = 0 ∧ win1_8.index t (0 : Fin 1) = 0
    ∧ win1_9.index t (0 : Fin 4) = t.val / 8 ∧ win1_9.index t (1 : Fin 4) = t.val % 8
    ∧ win1_9.index t (2 : Fin 4) = 0 ∧ win1_9.index t (3 : Fin 4) = 0 :=
  (by decide +kernel : ∀ t : Fin grid1.N, _)

/-- The adjacency block at point `t` read at `x` is the adjacency array at batch t/8, row 128·(t%8) + x₁, the same
    channel and column. -/
theorem iblk1_0_apply (c : Dev nD) (t : Fin cfg1.N) (x : S1x128x8x1024.Idx) (k : S4x1024x8x1024.Idx)
    (h0 : (k 0).val = t.val / 8 + (x 0).val) (h1 : (k 1).val = t.val % 8 * 128 + (x 1).val)
    (h2 : (k 2).val = (x 2).val) (h3 : (k 3).val = (x 3).val) :
    (iblk1 V c 0 t : Vec Ideal S1x128x8x1024 .f32) x = (V c main_arg0 : S4x1024x8x1024.Idx → EReal) k := by
  obtain ⟨e0, e1, e2, e3, -⟩ := idx_facts t
  unfold iblk1
  rw [View.read_apply]
  show V c main_arg0 _ = V c main_arg0 _
  congr 1
  funext a
  apply Fin.ext
  match a with
  | ⟨0, _⟩ => show win1_0.index t (0 : Fin 4) * 1 + 1 * (x 0).val = (k 0).val; omega
  | ⟨1, _⟩ => show win1_0.index t (1 : Fin 4) * 128 + 1 * (x 1).val = (k 1).val; omega
  | ⟨2, _⟩ => show win1_0.index t (2 : Fin 4) * 8 + 1 * (x 2).val = (k 2).val; omega
  | ⟨3, _⟩ => show win1_0.index t (3 : Fin 4) * 1024 + 1 * (x 3).val = (k 3).val; omega

/-- The tile's feature block at point `t` read at `x` is the feature array at batch t/8, row 128·(t%8) + x₁. -/
theorem iblk1_1_apply (c : Dev nD) (t : Fin cfg1.N) (x : S1x128x64.Idx) (k : S4x1024x64.Idx)
    (h0 : (k 0).val = t.val / 8 + (x 0).val) (h1 : (k 1).val = t.val % 8 * 128 + (x 1).val) (h2 : (k 2).val = (x 2).val) :
    (iblk1 V c 1 t : Vec Ideal S1x128x64 .f32) x = (V c main_arg1 : S4x1024x64.Idx → EReal) k := by
  obtain ⟨-, -, -, -, e0, e1, e2, -⟩ := idx_facts t
  unfold iblk1
  rw [View.read_apply]
  show V c main_arg1 _ = V c main_arg1 _
  congr 1
  funext a
  apply Fin.ext
  match a with
  | ⟨0, _⟩ => show win1_1.index t (0 : Fin 3) * 1 + 1 * (x 0).val = (k 0).val; omega
  | ⟨1, _⟩ => show win1_1.index t (1 : Fin 3) * 128 + 1 * (x 1).val = (k 1).val; omega
  | ⟨2, _⟩ => show win1_1.index t (2 : Fin 3) * 64 + 1 * (x 2).val = (k 2).val; omega

/-- The batch's feature block at point `t` read at `x` is the feature array at batch t/8, the same row. -/
theorem iblk1_2_apply (c : Dev nD) (t : Fin cfg1.N) (x : S1x1024x64.Idx) (k : S4x1024x64.Idx)
    (h0 : (k 0).val = t.val / 8 + (x 0).val) (h1 : (k 1).val = (x 1).val) (h2 : (k 2).val = (x 2).val) :
    (iblk1 V c 2 t : Vec Ideal S1x1024x64 .f32) x = (V c main_arg1 : S4x1024x64.Idx → EReal) k := by
  obtain ⟨-, -, -, -, -, -, -, e0, e1, e2, -⟩ := idx_facts t
  unfold iblk1
  rw [View.read_apply]
  show V c main_arg1 _ = V c main_arg1 _
  congr 1
  funext a
  apply Fin.ext
  match a with
  | ⟨0, _⟩ => show win1_2.index t (0 : Fin 3) * 1 + 1 * (x 0).val = (k 0).val; omega
  | ⟨1, _⟩ => show win1_2.index t (1 : Fin 3) * 1024 + 1 * (x 1).val = (k 1).val; omega
  | ⟨2, _⟩ => show win1_2.index t (2 : Fin 3) * 64 + 1 * (x 2).val = (k 2).val; omega

/-- Window 3's block is its whole array: read at an index it is the array there. -/
theorem iblk1_3_apply (c : Dev nD) (t : Fin cfg1.N) (x : S8x9.Idx) :
    (iblk1 V c 3 t : Vec Ideal S8x9 .f32) x = (V c main_arg2 : S8x9.Idx → EReal) x := by
  obtain ⟨-, -, -, -, -, -, -, -, -, -, e30, e31, e4, e5, e6, e7, e8, -⟩ := idx_facts t
  unfold iblk1
  rw [View.read_apply]
  show V c main_arg2 _ = V c main_arg2 _
  congr 1
  funext a
  apply Fin.ext
  match a with
  | ⟨0, _⟩ => show win1_3.index t (0 : Fin 2) * 8 + 1 * (x 0).val = (x 0).val; omega
  | ⟨1, _⟩ => show win1_3.index t (1 : Fin 2) * 9 + 1 * (x 1).val = (x 1).val; omega

/-- Window 4's block is its whole array: read at an index it is the array there. -/
theorem iblk1_4_apply (c : Dev nD) (t : Fin cfg1.N) (x : S8.Idx) :
    (iblk1 V c 4 t : Vec Ideal S8 .f32) x = (V c main_arg3 : S8.Idx → EReal) x := by
  obtain ⟨-, -, -, -, -, -, -, -, -, -, e30, e31, e4, e5, e6, e7, e8, -⟩ := idx_facts t
  unfold iblk1
  rw [View.read_apply]
  show V c main_arg3 _ = V c main_arg3 _
  congr 1
  funext a
  apply Fin.ext
  match a with
  | ⟨0, _⟩ => show win1_4.index t (0 : Fin 1) * 8 + 1 * (x 0).val = (x 0).val; omega

/-- Window 5's block is its whole array: read at an index it is the array there. -/
theorem iblk1_5_apply (c : Dev nD) (t : Fin cfg1.N) (x : S8.Idx) :
    (iblk1 V c 5 t : Vec Ideal S8 .f32) x = (V c main_v6 : S8.Idx → EReal) x := by
  obtain ⟨-, -, -, -, -, -, -, -, -, -, e30, e31, e4, e5, e6, e7, e8, -⟩ := idx_facts t
  unfold iblk1
  rw [View.read_apply]
  show V c main_v6 _ = V c main_v6 _
  congr 1
  funext a
  apply Fin.ext
  match a with
  | ⟨0, _⟩ => show win1_5.index t (0 : Fin 1) * 8 + 1 * (x 0).val = (x 0).val; omega

/-- Window 6's block is its whole array: read at an index it is the array there. -/
theorem iblk1_6_apply (c : Dev nD) (t : Fin cfg1.N) (x : S8.Idx) :
    (iblk1 V c 6 t : Vec Ideal S8 .f32) x = (V c main_v12 : S8.Idx → EReal) x := by
  obtain ⟨-, -, -, -, -, -, -, -, -, -, e30, e31, e4, e5, e6, e7, e8, -⟩ := idx_facts t
  unfold iblk1
  rw [View.read_apply]
  show V c main_v12 _ = V c main_v12 _
  congr 1
  funext a
  apply Fin.ext
  match a with
  | ⟨0, _⟩ => show win1_6.index t (0 : Fin 1) * 8 + 1 * (x 0).val = (x 0).val; omega

/-- Window 7's block is its whole array: read at an index it is the array there. -/
theorem iblk1_7_apply (c : Dev nD) (t : Fin cfg1.N) (x : S8.Idx) :
    (iblk1 V c 7 t : Vec Ideal S8 .f32) x = (V c main_arg4 : S8.Idx → EReal) x := by
  obtain ⟨-, -, -, -, -, -, -, -, -, -, e30, e31, e4, e5, e6, e7, e8, -⟩ := idx_facts t
  unfold iblk1
  rw [View.read_apply]
  show V c main_arg4 _ = V c main_arg4 _
  congr 1
  funext a
  apply Fin.ext
  match a with
  | ⟨0, _⟩ => show win1_7.index t (0 : Fin 1) * 8 + 1 * (x 0).val = (x 0).val; omega

/-- Window 8's block is its whole array: read at an index it is the array there. -/
theorem iblk1_8_apply (c : Dev nD) (t : Fin cfg1.N) (x : S8.Idx) :
    (iblk1 V c 8 t : Vec Ideal S8 .f32) x = (V c main_arg5 : S8.Idx → EReal) x := by
  obtain ⟨-, -, -, -, -, -, -, -, -, -, e30, e31, e4, e5, e6, e7, e8, -⟩ := idx_facts t
  unfold iblk1
  rw [View.read_apply]
  show V c main_arg5 _ = V c main_arg5 _
  congr 1
  funext a
  apply Fin.ext
  match a with
  | ⟨0, _⟩ => show win1_8.index t (0 : Fin 1) * 8 + 1 * (x 0).val = (x 0).val; omega

/-! ## A tile's activation is the arrays' activation at the tile's place -/

/-- If a tile's blocks are the arrays read at batch `b` and node `n` (the tile's row `p`), the tile's activation at
    (p, o, q) is the arrays' activation at (b, n, o, q): the same sums term by term. -/
theorem actBlk_eq (A : Cert.Spec.SA.Idx → EReal) (Vf : Cert.Spec.SV.Idx → EReal) (W : Cert.Spec.SW.Idx → EReal)
    (bias : Cert.Spec.SC.Idx → EReal)
    (a : Vec Ideal S1x128x8x1024 .f32) (vt : Vec Ideal S1x128x64 .f32) (vf : Vec Ideal S1x1024x64 .f32)
    (w : Vec Ideal S8x9 .f32) (bv : Vec Ideal S8 .f32) (b : Fin 4) (n : Fin 1024) (p : Fin 128) (o : Fin 8) (q : Fin 1024)
    (ha : ∀ l : Fin 8, a (ix4 (0 : Fin 1) p l q) = A (ix4 b n l q))
    (hvt : ∀ f : Fin 64, vt (ix3 (0 : Fin 1) p f) = Vf (ix3 b n f))
    (hvf : ∀ f : Fin 64, vf (ix3 (0 : Fin 1) q f) = Vf (ix3 b q f))
    (hw : ∀ k : Fin 9, w (@ix2 8 9 o k) = W (@ix2 8 9 o k)) (hb : bv (ix1 o) = bias (ix1 o)) :
    Cert.KPay.actBlk a vt vf w bv p o q = Cert.Spec.act A Vf W bias b n o q := by
  unfold Cert.KPay.actBlk Cert.KPay.mixBlk Cert.KPay.gausBlk Cert.Spec.act Cert.Spec.mix Cert.Spec.gaus Cert.Spec.sq
    Cert.Spec.dots
  simp only [ha, hvt, hvf, hw, hb]

/-! ## What a point writes back is a block of one whole-array function -/

/-- The normalised result as a function of the arrays the region is entered with: at (b, n, o, m),
    (act(b,n,o,m) − mean o)·rsqrt(var o + ε)·gamma o + beta o. -/
def resultFn (c : Dev nD) : S4x1024x8x1024.Idx → EReal := fun i =>
  (Cert.Spec.act (arrA V c) (arrV V c) (arrW V c) (arrBias V c) (i 0) (i 1) (i 2) (i 3) - arrMean V c (ix1 (i 2)))
    * Ideal.rsqrt (arrVar V c (ix1 (i 2)) + Cert.Spec.eps) * arrGamma V c (ix1 (i 2)) + arrBeta V c (ix1 (i 2))

/-- The body's output block at point `t`, read at `j`, is the result function at the array index `k` under it:
    batch t/8, row 128·(t%8) + j₁, channel j₂, column j₃. -/
theorem point_value (c : Dev nD) (t : Fin cfg1.N) (j : S1x128x8x1024.Idx) (k : S4x1024x8x1024.Idx)
    (h0 : (k 0).val = t.val / 8 + (j 0).val) (h1 : (k 1).val = t.val % 8 * 128 + (j 1).val)
    (h2 : (k 2).val = (j 2).val) (h3 : (k 3).val = (j 3).val) :
    out1_9 V c t j = resultFn V c k := by
  obtain ⟨u, p, o, q, rfl⟩ : ∃ (u : Fin 1) (p : Fin 128) (o : Fin 8) (q : Fin 1024), j = ix4 u p o q :=
    ⟨j 0, j 1, j 2, j 3, eq_ix4 j⟩
  obtain rfl : u = 0 := Subsingleton.elim _ _
  have hk2 : k 2 = o := Fin.ext h2
  have hk3 : k 3 = q := Fin.ext h3
  rw [out1_9_eq, Cert.KPay.norm_out_apply]
  unfold resultFn
  rw [hk2, hk3, iblk1_5_apply, iblk1_6_apply, iblk1_7_apply, iblk1_8_apply]
  rw [actBlk_eq (arrA V c) (arrV V c) (arrW V c) (arrBias V c) _ _ _ _ _ (k 0) (k 1) p o q
    (fun l => iblk1_0_apply V c t _ _ h0 h1 rfl rfl) (fun f => iblk1_1_apply V c t _ _ h0 h1 rfl)
    (fun f => iblk1_2_apply V c t _ _ h0 rfl rfl) (fun k' => iblk1_3_apply V c t _) (iblk1_4_apply V c t _)]

/-- WHAT POINT `t` WRITES BACK is block `t` of the result function. -/
theorem flushed_eq (c : Dev nD) (t : Fin cfg1.N) :
    (dat1 V c).flushed 9 t = ((cfg1.win 9).blk t).view.read (Elt Ideal) (resultFn V c) := by
  obtain ⟨-, -, -, -, -, -, -, -, -, -, -, -, -, -, -, -, -, e0, e1, e2, e3⟩ := idx_facts t
  show (cfg1.win 9).cut (grid1.coords t) ((dat1 V c).after 9 t) = _
  rw [after1_9]
  funext j
  show out1_9 V c t j = resultFn V c (((cfg1.win 9).blk t).view.emb j)
  refine point_value V c t j _ ?_ ?_ ?_ ?_
  · show win1_9.index t (0 : Fin 4) * 1 + 1 * (j 0).val = _; omega
  · show win1_9.index t (1 : Fin 4) * 128 + 1 * (j 1).val = _; omega
  · show win1_9.index t (2 : Fin 4) * 8 + 1 * (j 2).val = _; omega
  · show win1_9.index t (3 : Fin 4) * 1024 + 1 * (j 3).val = _; omega

/-! ## The blocks cover the array -/

/-- An index of the result array is in point `t`'s block iff each coordinate is in the block's range on its axis. -/
theorem mem_blk9 (t : Fin cfg1.N) (i : S4x1024x8x1024.Idx) :
    i ∈ ((cfg1.win 9).blk t).view.set ↔ ∀ a : Fin 4, win1_9.index t a * S1x128x8x1024.size a ≤ (i a).val
      ∧ (i a).val < win1_9.index t a * S1x128x8x1024.size a + S1x128x8x1024.size a := by
  show i ∈ ((View.whole main_v13).slice (win1_9.rect t)).set ↔ _
  rw [View.set_slice_whole, Rect.mem_set_unit]
  exact Iff.rfl

/-- Every index (b, n, o, m) of the result array is in the block of the point 8·b + n/128, which writes back. -/
theorem cover9 (i : S4x1024x8x1024.Idx) :
    ∃ t : Fin cfg1.N, (cfg1.win 9).flush t = true ∧ i ∈ ((cfg1.win 9).blk t).view.set := by
  have hi0 : (i 0).val < 4 := (i 0).isLt
  have hi1 : (i 1).val < 1024 := (i 1).isLt
  have hi2 : (i 2).val < 8 := (i 2).isLt
  have hi3 : (i 3).val < 1024 := (i 3).isLt
  obtain ⟨t, ht⟩ : ∃ t : Fin cfg1.N, t.val = 8 * (i 0).val + (i 1).val / 128 :=
    ⟨⟨8 * (i 0).val + (i 1).val / 128, by rw [show cfg1.N = 32 from N_1]; omega⟩, rfl⟩
  obtain ⟨-, -, -, -, -, -, -, -, -, -, -, -, -, -, -, -, -, e0, e1, e2, e3⟩ := idx_facts t
  refine ⟨t, flush1_9 t, ?_⟩
  rw [mem_blk9]
  intro a
  match a with
  | ⟨0, _⟩ => show win1_9.index t (0 : Fin 4) * 1 ≤ (i 0).val ∧ (i 0).val < win1_9.index t (0 : Fin 4) * 1 + 1; omega
  | ⟨1, _⟩ => show win1_9.index t (1 : Fin 4) * 128 ≤ (i 1).val ∧ (i 1).val < win1_9.index t (1 : Fin 4) * 128 + 128; omega
  | ⟨2, _⟩ => show win1_9.index t (2 : Fin 4) * 8 ≤ (i 2).val ∧ (i 2).val < win1_9.index t (2 : Fin 4) * 8 + 8; omega
  | ⟨3, _⟩ => show win1_9.index t (3 : Fin 4) * 1024 ≤ (i 3).val ∧ (i 3).val < win1_9.index t (3 : Fin 4) * 1024 + 1024; omega

/-! ## The result array after the region -/

/-- THE RESULT ARRAY after the region's run: at every index (b, n, o, m) it holds
    (act(b,n,o,m) − mean o)·rsqrt(var o + ε)·gamma o + beta o of the arrays the region was entered with. -/
theorem arrAt_result (c : Dev nD) :
    (dat1 (F := Ideal) V c).arrAt 9 cfg1.N = fun i =>
      (Cert.Spec.act (arrA V c) (arrV V c) (arrW V c) (arrBias V c) (i 0) (i 1) (i 2) (i 3) - arrMean V c (ix1 (i 2)))
        * Ideal.rsqrt (arrVar V c (ix1 (i 2)) + Cert.Spec.eps) * arrGamma V c (ix1 (i 2)) + arrBeta V c (ix1 (i 2)) :=
  (dat1 V c).arrAt_eq_of_cover 9 (resultFn V c) (fun t _ => flushed_eq V c t) cover9

end Cert.KernelIdeal.Value1

end
-- ==== Proof.KICover0.lean ====
/-
  The statistics region's two accumulator arrays after the run, from the blocks written back.

  The two per-batch accumulators [4,1,8] are staged one batch row [1,1,8] at a time and written back when a batch's
  last tile is done, at the grid points t = 8·b + 7. Those four blocks tile each array, so if what each of these points
  writes back is its block of one function of the index, the array holds that function after the run.
-/
import proofs.«100599_j24919400252237_2_alg».proof.Proof.KIDat0
import Idealize.ShloMosaic.Lib.Pipeline.Value
import Idealize.ShloMosaic.Lib.ValueIdx
set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Cert.KernelIdeal.Value0
open Cert.KernelIdeal Cert.KernelIdeal.Gen Cert.KernelIdeal.Hand

variable {F : FTy → Type} [FloatOps F]
variable (V : (c : Dev nD) → (b : Ref sig .tc) → Buf (Elt F) ((c : Thread nD τ).loc b))

/-- Window 5's block index at point `t`: the batch t/8, and zero on the two other axes. -/
theorem idx5_facts : ∀ t : Fin cfg0.N,
    win0_5.index t (0 : Fin 3) = t.val / 8 ∧ win0_5.index t (1 : Fin 3) = 0 ∧ win0_5.index t (2 : Fin 3) = 0 :=
  (by decide +kernel : ∀ t : Fin grid0.N, _)

/-- An index of accumulator array one is in point `t`'s block iff each coordinate is in the block's range on its axis. -/
theorem mem_blk5 (t : Fin cfg0.N) (i : S4x1x8.Idx) :
    i ∈ ((cfg0.win 5).blk t).view.set ↔ ∀ a : Fin 3, win0_5.index t a * S1x1x8.size a ≤ (i a).val
      ∧ (i a).val < win0_5.index t a * S1x1x8.size a + S1x1x8.size a := by
  show i ∈ ((View.whole main_v0_0).slice (win0_5.rect t)).set ↔ _
  rw [View.set_slice_whole, Rect.mem_set_unit]
  exact Iff.rfl

/-- Every index (b, 0, o) of the array is in the block of the point 8·b + 7, a point that writes back. -/
theorem cover5 (i : S4x1x8.Idx) :
    ∃ t : Fin cfg0.N, (cfg0.win 5).flush t = true ∧ i ∈ ((cfg0.win 5).blk t).view.set := by
  have hi0 : (i 0).val < 4 := (i 0).isLt
  have hi1 : (i 1).val < 1 := (i 1).isLt
  have hi2 : (i 2).val < 8 := (i 2).isLt
  obtain ⟨t, ht⟩ : ∃ t : Fin cfg0.N, t.val = 8 * (i 0).val + 7 :=
    ⟨⟨8 * (i 0).val + 7, by rw [show cfg0.N = 32 from N_0]; omega⟩, rfl⟩
  obtain ⟨e0, e1, e2⟩ := idx5_facts t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 8 ≤ (i 2).val ∧ (i 2).val < win0_5.index t (2 : Fin 3) * 8 + 8; omega

/-- Accumulator array one after the region's run is `G`, if every point that writes back writes its block of `G`
    (asked at the writing points only: elsewhere the staging buffer holds partial sums). -/
theorem arrAt5_of_flushed (c : Dev nD) (G : S4x1x8.Idx → Elt F .f32)
    (h : ∀ t : Fin cfg0.N, (cfg0.win 5).flush t = true →
      (dat0 (F := F) V c).flushed 5 t = ((cfg0.win 5).blk t).view.read (Elt F) G) :
    (dat0 (F := F) V c).arrAt 5 cfg0.N = G :=
  (dat0 V c).arrAt_eq_of_cover 5 G h cover5

/-- Window 6's block index at point `t`: the batch t/8, and zero on the two other axes. -/
theorem idx6_facts : ∀ t : Fin cfg0.N,
    win0_6.index t (0 : Fin 3) = t.val / 8 ∧ win0_6.index t (1 : Fin 3) = 0 ∧ win0_6.index t (2 : Fin 3) = 0 :=
  (by decide +kernel : ∀ t : Fin grid0.N, _)

/-- An index of accumulator array two is in point `t`'s block iff each coordinate is in the block's range on its axis. -/
theorem mem_blk6 (t : Fin cfg0.N) (i : S4x1x8.Idx) :
    i ∈ ((cfg0.win 6).blk t).view.set ↔ ∀ a : Fin 3, win0_6.index t a * S1x1x8.size a ≤ (i a).val
      ∧ (i a).val < win0_6.index t a * S1x1x8.size a + S1x1x8.size a := by
  show i ∈ ((View.whole main_v0_1).slice (win0_6.rect t)).set ↔ _
  rw [View.set_slice_whole, Rect.mem_set_unit]
  exact Iff.rfl

/-- Every index (b, 0, o) of the array is in the block of the point 8·b + 7, a point that writes back. -/
theorem cover6 (i : S4x1x8.Idx) :
    ∃ t : Fin cfg0.N, (cfg0.win 6).flush t = true ∧ i ∈ ((cfg0.win 6).blk t).view.set := by
  have hi0 : (i 0).val < 4 := (i 0).isLt
  have hi1 : (i 1).val < 1 := (i 1).isLt
  have hi2 : (i 2).val < 8 := (i 2).isLt
  obtain ⟨t, ht⟩ : ∃ t : Fin cfg0.N, t.val = 8 * (i 0).val + 7 :=
    ⟨⟨8 * (i 0).val + 7, by rw [show cfg0.N = 32 from N_0]; omega⟩, rfl⟩
  obtain ⟨e0, e1, e2⟩ := idx6_facts t
  refine ⟨t, (flush0_6 t).mpr (by omega), ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 8 ≤ (i 2).val ∧ (i 2).val < win0_6.index t (2 : Fin 3) * 8 + 8; omega

/-- Accumulator array two after the region's run is `G`, if every point that writes back writes its block of `G`
    (asked at the writing points only: elsewhere the staging buffer holds partial sums). -/
theorem arrAt6_of_flushed (c : Dev nD) (G : S4x1x8.Idx → Elt F .f32)
    (h : ∀ t : Fin cfg0.N, (cfg0.win 6).flush t = true →
      (dat0 (F := F) V c).flushed 6 t = ((cfg0.win 6).blk t).view.read (Elt F) G) :
    (dat0 (F := F) V c).arrAt 6 cfg0.N = G :=
  (dat0 V c).arrAt_eq_of_cover 6 G h cover6

end Cert.KernelIdeal.Value0

end
-- ==== Proof.KIValue0.lean ====
/-
  The statistics region's two result arrays, from what each grid point leaves in the accumulators.

  Grid point t = 8·b + j (batch b, tile j of 128 node rows) stages the adjacency block and the tile's feature rows at
  (b, j), all feature rows of batch b, and the weights and bias whole; each input block read at an index is its array
  read at the index under it. The body adds to the running sum, per channel o, the tile's Σ_p Σ_q act(b, 128·j + p, o, q),
  starting from zero at j = 0, and likewise the squares to the second accumulator. Over the eight tiles of a batch the
  running sum is therefore Σ_j Σ_p Σ_q act(b, 128·j + p, o, q) = Σ_n Σ_q act(b, n, o, q), the 1024 rows regrouped as
  8 × 128. The accumulator's block is written back once per batch, after tile 7, at (b, 0, ·) of its [4,1,8] array, and
  the four blocks cover the array: it ends holding Σ_n Σ_m act(b, n, o, m) at (b, 0, o), and the second array the sum
  of the squares.
-/
import proofs.«100599_j24919400252237_2_alg».proof.Proof.KIValue0A
import proofs.«100599_j24919400252237_2_alg».proof.Proof.KPay4
import proofs.«100599_j24919400252237_2_alg».proof.Proof.KBridge
import proofs.«100599_j24919400252237_2_alg».proof.Proof.LibTiles
import proofs.«100599_j24919400252237_2_alg».proof.Proof.Spec
import proofs.«100599_j24919400252237_2_alg».proof.Proof.KIValue1
import proofs.«100599_j24919400252237_2_alg».proof.Proof.KICover0
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open scoped BigOperators

namespace Cert.KernelIdeal.Value0

open Cert.KernelIdeal Cert.KernelIdeal.Gen Cert.KernelIdeal.Hand Idealize.ShloMosaic.ValueIdx
open Cert.KernelIdeal.Value1 (arrA arrV arrW arrBias)

variable (V : (c : Dev nD) → (b : Ref sig .tc) → Buf (Elt Ideal) ((c : Thread nD τ).loc b))

/-- The activation of the arrays the region is entered with. -/
abbrev actOf (c : Dev nD) (b : Fin 4) (n : Fin 1024) (o : Fin 8) (m : Fin 1024) : EReal :=
  Cert.Spec.act (arrA V c) (arrV V c) (arrW V c) (arrBias V c) b n o m

/-! ## Where each window's block sits in its array -/

/-- The block indices of the seven windows at grid point t = 8·(batch) + (tile): the adjacency and the tile's feature
    rows follow (batch, tile); the batch's feature rows and the two accumulators follow the batch; the small arrays do
    not move. -/
theorem idx_facts : ∀ t : Fin cfg0.N,
    win0_0.index t 0 = t.val / 8 ∧ win0_0.index t 1 = t.val % 8 ∧ win0_0.index t 2 = 0 ∧ win0_0.index t 3 = 0
    ∧ win0_1.index t 0 = t.val / 8 ∧ win0_1.index t 1 = t.val % 8 ∧ win0_1.index t 2 = 0
    ∧ win0_2.index t 0 = t.val / 8 ∧ win0_2.index t 1 = 0 ∧ win0_2.index t 2 = 0
    ∧ win0_3.index t 0 = 0 ∧ win0_3.index t 1 = 0
    ∧ win0_4.index t 0 = 0
    ∧ win0_5.index t 0 = t.val / 8 ∧ win0_5.index t 1 = 0 ∧ win0_5.index t 2 = 0
    ∧ win0_6.index t 0 = t.val / 8 ∧ win0_6.index t 1 = 0 ∧ win0_6.index t 2 = 0 :=
  (by decide +kernel : ∀ t : Fin grid0.N, _)

/-- A point of the grid is below 32. -/
theorem pt_lt (b : Fin 4) {j : ℕ} (hj : j < 8) : 8 * b.val + j < cfg0.N := by
  have := b.isLt
  rw [show cfg0.N = 32 from N_0]
  omega

/-- The adjacency block at point 8·b + j, row p, reads the array at batch b, row 128·j + p. -/
theorem blk0_apply (c : Dev nD) (t : Fin cfg0.N) (b : Fin 4) (j : Fin 8) (ht : t.val = 8 * b.val + j.val)
    (p : Fin 128) (l : Fin 8) (q : Fin 1024) :
    (iblk0 V c 0 t : Vec Ideal S1x128x8x1024 .f32) (ix4 (0 : Fin 1) p l q) = arrA V c (ix4 b (Cert.KPay.row j p) l q) := by
  obtain ⟨h0, h1, h2, h3, -⟩ := idx_facts t
  unfold iblk0
  rw [View.read_apply]
  show V c main_arg0 _ = V c main_arg0 _
  congr 1
  funext a
  apply Fin.ext
  have hb := b.isLt
  have hj := j.isLt
  match a with
  | ⟨0, _⟩ =>
    show win0_0.index t 0 * 1 + 1 * ((0 : Fin 1) : Nat) = b.val
    rw [h0]; simp only [Fin.val_zero]; omega
  | ⟨1, _⟩ =>
    show win0_0.index t 1 * 128 + 1 * p.val = 128 * j.val + p.val
    rw [h1]; omega
  | ⟨2, _⟩ =>
    show win0_0.index t 2 * 8 + 1 * l.val = l.val
    rw [h2]; omega
  | ⟨3, _⟩ =>
    show win0_0.index t 3 * 1024 + 1 * q.val = q.val
    rw [h3]; omega

/-- The tile's feature rows at point 8·b + j, row p, read the array at batch b, row 128·j + p. -/
theorem blk1_apply (c : Dev nD) (t : Fin cfg0.N) (b : Fin 4) (j : Fin 8) (ht : t.val = 8 * b.val + j.val)
    (p : Fin 128) (f : Fin 64) :
    (iblk0 V c 1 t : Vec Ideal S1x128x64 .f32) (ix3 (0 : Fin 1) p f) = arrV V c (ix3 b (Cert.KPay.row j p) f) := by
  obtain ⟨-, -, -, -, h0, h1, h2, -⟩ := idx_facts t
  unfold iblk0
  rw [View.read_apply]
  show V c main_arg1 _ = V c main_arg1 _
  congr 1
  funext a
  apply Fin.ext
  have hb := b.isLt
  have hj := j.isLt
  match a with
  | ⟨0, _⟩ =>
    show win0_1.index t 0 * 1 + 1 * ((0 : Fin 1) : Nat) = b.val
    rw [h0]; simp only [Fin.val_zero]; omega
  | ⟨1, _⟩ =>
    show win0_1.index t 1 * 128 + 1 * p.val = 128 * j.val + p.val
    rw [h1]; omega
  | ⟨2, _⟩ =>
    show win0_1.index t 2 * 64 + 1 * f.val = f.val
    rw [h2]; omega

/-- The batch's feature rows at point 8·b + j, row q, read the array at batch b, row q. -/
theorem blk2_apply (c : Dev nD) (t : Fin cfg0.N) (b : Fin 4) (j : Fin 8) (ht : t.val = 8 * b.val + j.val)
    (q : Fin 1024) (f : Fin 64) :
    (iblk0 V c 2 t : Vec Ideal S1x1024x64 .f32) (ix3 (0 : Fin 1) q f) = arrV V c (ix3 b q f) := by
  obtain ⟨-, -, -, -, -, -, -, h0, h1, h2, -⟩ := idx_facts t
  unfold iblk0
  rw [View.read_apply]
  show V c main_arg1 _ = V c main_arg1 _
  congr 1
  funext a
  apply Fin.ext
  have hb := b.isLt
  have hj := j.isLt
  match a with
  | ⟨0, _⟩ =>
    show win0_2.index t 0 * 1 + 1 * ((0 : Fin 1) : Nat) = b.val
    rw [h0]; simp only [Fin.val_zero]; omega
  | ⟨1, _⟩ =>
    show win0_2.index t 1 * 1024 + 1 * q.val = q.val
    rw [h1]; omega
  | ⟨2, _⟩ =>
    show win0_2.index t 2 * 64 + 1 * f.val = f.val
    rw [h2]; omega

/-- The weights' block is the whole array at every point. -/
theorem blk3_apply (c : Dev nD) (t : Fin cfg0.N) (i : S8x9.Idx) :
    (iblk0 V c 3 t : Vec Ideal S8x9 .f32) i = arrW V c i := by
  obtain ⟨-, -, -, -, -, -, -, -, -, -, h0, h1, -⟩ := idx_facts t
  unfold iblk0
  rw [View.read_apply]
  show V c main_arg2 _ = V c main_arg2 _
  congr 1
  funext a
  apply Fin.ext
  match a with
  | ⟨0, _⟩ =>
    show win0_3.index t 0 * 8 + 1 * (i 0).val = (i 0).val
    rw [h0]; omega
  | ⟨1, _⟩ =>
    show win0_3.index t 1 * 9 + 1 * (i 1).val = (i 1).val
    rw [h1]; omega

/-- The bias's block is the whole array at every point. -/
theorem blk4_apply (c : Dev nD) (t : Fin cfg0.N) (i : S8.Idx) :
    (iblk0 V c 4 t : Vec Ideal S8 .f32) i = arrBias V c i := by
  obtain ⟨-, -, -, -, -, -, -, -, -, -, -, -, h0, -⟩ := idx_facts t
  unfold iblk0
  rw [View.read_apply]
  show V c main_arg3 _ = V c main_arg3 _
  congr 1
  funext a
  apply Fin.ext
  match a with
  | ⟨0, _⟩ =>
    show win0_4.index t 0 * 8 + 1 * (i 0).val = (i 0).val
    rw [h0]; omega

/-! ## One tile's step -/

/-- The sum of a tile's activations: rows 128·j … 128·j + 127 of batch b, all columns, channel o. -/
def tileSum (c : Dev nD) (b : Fin 4) (o : Fin 8) (j : Fin 8) : EReal :=
  ∑ p : Fin 128, ∑ q : Fin 1024, actOf V c b (Cert.KPay.row j p) o q

/-- The sum of the squares of a tile's activations. -/
def tileSq (c : Dev nD) (b : Fin 4) (o : Fin 8) (j : Fin 8) : EReal :=
  ∑ p : Fin 128, ∑ q : Fin 1024, actOf V c b (Cert.KPay.row j p) o q * actOf V c b (Cert.KPay.row j p) o q

/-- At point 8·b + j the running sum's step adds tile j's sum at each channel. -/
theorem sumStep_apply (c : Dev nD) (t : Fin cfg0.N) (b : Fin 4) (j : Fin 8) (ht : t.val = 8 * b.val + j.val)
    (acc : Vec Ideal S1x1x8 .f32) (o : Fin 8) :
    sumStep (iblk0 V c 0 t) (iblk0 V c 1 t) (iblk0 V c 2 t) (iblk0 V c 3 t) (iblk0 V c 4 t) acc (ix3 (0 : Fin 1) (0 : Fin 1) o)
      = acc (ix3 (0 : Fin 1) (0 : Fin 1) o) + tileSum V c b o j := by
  refine (Cert.KPay.sum0_apply _ _ _ _ _ acc o).trans ?_
  refine congrArg (acc (ix3 (0 : Fin 1) (0 : Fin 1) o) + ·)
    (Finset.sum_congr rfl fun p _ => Finset.sum_congr rfl fun q _ => ?_)
  exact Cert.KPay.actBlk_of_blocks (arrA V c) (arrV V c) (arrW V c) (arrBias V c) _ _ _ _ _ b j
    (fun p l q => blk0_apply V c t b j ht p l q) (fun p f => blk1_apply V c t b j ht p f)
    (fun q f => blk2_apply V c t b j ht q f) (fun i => blk3_apply V c t i) (fun i => blk4_apply V c t i) p o q

/-- At point 8·b + j the running sum of squares' step adds tile j's sum of squares at each channel. -/
theorem sqStep_apply (c : Dev nD) (t : Fin cfg0.N) (b : Fin 4) (j : Fin 8) (ht : t.val = 8 * b.val + j.val)
    (acc : Vec Ideal S1x1x8 .f32) (o : Fin 8) :
    sqStep (iblk0 V c 0 t) (iblk0 V c 1 t) (iblk0 V c 2 t) (iblk0 V c 3 t) (iblk0 V c 4 t) acc (ix3 (0 : Fin 1) (0 : Fin 1) o)
      = acc (ix3 (0 : Fin 1) (0 : Fin 1) o) + tileSq V c b o j := by
  refine (Cert.KPay.sumsq0_apply _ _ _ _ _ acc o).trans ?_
  refine congrArg (acc (ix3 (0 : Fin 1) (0 : Fin 1) o) + ·)
    (Finset.sum_congr rfl fun p _ => Finset.sum_congr rfl fun q _ => ?_)
  have e := Cert.KPay.actBlk_of_blocks (arrA V c) (arrV V c) (arrW V c) (arrBias V c) _ _ _ _ _ b j
    (fun p l q => blk0_apply V c t b j ht p l q) (fun p f => blk1_apply V c t b j ht p f)
    (fun q f => blk2_apply V c t b j ht q f) (fun i => blk3_apply V c t i) (fun i => blk4_apply V c t i) p o q
  rw [e]

/-! ## The accumulation over a batch -/

/-- The accumulators' contents depend on the point's position only. -/
theorem outsAt0_congr (c : Dev nD) {n n' : ℕ} (e : n = n') (h : n < cfg0.N) (h' : n' < cfg0.N) :
    outsAt0 V c n h = outsAt0 V c n' h' := by
  subst e; rfl

/-- After a batch's first tile the running sum is tile 0's sum, the running sum of squares tile 0's. -/
theorem outs_first (c : Dev nD) (t : Fin cfg0.N) (b : Fin 4) (ht : t.val = 8 * b.val + (0 : Fin 8).val) (o : Fin 8) :
    (outsAt0 V c t.val t.isLt).1 (ix3 (0 : Fin 1) (0 : Fin 1) o) = tileSum V c b o 0
    ∧ (outsAt0 V c t.val t.isLt).2 (ix3 (0 : Fin 1) (0 : Fin 1) o) = tileSq V c b o 0 := by
  have h0 : t.val % 8 = 0 := by simp only [Fin.val_zero] at ht; omega
  rw [outsAt0_A V c t h0]
  constructor
  · show readBack (piecesA V c t h0).1 (ix3 (0 : Fin 1) (0 : Fin 1) o) = _
    rw [sum_A, sumStep_apply V c t b 0 ht, Cert.KPay.k0_pay4_apply, zero_add]
  · show readBack (piecesA V c t h0).2 (ix3 (0 : Fin 1) (0 : Fin 1) o) = _
    rw [sq_A, sqStep_apply V c t b 0 ht, Cert.KPay.k0_pay5_apply, zero_add]

/-- After a later tile j each accumulator is what the point before left plus tile j's contribution. -/
theorem outs_next (c : Dev nD) (t : Fin cfg0.N) (b : Fin 4) (j : Fin 8) (ht : t.val = 8 * b.val + j.val) (hj : j.val ≠ 0)
    (n' : ℕ) (hn' : n' < cfg0.N) (hp : t.val - 1 = n') (o : Fin 8) :
    (outsAt0 V c t.val t.isLt).1 (ix3 (0 : Fin 1) (0 : Fin 1) o)
        = (outsAt0 V c n' hn').1 (ix3 (0 : Fin 1) (0 : Fin 1) o) + tileSum V c b o j
    ∧ (outsAt0 V c t.val t.isLt).2 (ix3 (0 : Fin 1) (0 : Fin 1) o)
        = (outsAt0 V c n' hn').2 (ix3 (0 : Fin 1) (0 : Fin 1) o) + tileSq V c b o j := by
  have hj8 := j.isLt
  have h0 : ¬t.val % 8 = 0 := by omega
  rw [outsAt0_B V c t h0, outsAt0_congr V c hp _ hn']
  constructor
  · show readBack (piecesB V c t h0 (outsAt0 V c n' hn').1 (outsAt0 V c n' hn').2).1 (ix3 (0 : Fin 1) (0 : Fin 1) o) = _
    rw [sum_B V c t h0 (outsAt0 V c n' hn').1 (outsAt0 V c n' hn').2, sumStep_apply V c t b j ht]
  · show readBack (piecesB V c t h0 (outsAt0 V c n' hn').1 (outsAt0 V c n' hn').2).2 (ix3 (0 : Fin 1) (0 : Fin 1) o) = _
    rw [sq_B V c t h0 (outsAt0 V c n' hn').1 (outsAt0 V c n' hn').2, sqStep_apply V c t b j ht]

/-- After batch b's last tile the running sum at channel o is the sum of the batch's activations over all rows and
    columns, and the running sum of squares the sum of their squares. -/
theorem outs_last (c : Dev nD) (b : Fin 4) (o : Fin 8) :
    (outsAt0 V c (8 * b.val + 7) (pt_lt b (by omega))).1 (ix3 (0 : Fin 1) (0 : Fin 1) o)
        = ∑ n : Fin 1024, ∑ m : Fin 1024, actOf V c b n o m
    ∧ (outsAt0 V c (8 * b.val + 7) (pt_lt b (by omega))).2 (ix3 (0 : Fin 1) (0 : Fin 1) o)
        = ∑ n : Fin 1024, ∑ m : Fin 1024, actOf V c b n o m * actOf V c b n o m := by
  constructor
  · have hf := Cert.LibTiles.fold_tiles (tileSum V c b o)
      (fun j => if h : j < 8 then (outsAt0 V c (8 * b.val + j) (pt_lt b h)).1 (ix3 (0 : Fin 1) (0 : Fin 1) o) else 0)
      (by
        rw [dif_pos (by omega : 0 < 8)]
        exact (outs_first V c ⟨8 * b.val + 0, pt_lt b (by omega)⟩ b rfl o).1)
      (fun j hj => by
        rw [dif_pos hj, dif_pos (by omega : j < 8)]
        exact (outs_next V c ⟨8 * b.val + (j + 1), pt_lt b hj⟩ b ⟨j + 1, hj⟩ rfl (Nat.succ_ne_zero j)
          (8 * b.val + j) (pt_lt b (by omega)) (by show 8 * b.val + (j + 1) - 1 = 8 * b.val + j; omega) o).1)
    rw [dif_pos (by omega : 7 < 8)] at hf
    rw [hf]
    exact Cert.LibTiles.sum_tiles (fun n => ∑ m : Fin 1024, actOf V c b n o m)
  · have hf := Cert.LibTiles.fold_tiles (tileSq V c b o)
      (fun j => if h : j < 8 then (outsAt0 V c (8 * b.val + j) (pt_lt b h)).2 (ix3 (0 : Fin 1) (0 : Fin 1) o) else 0)
      (by
        rw [dif_pos (by omega : 0 < 8)]
        exact (outs_first V c ⟨8 * b.val + 0, pt_lt b (by omega)⟩ b rfl o).2)
      (fun j hj => by
        rw [dif_pos hj, dif_pos (by omega : j < 8)]
        exact (outs_next V c ⟨8 * b.val + (j + 1), pt_lt b hj⟩ b ⟨j + 1, hj⟩ rfl (Nat.succ_ne_zero j)
          (8 * b.val + j) (pt_lt b (by omega)) (by show 8 * b.val + (j + 1) - 1 = 8 * b.val + j; omega) o).2)
    rw [dif_pos (by omega : 7 < 8)] at hf
    rw [hf]
    exact Cert.LibTiles.sum_tiles (fun n => ∑ m : Fin 1024, actOf V c b n o m * actOf V c b n o m)

/-! ## What a batch's last point writes back -/

/-- The sum array as one function of the arrays: at (b, ·, o) the sum of batch b's activations at channel o. -/
def sumFn (c : Dev nD) : S4x1x8.Idx → EReal := fun i => ∑ n : Fin 1024, ∑ m : Fin 1024, actOf V c (i 0) n (i 2) m

/-- The sum-of-squares array as one function of the arrays. -/
def sqFn (c : Dev nD) : S4x1x8.Idx → EReal :=
  fun i => ∑ n : Fin 1024, ∑ m : Fin 1024, actOf V c (i 0) n (i 2) m * actOf V c (i 0) n (i 2) m

/-- After the last tile of batch t/8 the accumulators, read at y, are the two functions at the array index k under it. -/
theorem point_last (c : Dev nD) (t : Fin cfg0.N) (h7 : t.val % 8 = 7) (y : S1x1x8.Idx) (k : S4x1x8.Idx)
    (h0 : (k 0).val = t.val / 8 + (y 0).val) (h2 : (k 2).val = (y 2).val) :
    (outsAt0 V c t.val t.isLt).1 y = sumFn V c k ∧ (outsAt0 V c t.val t.isLt).2 y = sqFn V c k := by
  have hN : t.val < 32 := lt_of_lt_of_eq t.isLt (show cfg0.N = 32 from N_0)
  obtain ⟨u, u', o, rfl⟩ : ∃ (u u' : Fin 1) (o : Fin 8), y = ix3 u u' o := ⟨y 0, y 1, y 2, eq_ix3 y⟩
  obtain rfl : u = 0 := Subsingleton.elim _ _
  obtain rfl : u' = 0 := Subsingleton.elim _ _
  have hk2 : k 2 = o := Fin.ext h2
  have hk0 : k 0 = (⟨t.val / 8, by omega⟩ : Fin 4) := Fin.ext (by
    have : ((ix3 (0 : Fin 1) (0 : Fin 1) o : S1x1x8.Idx) 0).val = 0 := rfl
    rw [h0, this]; rfl)
  have e := outsAt0_congr V c (show t.val = 8 * (⟨t.val / 8, by omega⟩ : Fin 4).val + 7 from by
    show t.val = 8 * (t.val / 8) + 7; omega) t.isLt (pt_lt _ (by omega))
  rw [e]
  unfold sumFn sqFn
  rw [hk0, hk2]
  exact outs_last V c _ o

/-- WHAT A BATCH'S LAST POINT WRITES BACK into the sum array is that point's block of `sumFn`. -/
theorem flushed5_eq (c : Dev nD) (t : Fin cfg0.N) (hf : (cfg0.win 5).flush t = true) :
    (dat0 (F := Ideal) V c).flushed 5 t = ((cfg0.win 5).blk t).view.read (Elt Ideal) (sumFn V c) := by
  have h7 : t.val % 8 = 7 := (flush0_5 t).mp hf
  obtain ⟨-, -, -, -, -, -, -, -, -, -, -, -, -, e0, e1, e2, -⟩ := idx_facts t
  show (cfg0.win 5).cut (grid0.coords t) ((dat0 V c).after 5 t) = _
  rw [after0_5]
  funext y
  show (outsAt0 V c t.val t.isLt).1 y = sumFn V c (((cfg0.win 5).blk t).view.emb y)
  refine (point_last V c t h7 y _ ?_ ?_).1
  · show win0_5.index t 0 * 1 + 1 * (y 0).val = _; rw [e0]; omega
  · show win0_5.index t 2 * 8 + 1 * (y 2).val = _; rw [e2]; omega

/-- WHAT A BATCH'S LAST POINT WRITES BACK into the sum-of-squares array is that point's block of `sqFn`. -/
theorem flushed6_eq (c : Dev nD) (t : Fin cfg0.N) (hf : (cfg0.win 6).flush t = true) :
    (dat0 (F := Ideal) V c).flushed 6 t = ((cfg0.win 6).blk t).view.read (Elt Ideal) (sqFn V c) := by
  have h7 : t.val % 8 = 7 := (flush0_6 t).mp hf
  obtain ⟨-, -, -, -, -, -, -, -, -, -, -, -, -, -, -, -, e0, e1, e2⟩ := idx_facts t
  show (cfg0.win 6).cut (grid0.coords t) ((dat0 V c).after 6 t) = _
  rw [after0_6]
  funext y
  show (outsAt0 V c t.val t.isLt).2 y = sqFn V c (((cfg0.win 6).blk t).view.emb y)
  refine (point_last V c t h7 y _ ?_ ?_).2
  · show win0_6.index t 0 * 1 + 1 * (y 0).val = _; rw [e0]; omega
  · show win0_6.index t 2 * 8 + 1 * (y 2).val = _; rw [e2]; omega

/-! ## The two arrays after the region -/

/-- The sum array after the region's run. -/
abbrev sumArr0 (c : Dev nD) : S4x1x8.Idx → EReal := (dat0 (F := Ideal) V c).arrAt 5 cfg0.N

/-- The sum-of-squares array after the region's run. -/
abbrev sqArr0 (c : Dev nD) : S4x1x8.Idx → EReal := (dat0 (F := Ideal) V c).arrAt 6 cfg0.N

/-- The sum array ends holding `sumFn`: each batch's block is written back once, after the batch's last tile. -/
theorem sumArr_eq (c : Dev nD) : sumArr0 V c = sumFn V c :=
  arrAt5_of_flushed V c (sumFn V c) (flushed5_eq V c)

/-- The sum-of-squares array ends holding `sqFn`. -/
theorem sqArr_eq (c : Dev nD) : sqArr0 V c = sqFn V c :=
  arrAt6_of_flushed V c (sqFn V c) (flushed6_eq V c)

/-- THE SUM ARRAY after the region: at (b, 0, o) the sum over all rows n and columns k of batch b's activations at
    channel o. -/
theorem sumArr_apply (c : Dev nD) (b : Fin 4) (o : Fin 8) :
    sumArr0 V c (ix3 b (0 : Fin 1) o)
      = ∑ n : Fin 1024, ∑ k : Fin 1024, Cert.Spec.act (arrA V c) (arrV V c) (arrW V c) (arrBias V c) b n o k := by
  rw [sumArr_eq]
  rfl

/-- THE SUM-OF-SQUARES ARRAY after the region: at (b, 0, o) the sum over all rows and columns of the squares of batch
    b's activations at channel o. -/
theorem sqArr_apply (c : Dev nD) (b : Fin 4) (o : Fin 8) :
    sqArr0 V c (ix3 b (0 : Fin 1) o)
      = ∑ n : Fin 1024, ∑ k : Fin 1024, Cert.Spec.act (arrA V c) (arrV V c) (arrW V c) (arrBias V c) b n o k
          * Cert.Spec.act (arrA V c) (arrV V c) (arrW V c) (arrBias V c) b n o k := by
  rw [sqArr_eq]
  rfl

end Cert.KernelIdeal.Value0

end
-- ==== Proof.KIValue.lean ====
/-
  The kernel program's result array, as a function of the six arguments.

  The program runs the statistics region, seventeen host operations, and the normalising region. The statistics region
  leaves per batch and channel the sums of the activations and of their squares; the host operations turn them into the
  per-channel mean and clamped variance, and write no argument; the normalising region then stores, at every index,
  (act − mean)·rsqrt(var + ε)·gamma + beta of the arrays it is entered with. Read together: the result array is the
  specification's, with the one-pass variance.
-/
import proofs.«100599_j24919400252237_2_alg».proof.Proof.KIVals
import proofs.«100599_j24919400252237_2_alg».proof.Proof.KIHost
import proofs.«100599_j24919400252237_2_alg».proof.Proof.KIValue0
import proofs.«100599_j24919400252237_2_alg».proof.Proof.KIValue1
import proofs.«100599_j24919400252237_2_alg».proof.Proof.Spec

set_option maxRecDepth 16384

noncomputable section

open Idealize.ShloMosaic Idealize.ShloMosaic.TcCoe Idealize.ShloMosaic.ValueIdx
open Idealize.SL.Sem
open scoped BigOperators

namespace Cert.KernelIdeal.Value

open Cert.KernelIdeal Cert.KernelIdeal.Gen Cert.KernelIdeal.Hand Cert.KernelIdeal.Value1 Cert.KernelIdeal.HostVal

/-- The per-batch sums of the activations as the statistics region leaves them, entered with the contents `V`. -/
abbrev sumOf (V : (c : Dev nD) → (b : Ref sig .tc) → Buf (Elt Ideal) ((c : Thread nD τ).loc b)) (c : Dev nD) :
    S4x1x8.Idx → EReal := (dat0 (F := Ideal) V c).arrAt 5 cfg0.N

/-- The per-batch sums of the squared activations as the statistics region leaves them. -/
abbrev sqOf (V : (c : Dev nD) → (b : Ref sig .tc) → Buf (Elt Ideal) ((c : Thread nD τ).loc b)) (c : Dev nD) :
    S4x1x8.Idx → EReal := (dat0 (F := Ideal) V c).arrAt 6 cfg0.N

variable (m : (ℓ : Loc nD τ sig) → Buf (Elt Ideal) ℓ)

/-- What the statistics region leaves, as the family the valuations between the regions are written over. -/
abbrev o1 : Outs (F := Ideal) := fun _ r c => left0 m r c

/-- After the statistics region the first sum array holds its sums, -/
theorem V1_sum' (c : Dev nD) : V1 m (o1 m) c main_v0_0 = sumArr m c := by
  unfold V1
  rw [Function.update_of_ne (StableHlo.devRef_ne_of_ne (by decide) : (Proc.devRef .tc main_v0_0 : DevRef τ sig) ≠ Proc.devRef .tc main_v0_1),
    Function.update_self]
  exact left0_sum m c

/-- and the second its sums of squares. -/
theorem V1_sq' (c : Dev nD) : V1 m (o1 m) c main_v0_1 = sqArr m c := by
  unfold V1
  rw [Function.update_self]
  exact left0_sq m c

/-! The six arguments reach the normalising region as launched. -/

theorem Vr1_A (c : Dev nD) : arrA (Vr1 m) c = arrA (Vr0 m) c :=
  (V2_of m (o1 m) c main_arg0 (by decide)).trans ((V1_of m (o1 m) c main_arg0 (by decide)).trans rfl)
theorem Vr1_V (c : Dev nD) : arrV (Vr1 m) c = arrV (Vr0 m) c :=
  (V2_of m (o1 m) c main_arg1 (by decide)).trans ((V1_of m (o1 m) c main_arg1 (by decide)).trans rfl)
theorem Vr1_W (c : Dev nD) : arrW (Vr1 m) c = arrW (Vr0 m) c :=
  (V2_of m (o1 m) c main_arg2 (by decide)).trans ((V1_of m (o1 m) c main_arg2 (by decide)).trans rfl)
theorem Vr1_bias (c : Dev nD) : arrBias (Vr1 m) c = arrBias (Vr0 m) c :=
  (V2_of m (o1 m) c main_arg3 (by decide)).trans ((V1_of m (o1 m) c main_arg3 (by decide)).trans rfl)
theorem Vr1_gamma (c : Dev nD) : arrGamma (Vr1 m) c = arrGamma (Vr0 m) c :=
  (V2_of m (o1 m) c main_arg4 (by decide)).trans ((V1_of m (o1 m) c main_arg4 (by decide)).trans rfl)
theorem Vr1_beta (c : Dev nD) : arrBeta (Vr1 m) c = arrBeta (Vr0 m) c :=
  (V2_of m (o1 m) c main_arg5 (by decide)).trans ((V1_of m (o1 m) c main_arg5 (by decide)).trans rfl)

section Stats

variable
  (hsum : ∀ (V : (c : Dev nD) → (b : Ref sig .tc) → Buf (Elt Ideal) ((c : Thread nD τ).loc b)) (c : Dev nD) (b : Fin 4)
    (o : Fin 8), sumOf V c (ix3 b (0 : Fin 1) o)
      = ∑ n : Fin 1024, ∑ k : Fin 1024, Cert.Spec.act (arrA V c) (arrV V c) (arrW V c) (arrBias V c) b n o k)
  (hsq : ∀ (V : (c : Dev nD) → (b : Ref sig .tc) → Buf (Elt Ideal) ((c : Thread nD τ).loc b)) (c : Dev nD) (b : Fin 4)
    (o : Fin 8), sqOf V c (ix3 b (0 : Fin 1) o)
      = ∑ n : Fin 1024, ∑ k : Fin 1024, Cert.Spec.act (arrA V c) (arrV V c) (arrW V c) (arrBias V c) b n o k
          * Cert.Spec.act (arrA V c) (arrV V c) (arrW V c) (arrBias V c) b n o k)

include hsum in
/-- The sums over the batches of what the statistics region leaves are the specification's channel sums. -/
theorem sum1_eq (c : Dev nD) (o : Fin 8) :
    (∑ b : Fin 4, (sumArr m c : FVec Ideal S4x1x8 .f32) (ix3 b (0 : Fin 1) o) : EReal)
      = Cert.Spec.sum1 (arrA (Vr0 m) c) (arrV (Vr0 m) c) (arrW (Vr0 m) c) (arrBias (Vr0 m) c) o :=
  Finset.sum_congr rfl fun b _ => hsum (Vr0 m) c b o

include hsq in
theorem sum2_eq (c : Dev nD) (o : Fin 8) :
    (∑ b : Fin 4, (sqArr m c : FVec Ideal S4x1x8 .f32) (ix3 b (0 : Fin 1) o) : EReal)
      = Cert.Spec.sum2 (arrA (Vr0 m) c) (arrV (Vr0 m) c) (arrW (Vr0 m) c) (arrBias (Vr0 m) c) o :=
  Finset.sum_congr rfl fun b _ => hsq (Vr0 m) c b o

include hsum in
/-- The mean the normalising region is entered with is the specification's. -/
theorem mean_eq (c : Dev nD) (o : Fin 8) :
    arrMean (Vr1 m) c (ix1 o)
      = Cert.Spec.mean (arrA (Vr0 m) c) (arrV (Vr0 m) c) (arrW (Vr0 m) c) (arrBias (Vr0 m) c) o := by
  refine (mean_after (V1 m (o1 m) c) o).trans ?_
  rw [V1_sum' m c, sum1_eq m hsum c o]
  rfl

include hsum hsq in
/-- The variance the normalising region is entered with is the specification's one-pass variance. -/
theorem var_eq (c : Dev nD) (o : Fin 8) :
    arrVar (Vr1 m) c (ix1 o)
      = Cert.Spec.varOnePass (arrA (Vr0 m) c) (arrV (Vr0 m) c) (arrW (Vr0 m) c) (arrBias (Vr0 m) c) o := by
  refine (var_after (V1 m (o1 m) c) o).trans ?_
  rw [V1_sum' m c, V1_sq' m c, sum1_eq m hsum c o, sum2_eq m hsq c o]
  rfl

include hsum hsq in
/-- THE RESULT ARRAY of the kernel program is the specification's result with the one-pass variance, of the six
    arguments as launched. -/
theorem resArr_eq_of (c : Dev nD) :
    (resArr m c : S4x1024x8x1024.Idx → EReal)
      = Cert.Spec.resultOnePass (arrA (Vr0 m) c) (arrV (Vr0 m) c) (arrW (Vr0 m) c) (arrBias (Vr0 m) c)
          (arrGamma (Vr0 m) c) (arrBeta (Vr0 m) c) := by
  refine (arrAt_result (Vr1 m) c).trans ?_
  funext i
  show _ = Cert.Spec.out (arrA (Vr0 m) c) (arrV (Vr0 m) c) (arrW (Vr0 m) c) (arrBias (Vr0 m) c) (arrGamma (Vr0 m) c)
    (arrBeta (Vr0 m) c) (Cert.Spec.varOnePass (arrA (Vr0 m) c) (arrV (Vr0 m) c) (arrW (Vr0 m) c) (arrBias (Vr0 m) c))
    (i 0) (i 1) (i 2) (i 3)
  unfold Cert.Spec.out
  refine congrArg₂ HAdd.hAdd (congrArg₂ HMul.hMul (congrArg₂ HMul.hMul (congrArg₂ HSub.hSub ?_ (mean_eq m hsum c (i 2)))
    (congrArg Ideal.rsqrt (congrArg (· + Cert.Spec.eps) (var_eq m hsum hsq c (i 2))))) (congrFun (Vr1_gamma m c) _))
    (congrFun (Vr1_beta m c) _)
  rw [Vr1_A m c, Vr1_V m c, Vr1_W m c, Vr1_bias m c]

include hsum hsq in
/-- The same with the six arguments spelt as the launch memory at their locations. -/
theorem resArr_eq_of_mem (c : Dev nD) :
    (resArr m c : S4x1024x8x1024.Idx → EReal)
      = Cert.Spec.resultOnePass (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) :=
  resArr_eq_of m hsum hsq c

end Stats

/-- THE KERNEL PROGRAM'S RESULT ARRAY is the specification's result with the one-pass variance, of the six arguments as
    launched: the statistics region's two arrays are the per-batch sums of the activations and of their squares, so the
    mean and the variance the normalising region reads are the specification's. -/
theorem resArr_eq (c : Dev nD) :
    (Cert.KernelIdeal.Hand.resArr m c : Cert.Spec.SA.Idx → EReal)
      = Cert.Spec.resultOnePass (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  resArr_eq_of m (fun V c b o => Cert.KernelIdeal.Value0.sumArr_apply V c b o)
    (fun V c b o => Cert.KernelIdeal.Value0.sqArr_apply V c b o) c

end Cert.KernelIdeal.Value

end
-- ==== Proof.lean ====
/-
  The proof of `Cert.Claim`: the kernel and its idealization run and leave their six arguments unchanged, the
  reference likewise, and at the extended reals the kernel's result array equals the reference's.

  The mathematics. For adjacency A, features V, weights W, bias, scale and shift, both programs compute
      act(b,n,o,m) = max(bias o + Σ_{l<8} A(b,n,l,m)·W(o,l) + exp(−‖V_n − V_m‖²)·W(o,8), 0),
  the squared distance expanded as ‖V_n‖² + ‖V_m‖² − 2⟨V_n, V_m⟩, and normalise it per channel o over the
  4·1024·1024 entries of the channel: (act − mean)·rsqrt(var + ε)·scale + shift. The kernel makes two passes over the
  data: the first accumulates, tile by tile within each batch, the sums of act and of act² per channel; the host then
  forms mean = S₁/N and var = max(S₂/N − mean², 0); the second pass recomputes act and normalises. The reference
  computes var = Σ(act − mean)²/N. The sums are the same sums regrouped (addition on the extended reals is commutative
  and associative), and the two variances agree because every act is a real number when the inputs are finite:
  Σ(x − μ)² = Σx² − Nμ² ≥ 0. That is the one place the precondition is used.

  The frames: each region of the kernel program is run from the state "every unscoped buffer whole at a known
  valuation"; a region's arrays are taken out of that state at its entry — the feature array, read through two
  windows, split into two half shares — and put back at its exit; the body of each kernel is run once per case
  (the statistics kernel resets its accumulators at the first tile of a batch and adds to them at the others).
-/
import proofs.«100599_j24919400252237_2_alg».proof.Defs
import proofs.«100599_j24919400252237_2_alg».proof.Proof.Gen.Kernel
import proofs.«100599_j24919400252237_2_alg».proof.Proof.Gen.KernelIdeal
import proofs.«100599_j24919400252237_2_alg».proof.Proof.Gen.ReferenceIdeal
import proofs.«100599_j24919400252237_2_alg».proof.Proof.Gen.Pre_finite_inputs
import proofs.«100599_j24919400252237_2_alg».proof.Proof.Gen.ReferenceIdeal.Read
import proofs.«100599_j24919400252237_2_alg».proof.Proof.KIRegs
import proofs.«100599_j24919400252237_2_alg».proof.Proof.KBRegs
import proofs.«100599_j24919400252237_2_alg».proof.Proof.RefValue
import proofs.«100599_j24919400252237_2_alg».proof.Proof.SpecLaw
import proofs.«100599_j24919400252237_2_alg».proof.Proof.PreReal
import proofs.«100599_j24919400252237_2_alg».proof.Proof.KIValue
import proofs.«100599_j24919400252237_2_alg».proof.Proof.KIValue0
import proofs.«100599_j24919400252237_2_alg».proof.Proof.KIValue1

noncomputable section

namespace Cert.Proof

open Idealize.ShloMosaic Idealize.SL.Sem

/-- The result array the idealized kernel ends with is the one-pass specification of its arguments: the statistics
    region's two sum arrays are the per-batch sums of the activations and of their squares, the host operations make
    the mean and the clamped one-pass variance of them, and the normalising region writes the normalised activations
    block by block over the whole result array. -/
theorem kernel_value (m : (ℓ : Loc Cert.KernelIdeal.nD Cert.KernelIdeal.τ Cert.KernelIdeal.sig) → Buf (Elt Ideal) ℓ) (c : Dev Cert.KernelIdeal.nD) :
    (Cert.KernelIdeal.Hand.resArr (F := Ideal) m c : Cert.Spec.SA.Idx → EReal)
      = Cert.Spec.resultOnePass (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) :=
  Cert.KernelIdeal.Value.resArr_eq_of_mem m
    (fun V c b o => Cert.KernelIdeal.Value0.sumArr_apply V c b o)
    (fun V c b o => Cert.KernelIdeal.Value0.sqArr_apply V c b o) c

/-- At the extended reals, from memories agreeing on the arguments, both programs run and end with equal result
    arrays: the kernel's is the one-pass specification, the reference's the two-pass one, and for finite inputs the
    two are one function. -/
theorem algebraic : Cert.algebraic_KernelIdeal_ReferenceIdeal := by
  intro m ρ m' ρ' hpre hagree
  refine ⟨fun c => Cert.KernelIdeal.Hand.resArr m c, Cert.KernelIdeal.Hand.run_named (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨hA, hV, hW, hb, -, -⟩ := Cert.PreReal.real_of_pre _ _ _ _ _ _ (hpre c)
  rw [Cert.ReferenceIdeal.Read.val_main_v47_eq, Cert.RefValue.ref_is_spec, (hagree c).1, (hagree c).2.1, (hagree c).2.2.1, (hagree c).2.2.2.1,
    (hagree c).2.2.2.2.1, (hagree c).2.2.2.2.2]
  rw [← Cert.SpecLaw.result_eq hA hV hW hb]
  exact (kernel_value m c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run Cert.ReferenceIdeal.defs _ _).mono (fun _ h c => (h c).2) (Cert.ReferenceIdeal.Value.run (F := Ideal) m ρ),
    trivial,
    algebraic⟩

end Cert.Proof

end
